-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x4096x128 : Shape := ⟨3, ![4, 4096, 128]⟩
abbrev S128x131 : Shape := ⟨2, ![128, 131]⟩
abbrev S128 : Shape := ⟨1, ![128]⟩
abbrev S512x128 : Shape := ⟨2, ![512, 128]⟩
abbrev S512 : Shape := ⟨1, ![512]⟩
abbrev S128x512 : Shape := ⟨2, ![128, 512]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S128x131 : S_.BroadcastsInDim S128x131 (![] : Fin 0 → Fin S128x131.rank)
  reducesTo_S128x131_S_d0_1 : S128x131.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_

variable [Facts]

def fn_part4 {F : FTy → Type} [FloatOps F] (main_arg14 : FVec F S128 .f32) (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg11 : FVec F S512 .f32) (main_arg12 : FVec F S128x512 .f32) (main_arg13 : FVec F S128 .f32) (main_arg14 : FVec F S128 .f32) (main_arg15 : FVec F S128 .f32) (main_arg16 : FVec F S128 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S128x512 .f32 := Host.absf main_arg12
  let main_cst_22 : FVec F S_ .f32 := constant S_ .f32 0x7F800000#32
  let main_v60 : FVec F S128x512 .f32 := broadcastInDim S128x512 ![] bcast_S_S128x512 main_cst_22
  let main_v61 : IVec S128x512 1 := cmpf .olt main_v59 main_v60
  let main_c_23 : IVec S_ 1 := constantI S_ 1 1#1
  let main_v62 : IVec S_ 1 := (fun x v => Host.reduce IntOp.andi x v reducesTo_S128x512_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_v63 main_v67

def fn_part2 {F : FTy → Type} [FloatOps F] (main_arg7 : FVec F S512x128 .f32) (main_arg8 : FVec F S512 .f32) (main_arg9 : FVec F S512 .f32) (main_arg10 : FVec F S512 .f32) (main_arg11 : FVec F S512 .f32) (main_arg12 : FVec F S128x512 .f32) (main_arg13 : FVec F S128 .f32) (main_arg14 : FVec F S128 .f32) (main_arg15 : FVec F S128 .f32) (main_arg16 : FVec F S128 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128 .f32) (main_arg6 : FVec F S128 .f32) (main_arg7 : FVec F S512x128 .f32) (main_arg8 : FVec F S512 .f32) (main_arg9 : FVec F S512 .f32) (main_arg10 : FVec F S512 .f32) (main_arg11 : FVec F S512 .f32) (main_arg12 : FVec F S128x512 .f32) (main_arg13 : FVec F S128 .f32) (main_arg14 : FVec F S128 .f32) (main_arg15 : FVec F S128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4x4096x3 .f32) (main_arg1 : FVec F S4x4096x128 .f32) (main_arg2 : FVec F S128x131 .f32) (main_arg3 : FVec F S128 .f32) (main_arg4 : FVec F S128 .f32) (main_arg5 : FVec F S128 .f32) (main_arg6 : FVec F S128 .f32) (main_arg7 : FVec F S512x128 .f32) (main_arg8 : FVec F S512 .f32) (main_arg9 : FVec F S512 .f32) (main_arg10 : FVec F S512 .f32) (main_arg11 : FVec F S512 .f32) (main_arg12 : FVec F S128x512 .f32) (main_arg13 : FVec F S128 .f32) (main_arg14 : FVec F S128 .f32) (main_arg15 : FVec F S128 .f32) (main_arg16 : FVec F S128 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  let main_v9 : FVec F S128x131 .f32 := Host.absf main_arg2
  let main_cst_2 : FVec F S_ .f32 := constant S_ .f32 0x7F800000#32
  let main_v10 : FVec F S128x131 .f32 := broadcastInDim S128x131 ![] bcast_S_S128x131 main_cst_2
  let main_v11 : IVec S128x131 1 := cmpf .olt main_v9 main_v10
  let main_c_3 : IVec S_ 1 := constantI S_ 1 1#1
  let main_v12 : IVec S_ 1 := (fun x v => Host.reduce IntOp.andi x v reducesTo_S128x131_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4x4096x3 : Shape := ⟨3, ![4, 4096, 3]⟩
abbrev S4x4096x128 : Shape := ⟨3, ![4, 4096, 128]⟩
abbrev S128x131 : Shape := ⟨2, ![128, 131]⟩
abbrev S128 : Shape := ⟨1, ![128]⟩
abbrev S512x128 : Shape := ⟨2, ![512, 128]⟩
abbrev S512 : Shape := ⟨1, ![512]⟩
abbrev S128x512 : Shape := ⟨2, ![128, 512]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4096 : Shape := ⟨1, ![4096]⟩
abbrev S4x4096x32 : Shape := ⟨3, ![4, 4096, 32]⟩
abbrev S4x4096x1 : Shape := ⟨3, ![4, 4096, 1]⟩
abbrev S4x131072x1 : Shape := ⟨3, ![4, 131072, 1]⟩
abbrev S1 : Shape := ⟨1, ![1]⟩
abbrev S1x1x1 : Shape := ⟨3, ![1, 1, 1]⟩
abbrev S4x131072 : Shape := ⟨2, ![4, 131072]⟩
abbrev S4x131072x3 : Shape := ⟨3, ![4, 131072, 3]⟩
abbrev S4x4096x32x3 : Shape := ⟨4, ![4, 4096, 32, 3]⟩
abbrev S4x131072x128 : Shape := ⟨3, ![4, 131072, 128]⟩
abbrev S4x4096x32x128 : Shape := ⟨4, ![4, 4096, 32, 128]⟩
abbrev S16384x32x128 : Shape := ⟨3, ![16384, 32, 128]⟩
abbrev S16384x32x3 : Shape := ⟨3, ![16384, 32, 3]⟩
abbrev S16384x128 : Shape := ⟨2, ![16384, 128]⟩
abbrev S128x3 : Shape := ⟨2, ![128, 3]⟩
abbrev S3x128 : Shape := ⟨2, ![3, 128]⟩
abbrev S128x128 : Shape := ⟨2, ![128, 128]⟩
abbrev S256x32x128 : Shape := ⟨3, ![256, 32, 128]⟩
abbrev S256x32x3 : Shape := ⟨3, ![256, 32, 3]⟩
abbrev S256x128 : Shape := ⟨2, ![256, 128]⟩
abbrev S8192x128 : Shape := ⟨2, ![8192, 128]⟩
abbrev S8192x3 : Shape := ⟨2, ![8192, 3]⟩
abbrev S1x128 : Shape := ⟨2, ![1, 128]⟩
abbrev S256x512 : Shape := ⟨2, ![256, 512]⟩
abbrev S1x512 : Shape := ⟨2, ![1, 512]⟩

abbrev nBuf : Space → Nat
  | .hbm => 111
  | .vmem => 24
  | .smem => 0
  | _ => 0

abbrev bufTy : (tb : Table) → Fin (tcTables nBuf tb) → BufTy
  | .hbm, ⟨0, _⟩ => ⟨S4x4096x3, .f32⟩
  | .hbm, ⟨1, _⟩ => ⟨S4x4096x128, .f32⟩
  | .hbm, ⟨2, _⟩ => ⟨S128x131, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S128x512, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S4x4096x1x3, .f32⟩
  | .hbm, ⟨18, _⟩ => ⟨S4x1x4096x3, .f32⟩
  | .hbm, ⟨19, _⟩ => ⟨S4x4096x4096x3, .f32⟩
  | .hbm, ⟨20, _⟩ => ⟨S4x4096x4096x3, .f32⟩
  | .hbm, ⟨21, _⟩ => ⟨S4x4096x4096x3, .f32⟩
  | .hbm, ⟨22, _⟩ => ⟨S4x4096x4096x3, .f32⟩
  | .hbm, ⟨23, _⟩ => ⟨S_, .f32⟩
  | .hbm, ⟨24, _⟩ => ⟨S4x4096x4096, .f32⟩
  | .hbm, ⟨25, _⟩ => ⟨S4096, .i32⟩
  | .hbm, ⟨26, _⟩ => ⟨S4x4096x4096, .i32⟩
  | .hbm, ⟨27, _⟩ => ⟨S_, .f32⟩
  | .hbm, ⟨28, _⟩ => ⟨S4x4096x4096, .f32⟩
  | .hbm, ⟨29, _⟩ => ⟨S4x4096x4096, .i1⟩
  | .hbm, ⟨30, _⟩ => ⟨S_, .i32⟩
  | .hbm, ⟨31, _⟩ => ⟨S_, .i32⟩
  | .hbm, ⟨32, _⟩ => ⟨S4x4096x4096, .i32⟩
  | .hbm, ⟨33, _⟩ => ⟨S4x4096x4096, .i32⟩
  | .hbm, ⟨34, _⟩ => ⟨S4x4096x4096, .i32⟩
  | .hbm, ⟨35, _⟩ => ⟨S4x4096x32, .i32⟩
  | .hbm, ⟨36, _⟩ => ⟨S4x4096x1, .i32⟩
  | .hbm, ⟨37, _⟩ => ⟨S_, .i32⟩
  | .hbm, ⟨38, _⟩ => ⟨S4x4096x32, .i32⟩
  | .hbm, ⟨39, _⟩ => ⟨S4x4096x32, .i1⟩
  | .hbm, ⟨40, _⟩ => ⟨S4x4096x32, .i32⟩
  | .hbm, ⟨41, _⟩ => ⟨S4x4096x32, .i32⟩
  | .hbm, ⟨42, _⟩ => ⟨S4x131072x1, .i32⟩
  | .hbm, ⟨43, _⟩ => ⟨S_, .i32⟩
  | .hbm, ⟨44, _⟩ => ⟨S4x131072x1, .i32⟩
  | .hbm, ⟨45, _⟩ => ⟨S4x131072x1, .i1⟩
  | .hbm, ⟨46, _⟩ => ⟨S_, .i32⟩
  | .hbm, ⟨47, _⟩ => ⟨S4x131072x1, .i32⟩
  | .hbm, ⟨48, _⟩ => ⟨S4x131072x1, .i32⟩
  | .hbm, ⟨49, _⟩ => ⟨S4x131072x1, .i32⟩
  | .hbm, ⟨50, _⟩ => ⟨S1, .i32⟩
  | .hbm, ⟨51, _⟩ => ⟨S_, .i32⟩
  | .hbm, ⟨52, _⟩ => ⟨S4x131072x1, .i32⟩
  | .hbm, ⟨53, _⟩ => ⟨S4x131072x1, .i1⟩
  | .hbm, ⟨54, _⟩ => ⟨S1x1x1, .i32⟩
  | .hbm, ⟨55, _⟩ => ⟨S4x131072x1, .i32⟩
  | .hbm, ⟨56, _⟩ => ⟨S4x131072x1, .i1⟩
  | .hbm, ⟨57, _⟩ => ⟨S4x131072x1, .i1⟩
  | .hbm, ⟨58, _⟩ => ⟨S_, .i1⟩
  | .hbm, ⟨59, _⟩ => ⟨S4x131072, .i1⟩
  | .hbm, ⟨60, _⟩ => ⟨S4x131072x3, .f32⟩
  | .hbm, ⟨61, _⟩ => ⟨S4x131072x3, .i1⟩
  | .hbm, ⟨62, _⟩ => ⟨S_, .f32⟩
  | .hbm, ⟨63, _⟩ => ⟨S4x131072x3, .f32⟩
  | .hbm, ⟨64, _⟩ => ⟨S4x131072x3, .f32⟩
  | .hbm, ⟨65, _⟩ => ⟨S4x4096x32x3, .f32⟩
  | .hbm, ⟨66, _⟩ => ⟨S4x4096x1x3, .f32⟩
  | .hbm, ⟨67, _⟩ => ⟨S4x4096x32x3, .f32⟩
  | .hbm, ⟨68, _⟩ => ⟨S4x4096x32x3, .f32⟩
  | .hbm, ⟨69, _⟩ => ⟨S_, .f32⟩
  | .hbm, ⟨70, _⟩ => ⟨S4x4096x32x3, .f32⟩
  | .hbm, ⟨71, _⟩ => ⟨S4x4096x32x3, .f32⟩
  | .hbm, ⟨72, _⟩ => ⟨S4x131072x1, .i32⟩
  | .hbm, ⟨73, _⟩ => ⟨S_, .i32⟩
  | .hbm, ⟨74, _⟩ => ⟨S4x131072x1, .i32⟩
  | .hbm, ⟨75, _⟩ => ⟨S4x131072x1, .i1⟩
  | .hbm, ⟨76, _⟩ => ⟨S_, .i32⟩
  | .hbm, ⟨77, _⟩ => ⟨S4x131072x1, .i32⟩
  | .hbm, ⟨78, _⟩ => ⟨S4x131072x1, .i32⟩
  | .hbm, ⟨79, _⟩ => ⟨S4x131072x1, .i32⟩
  | .hbm, ⟨80, _⟩ => ⟨S1, .i32⟩
  | .hbm, ⟨81, _⟩ => ⟨S_, .i32⟩
  | .hbm, ⟨82, _⟩ => ⟨S4x131072x1, .i32⟩
  | .hbm, ⟨83, _⟩ => ⟨S4x131072x1, .i1⟩
  | .hbm, ⟨84, _⟩ => ⟨S1x1x1, .i32⟩
  | .hbm, ⟨85, _⟩ => ⟨S4x131072x1, .i32⟩
  | .hbm, ⟨86, _⟩ => ⟨S4x131072x1, .i1⟩
  | .hbm, ⟨87, _⟩ => ⟨S4x131072x1, .i1⟩
  | .hbm, ⟨88, _⟩ => ⟨S_, .i1⟩
  | .hbm, ⟨89, _⟩ => ⟨S4x131072, .i1⟩
  | .hbm, ⟨90, _⟩ => ⟨S4x131072x128, .f32⟩
  | .hbm, ⟨91, _⟩ => ⟨S4x131072x128, .i1⟩
  | .hbm, ⟨92, _⟩ => ⟨S_, .f32⟩
  | .hbm, ⟨93, _⟩ => ⟨S4x131072x128, .f32⟩
  | .hbm, ⟨94, _⟩ => ⟨S4x131072x128, .f32⟩
  | .hbm, ⟨95, _⟩ => ⟨S4x4096x32x128, .f32⟩
  | .hbm, ⟨96, _⟩ => ⟨S16384x32x128, .f32⟩
  | .hbm, ⟨97, _⟩ => ⟨S16384x32x3, .f32⟩
  | .hbm, ⟨98, _⟩ => ⟨S16384x128, .f32⟩
  | .hbm, ⟨99, _⟩ => ⟨S128x3, .f32⟩
  | .hbm, ⟨100, _⟩ => ⟨S3x128, .f32⟩
  | .hbm, ⟨101, _⟩ => ⟨S3x128, .bf16⟩
  | .hbm, ⟨102, _⟩ => ⟨S128x128, .f32⟩
  | .hbm, ⟨103, _⟩ => ⟨S128x128, .f32⟩
  | .hbm, ⟨104, _⟩ => ⟨S128x128, .bf16⟩
  | .hbm, ⟨105, _⟩ => ⟨S128x512, .f32⟩
  | .hbm, ⟨106, _⟩ => ⟨S128x512, .bf16⟩
  | .hbm, ⟨107, _⟩ => ⟨S512x128, .f32⟩
  | .hbm, ⟨108, _⟩ => ⟨S512x128, .bf16⟩
  | .hbm, ⟨109, _⟩ => ⟨S16384x128, .f32⟩
  | .hbm, ⟨110, _⟩ => ⟨S4x4096x128, .f32⟩
  | .local _ .vmem, ⟨0, _⟩ => ⟨S256x32x128, .f32⟩
  | .local _ .vmem, ⟨1, _⟩ => ⟨S256x32x128, .f32⟩
  | .local _ .vmem, ⟨2, _⟩ => ⟨S256x32x3, .f32⟩
  | .local _ .vmem, ⟨3, _⟩ => ⟨S256x32x3, .f32⟩
  | .local _ .vmem, ⟨4, _⟩ => ⟨S256x128, .f32⟩
  | .local _ .vmem, ⟨5, _⟩ => ⟨S256x128, .f32⟩
  | .local _ .vmem, ⟨6, _⟩ => ⟨S3x128, .bf16⟩
  | .local _ .vmem, ⟨7, _⟩ => ⟨S128x128, .bf16⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128x512, .bf16⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S512x128, .bf16⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S256x128, .f32⟩
  | .local _ .vmem, ⟨23, _⟩ => ⟨S256x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_v15 : Ref sig .tc := ⟨.hbm, 38, rfl⟩
abbrev main_v16 : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_call3_c : Ref sig .tc := ⟨.hbm, 43, rfl⟩
abbrev main_call3_v0 : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_c_1 : Ref sig .tc := ⟨.hbm, 50, rfl⟩
abbrev main_call3_c_2 : Ref sig .tc := ⟨.hbm, 51, rfl⟩
abbrev main_call3_v5 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_call3_c_3 : Ref sig .tc := ⟨.hbm, 58, rfl⟩
abbrev main_call3_v11 : Ref sig .tc := ⟨.hbm, 59, rfl⟩
abbrev main_call3_v12 : Ref sig .tc := ⟨.hbm, 60, rfl⟩
abbrev main_call3_v13 : Ref sig .tc := ⟨.hbm, 61, rfl⟩
abbrev main_call3_cst : Ref sig .tc := ⟨.hbm, 62, rfl⟩
abbrev main_call3_v14 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst_2 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_c_1 : Ref sig .tc := ⟨.hbm, 80, rfl⟩
abbrev main_call4_c_2 : Ref sig .tc := ⟨.hbm, 81, rfl⟩
abbrev main_call4_v5 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_c_3 : Ref sig .tc := ⟨.hbm, 88, rfl⟩
abbrev main_call4_v11 : Ref sig .tc := ⟨.hbm, 89, rfl⟩
abbrev main_call4_v12 : Ref sig .tc := ⟨.hbm, 90, rfl⟩
abbrev main_call4_v13 : Ref sig .tc := ⟨.hbm, 91, rfl⟩
abbrev main_call4_cst : Ref sig .tc := ⟨.hbm, 92, rfl⟩
abbrev main_call4_v14 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  bcast_S4096_S4x4096x4096_2 : S4096.BroadcastsInDim S4x4096x4096 (![2] : Fin 1 → Fin S4x4096x4096.rank)
  bcast_S_S4x4096x4096 : S_.BroadcastsInDim S4x4096x4096 (![] : Fin 0 → Fin S4x4096x4096.rank)
  slices_S4x4096x4096_S4x4096x32_0_0_0 : S4x4096x4096.Slices ![0, 0, 0] S4x4096x32
  slices_S4x4096x32_S4x4096x1_0_0_0 : S4x4096x32.Slices ![0, 0, 0] S4x4096x1
  bcast_S_S4x4096x32 : S_.BroadcastsInDim S4x4096x32 (![] : Fin 0 → Fin S4x4096x32.rank)
  bcast_S4x4096x1_S4x4096x32_0_1_2 : S4x4096x1.BroadcastsInDim S4x4096x32 (![0, 1, 2] : Fin 3 → Fin S4x4096x32.rank)
  shapeCasts_S4x4096x32_S4x131072x1 : S4x4096x32.ShapeCasts S4x131072x1
  bcast_S_S4x131072x1 : S_.BroadcastsInDim S4x131072x1 (![] : Fin 0 → Fin S4x131072x1.rank)
  bcast_S1_S1x1x1_2 : S1.BroadcastsInDim S1x1x1 (![2] : Fin 1 → Fin S1x1x1.rank)
  bcast_S1x1x1_S4x131072x1_0_1_2 : S1x1x1.BroadcastsInDim S4x131072x1 (![0, 1, 2] : Fin 3 → Fin S4x131072x1.rank)
  reducesTo_S4x131072x1_S4x131072_d2 : S4x131072x1.ReducesTo [2] S4x131072
  bcast_S4x131072_S4x131072x3_0_1 : S4x131072.BroadcastsInDim S4x131072x3 (![0, 1] : Fin 2 → Fin S4x131072x3.rank)
  bcast_S_S4x131072x3 : S_.BroadcastsInDim S4x131072x3 (![] : Fin 0 → Fin S4x131072x3.rank)
  shapeCasts_S4x131072x3_S4x4096x32x3 : S4x131072x3.ShapeCasts S4x4096x32x3
  bcast_S4x4096x1x3_S4x4096x32x3_0_1_2_3 : S4x4096x1x3.BroadcastsInDim S4x4096x32x3 (![0, 1, 2, 3] : Fin 4 → Fin S4x4096x32x3.rank)
  bcast_S_S4x4096x32x3 : S_.BroadcastsInDim S4x4096x32x3 (![] : Fin 0 → Fin S4x4096x32x3.rank)
  bcast_S4x131072_S4x131072x128_0_1 : S4x131072.BroadcastsInDim S4x131072x128 (![0, 1] : Fin 2 → Fin S4x131072x128.rank)
  bcast_S_S4x131072x128 : S_.BroadcastsInDim S4x131072x128 (![] : Fin 0 → Fin S4x131072x128.rank)
  shapeCasts_S4x131072x128_S4x4096x32x128 : S4x131072x128.ShapeCasts S4x4096x32x128
  shapeCasts_S4x4096x32x128_S16384x32x128 : S4x4096x32x128.ShapeCasts S16384x32x128
  shapeCasts_S4x4096x32x3_S16384x32x3 : S4x4096x32x3.ShapeCasts S16384x32x3
  shapeCasts_S4x4096x128_S16384x128 : S4x4096x128.ShapeCasts S16384x128
  slices_S128x131_S128x3_0_0 : S128x131.Slices ![0, 0] S128x3
  transposes_S128x3_S3x128_1_0 : S128x3.Transposes [1, 0] S3x128
  bitsLt_bf16_f32 : FTy.bits .bf16 < FTy.bits .f32
  slices_S128x131_S128x128_0_3 : S128x131.Slices ![0, 3] S128x128
  transposes_S128x128_S128x128_1_0 : S128x128.Transposes [1, 0] S128x128
  transposes_S512x128_S128x512_1_0 : S512x128.Transposes [1, 0] S128x512
  transposes_S128x512_S512x128_1_0 : S128x512.Transposes [1, 0] S512x128
  inb_S256x32x128_S256x32x128_0_0_0 : ∀ a, (![0, 0, 0] : Fin 3 → Nat) a + S256x32x128.size a ≤ S256x32x128.size a
  h_S256x32x128 : 0 < S256x32x128.numel
  shapeCasts_S256x32x128_S256x32x128 : S256x32x128.ShapeCasts S256x32x128
  inb_S256x32x3_S256x32x3_0_0_0 : ∀ a, (![0, 0, 0] : Fin 3 → Nat) a + S256x32x3.size a ≤ S256x32x3.size a
  h_S256x32x3 : 0 < S256x32x3.numel
  shapeCasts_S256x32x3_S256x32x3 : S256x32x3.ShapeCasts S256x32x3
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x32x128_S8192x128 : S256x32x128.ShapeCasts S8192x128
  shapeCasts_S256x32x3_S8192x3 : S256x32x3.ShapeCasts S8192x3
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S256x32x128 : S8192x128.ShapeCasts S256x32x128
  reduces_S256x32x128_S256x128 : S256x32x128.Reduces [1] S256x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S256x128 : S1x128.Broadcasts S256x128
  shapeCasts_S16384x128_S4x4096x128 : S16384x128.ShapeCasts S4x4096x128
  gather_S4x4096x3_S4x131072x1_S4x131072x3_2_1_0_0_1_2_113_wf : GatherDims.WF S4x4096x3 S4x131072x1 S4x131072x3 [2] [1] [0] [1] [0] 2 ![1, 1, 3]
  gather_S4x4096x128_S4x131072x1_S4x131072x128_2_1_0_0_1_2_11128_wf : GatherDims.WF S4x4096x128 S4x131072x1 S4x131072x128 [2] [1] [0] [1] [0] 2 ![1, 1, 128]
  dot_S8192x128_S128x128_S8192x128_1_0_0_1_n_n_wf : DotDims.WF S8192x128 S128x128 S8192x128 [1] [0] [0] [1] [] []
  dot_S8192x3_S3x128_S8192x128_1_0_0_1_n_n_wf : DotDims.WF S8192x3 S3x128 S8192x128 [1] [0] [0] [1] [] []
  dot_S256x128_S128x512_S256x512_1_0_0_1_n_n_wf : DotDims.WF S256x128 S128x512 S256x512 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x128.size a ≤ S16384x32x128.size a
  hwx0_0 : ∀ i : grid0.Coords, EltTy.bits .f32 = 32 ∨ (Rect.block (s := S16384x32x128) S256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x3.size a ≤ S16384x32x3.size a
  hwx0_1 : ∀ i : grid0.Coords, EltTy.bits .f32 = 32 ∨ (Rect.block (s := S16384x32x3) S256x32x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S16384x128.size a
  hwx0_2 : ∀ i : grid0.Coords, EltTy.bits .f32 = 32 ∨ (Rect.block (s := S16384x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .bf16 = 32 ∨ (Rect.block (s := S3x128) S3x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S128x512.size a
  hwx0_9 : ∀ i : grid0.Coords, EltTy.bits .bf16 = 32 ∨ (Rect.block (s := S128x512) S128x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x128.size a ≤ S512x128.size a
  hwx0_14 : ∀ i : grid0.Coords, EltTy.bits .bf16 = 32 ∨ (Rect.block (s := S512x128) S512x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S16384x128.size a
  hwx0_19 : ∀ i : grid0.Coords, EltTy.bits .f32 = 32 ∨ (Rect.block (s := S16384x128) S256x128.size (cc0_transform_19 i) (hinb0_19 i)).WholeWords (EltTy.packing .f32)

variable [Facts₀]

def comparator_i32_d2 : BitVec 32 → BitVec 32 → BitVec 1 :=
  fun l r =>
    let v1 := IntOp.cmpi .slt l r
    v1
def gather_S4x4096x3_S4x131072x1_S4x131072x3_2_1_0_0_1_2_113 : GatherDims S4x4096x3 S4x131072x1 S4x131072x3 where
  offsetDims := [2]
  collapsedSliceDims := [1]
  operandBatchingDims := [0]
  startIndicesBatchingDims := [0]
  startIndexMap := [1]
  indexVectorDim := 2
  sliceSizes := ![1, 1, 3]
  wf := gather_S4x4096x3_S4x131072x1_S4x131072x3_2_1_0_0_1_2_113_wf
def gather_S4x4096x128_S4x131072x1_S4x131072x128_2_1_0_0_1_2_11128 : GatherDims S4x4096x128 S4x131072x1 S4x131072x128 where
  offsetDims := [2]
  collapsedSliceDims := [1]
  operandBatchingDims := [0]
  startIndicesBatchingDims := [0]
  startIndexMap := [1]
  indexVectorDim := 2
  sliceSizes := ![1, 1, 128]
  wf := gather_S4x4096x128_S4x131072x1_S4x131072x128_2_1_0_0_1_2_11128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x3_S3x128_S8192x128_1_0_0_1_n_n : DotDims S8192x3 S3x128 S8192x128 where
  lhsContracting := [1]
  rhsContracting := [0]
  lhsNonContracting := [0]
  rhsNonContracting := [1]
  lhsBatch := []
  rhsBatch := []
  wf := dot_S8192x3_S3x128_S8192x128_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v29) S256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S256x32x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S128x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v41) S512x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg14) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg15) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg16) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v42) S256x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S4x4096x128 : Shape := ⟨3, ![4, 4096, 128]⟩
abbrev S128x131 : Shape := ⟨2, ![128, 131]⟩
abbrev S128 : Shape := ⟨1, ![128]⟩
abbrev S512x128 : Shape := ⟨2, ![512, 128]⟩
abbrev S512 : Shape := ⟨1, ![512]⟩
abbrev S128x512 : Shape := ⟨2, ![128, 512]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4096 : Shape := ⟨1, ![4096]⟩
abbrev S4x4096x32 : Shape := ⟨3, ![4, 4096, 32]⟩
abbrev S4x4096x1 : Shape := ⟨3, ![4, 4096, 1]⟩
abbrev S4x131072x1 : Shape := ⟨3, ![4, 131072, 1]⟩
abbrev S1 : Shape := ⟨1, ![1]⟩
abbrev S1x1x1 : Shape := ⟨3, ![1, 1, 1]⟩
abbrev S4x131072 : Shape := ⟨2, ![4, 131072]⟩
abbrev S4x131072x3 : Shape := ⟨3, ![4, 131072, 3]⟩
abbrev S4x4096x32x3 : Shape := ⟨4, ![4, 4096, 32, 3]⟩
abbrev S4x131072x128 : Shape := ⟨3, ![4, 131072, 128]⟩
abbrev S4x4096x32x128 : Shape := ⟨4, ![4, 4096, 32, 128]⟩
abbrev S4x4096x32x131 : Shape := ⟨4, ![4, 4096, 32, 131]⟩
abbrev S1x1x1x128 : Shape := ⟨4, ![1, 1, 1, 128]⟩
abbrev S4x4096x512 : Shape := ⟨3, ![4, 4096, 512]⟩
abbrev S1x1x512 : Shape := ⟨3, ![1, 1, 512]⟩
abbrev S1x1x128 : Shape := ⟨3, ![1, 1, 128]⟩

abbrev nBuf : Space → Nat
  | .hbm => 157
  | .vmem => 0
  | .smem => 0
  | _ => 0

abbrev hbmTy0_0 (i : Nat) : BufTy := match i % 128 with
  | 0 => ⟨S4x4096x3, .f32⟩
  | 1 => ⟨S4x4096x128, .f32⟩
  | 2 => ⟨S128x131, .f32⟩
  | 3 => ⟨S128, .f32⟩
  | 4 => ⟨S128, .f32⟩
  | 5 => ⟨S128, .f32⟩
  | 6 => ⟨S128, .f32⟩
  | 7 => ⟨S512x128, .f32⟩
  | 8 => ⟨S512, .f32⟩
  | 9 => ⟨S512, .f32⟩
  | 10 => ⟨S512, .f32⟩
  | 11 => ⟨S512, .f32⟩
  | 12 => ⟨S128x512, .f32⟩
  | 13 => ⟨S128, .f32⟩
  | 14 => ⟨S128, .f32⟩
  | 15 => ⟨S128, .f32⟩
  | 16 => ⟨S128, .f32⟩
  | 17 => ⟨S4x4096x1x3, .f32⟩
  | 18 => ⟨S4x1x4096x3, .f32⟩
  | 19 => ⟨S4x4096x4096x3, .f32⟩
  | 20 => ⟨S4x4096x4096x3, .f32⟩
  | 21 => ⟨S4x4096x4096x3, .f32⟩
  | 22 => ⟨S4x4096x4096x3, .f32⟩
  | 23 => ⟨S_, .f32⟩
  | 24 => ⟨S4x4096x4096, .f32⟩
  | 25 => ⟨S4096, .i32⟩
  | 26 => ⟨S4x4096x4096, .i32⟩
  | 27 => ⟨S_, .f32⟩
  | 28 => ⟨S4x4096x4096, .f32⟩
  | 29 => ⟨S4x4096x4096, .i1⟩
  | 30 => ⟨S_, .i32⟩
  | 31 => ⟨S_, .i32⟩
  | 32 => ⟨S4x4096x4096, .i32⟩
  | 33 => ⟨S4x4096x4096, .i32⟩
  | 34 => ⟨S4x4096x4096, .i32⟩
  | 35 => ⟨S4x4096x32, .i32⟩
  | 36 => ⟨S4x4096x1, .i32⟩
  | 37 => ⟨S_, .i32⟩
  | 38 => ⟨S4x4096x32, .i32⟩
  | 39 => ⟨S4x4096x32, .i1⟩
  | 40 => ⟨S4x4096x32, .i32⟩
  | 41 => ⟨S4x4096x32, .i32⟩
  | 42 => ⟨S4x131072x1, .i32⟩
  | 43 => ⟨S_, .i32⟩
  | 44 => ⟨S4x131072x1, .i32⟩
  | 45 => ⟨S4x131072x1, .i1⟩
  | 46 => ⟨S_, .i32⟩
  | 47 => ⟨S4x131072x1, .i32⟩
  | 48 => ⟨S4x131072x1, .i32⟩
  | 49 => ⟨S4x131072x1, .i32⟩
  | 50 => ⟨S1, .i32⟩
  | 51 => ⟨S_, .i32⟩
  | 52 => ⟨S4x131072x1, .i32⟩
  | 53 => ⟨S4x131072x1, .i1⟩
  | 54 => ⟨S1x1x1, .i32⟩
  | 55 => ⟨S4x131072x1, .i32⟩
  | 56 => ⟨S4x131072x1, .i1⟩
  | 57 => ⟨S4x131072x1, .i1⟩
  | 58 => ⟨S_, .i1⟩
  | 59 => ⟨S4x131072, .i1⟩
  | 60 => ⟨S4x131072x3, .f32⟩
  | 61 => ⟨S4x131072x3, .i1⟩
  | 62 => ⟨S_, .f32⟩
  | 63 => ⟨S4x131072x3, .f32⟩
  | 64 => ⟨S4x131072x3, .f32⟩
  | 65 => ⟨S4x4096x32x3, .f32⟩
  | 66 => ⟨S4x4096x1x3, .f32⟩
  | 67 => ⟨S4x4096x32x3, .f32⟩
  | 68 => ⟨S4x4096x32x3, .f32⟩
  | 69 => ⟨S_, .f32⟩
  | 70 => ⟨S4x4096x32x3, .f32⟩
  | 71 => ⟨S4x4096x32x3, .f32⟩
  | 72 => ⟨S4x131072x1, .i32⟩
  | 73 => ⟨S_, .i32⟩
  | 74 => ⟨S4x131072x1, .i32⟩
  | 75 => ⟨S4x131072x1, .i1⟩
  | 76 => ⟨S_, .i32⟩
  | 77 => ⟨S4x131072x1, .i32⟩
  | 78 => ⟨S4x131072x1, .i32⟩
  | 79 => ⟨S4x131072x1, .i32⟩
  | 80 => ⟨S1, .i32⟩
  | 81 => ⟨S_, .i32⟩
  | 82 => ⟨S4x131072x1, .i32⟩
  | 83 => ⟨S4x131072x1, .i1⟩
  | 84 => ⟨S1x1x1, .i32⟩
  | 85 => ⟨S4x131072x1, .i32⟩
  | 86 => ⟨S4x131072x1, .i1⟩
  | 87 => ⟨S4x131072x1, .i1⟩
  | 88 => ⟨S_, .i1⟩
  | 89 => ⟨S4x131072, .i1⟩
  | 90 => ⟨S4x131072x128, .f32⟩
  | 91 => ⟨S4x131072x128, .i1⟩
  | 92 => ⟨S_, .f32⟩
  | 93 => ⟨S4x131072x128, .f32⟩
  | 94 => ⟨S4x131072x128, .f32⟩
  | 95 => ⟨S4x4096x32x128, .f32⟩
  | 96 => ⟨S4x4096x32x131, .f32⟩
  | 97 => ⟨S4x4096x32x128, .f32⟩
  | 98 => ⟨S1x1x1x128, .f32⟩
  | 99 => ⟨S1x1x1x128, .f32⟩
  | 100 => ⟨S1x1x1x128, .f32⟩
  | 101 => ⟨S1x1x1x128, .f32⟩
  | 102 => ⟨S4x4096x32x128, .f32⟩
  | 103 => ⟨S4x4096x32x128, .f32⟩
  | 104 => ⟨S_, .f32⟩
  | 105 => ⟨S1x1x1x128, .f32⟩
  | 106 => ⟨S1x1x1x128, .f32⟩
  | 107 => ⟨S1x1x1x128, .f32⟩
  | 108 => ⟨S1x1x1x128, .f32⟩
  | 109 => ⟨S4x4096x32x128, .f32⟩
  | 110 => ⟨S4x4096x32x128, .f32⟩
  | 111 => ⟨S4x4096x32x128, .f32⟩
  | 112 => ⟨S4x4096x32x128, .f32⟩
  | 113 => ⟨S_, .f32⟩
  | 114 => ⟨S4x4096x32x128, .f32⟩
  | 115 => ⟨S4x4096x32x128, .f32⟩
  | 116 => ⟨S_, .f32⟩
  | 117 => ⟨S4x4096x128, .f32⟩
  | 118 => ⟨S4x4096x512, .f32⟩
  | 119 => ⟨S1x1x512, .f32⟩
  | 120 => ⟨S1x1x512, .f32⟩
  | 121 => ⟨S1x1x512, .f32⟩
  | 122 => ⟨S1x1x512, .f32⟩
  | 123 => ⟨S4x4096x512, .f32⟩
  | 124 => ⟨S4x4096x512, .f32⟩
  | 125 => ⟨S_, .f32⟩
  | 126 => ⟨S1x1x512, .f32⟩
  | 127 => ⟨S1x1x512, .f32⟩
  | _ => ⟨S4x4096x3, .f32⟩

abbrev hbmTy0_1 (i : Nat) : BufTy := match i % 128 with
  | 0 => ⟨S1x1x512, .f32⟩
  | 1 => ⟨S1x1x512, .f32⟩
  | 2 => ⟨S4x4096x512, .f32⟩
  | 3 => ⟨S4x4096x512, .f32⟩
  | 4 => ⟨S4x4096x512, .f32⟩
  | 5 => ⟨S4x4096x512, .f32⟩
  | 6 => ⟨S_, .f32⟩
  | 7 => ⟨S4x4096x512, .f32⟩
  | 8 => ⟨S4x4096x512, .f32⟩
  | 9 => ⟨S4x4096x128, .f32⟩
  | 10 => ⟨S1x1x128, .f32⟩
  | 11 => ⟨S1x1x128, .f32⟩
  | 12 => ⟨S1x1x128, .f32⟩
  | 13 => ⟨S1x1x128, .f32⟩
  | 14 => ⟨S4x4096x128, .f32⟩
  | 15 => ⟨S4x4096x128, .f32⟩
  | 16 => ⟨S_, .f32⟩
  | 17 => ⟨S1x1x128, .f32⟩
  | 18 => ⟨S1x1x128, .f32⟩
  | 19 => ⟨S1x1x128, .f32⟩
  | 20 => ⟨S1x1x128, .f32⟩
  | 21 => ⟨S4x4096x128, .f32⟩
  | 22 => ⟨S4x4096x128, .f32⟩
  | 23 => ⟨S4x4096x128, .f32⟩
  | 24 => ⟨S4x4096x128, .f32⟩
  | 25 => ⟨S4x4096x128, .f32⟩
  | 26 => ⟨S_, .f32⟩
  | 27 => ⟨S4x4096x128, .f32⟩
  | 28 => ⟨S4x4096x128, .f32⟩
  | _ => ⟨S4x4096x3, .f32⟩

abbrev hbmTy (i : Nat) : BufTy := match i / 128 with
  | 0 => hbmTy0_0 i
  | 1 => hbmTy0_1 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_v15 : Ref sig .tc := ⟨.hbm, 38, rfl⟩
abbrev main_v16 : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_call3_c : Ref sig .tc := ⟨.hbm, 43, rfl⟩
abbrev main_call3_v0 : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_c_1 : Ref sig .tc := ⟨.hbm, 50, rfl⟩
abbrev main_call3_c_2 : Ref sig .tc := ⟨.hbm, 51, rfl⟩
abbrev main_call3_v5 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_call3_c_3 : Ref sig .tc := ⟨.hbm, 58, rfl⟩
abbrev main_call3_v11 : Ref sig .tc := ⟨.hbm, 59, rfl⟩
abbrev main_call3_v12 : Ref sig .tc := ⟨.hbm, 60, rfl⟩
abbrev main_call3_v13 : Ref sig .tc := ⟨.hbm, 61, rfl⟩
abbrev main_call3_cst : Ref sig .tc := ⟨.hbm, 62, rfl⟩
abbrev main_call3_v14 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst_2 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_c_1 : Ref sig .tc := ⟨.hbm, 80, rfl⟩
abbrev main_call4_c_2 : Ref sig .tc := ⟨.hbm, 81, rfl⟩
abbrev main_call4_v5 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_c_3 : Ref sig .tc := ⟨.hbm, 88, rfl⟩
abbrev main_call4_v11 : Ref sig .tc := ⟨.hbm, 89, rfl⟩
abbrev main_call4_v12 : Ref sig .tc := ⟨.hbm, 90, rfl⟩
abbrev main_call4_v13 : Ref sig .tc := ⟨.hbm, 91, rfl⟩
abbrev main_call4_cst : Ref sig .tc := ⟨.hbm, 92, rfl⟩
abbrev main_call4_v14 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_cst_3 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_call5_cst : Ref sig .tc := ⟨.hbm, 113, rfl⟩
abbrev main_call5_v0 : Ref sig .tc := ⟨.hbm, 114, rfl⟩
abbrev main_v45 : Ref sig .tc := ⟨.hbm, 115, rfl⟩
abbrev main_cst_4 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_cst_5 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_call6_cst : Ref sig .tc := ⟨.hbm, 134, rfl⟩
abbrev main_call6_v0 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_6 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_call7_cst : Ref sig .tc := ⟨.hbm, 154, rfl⟩
abbrev main_call7_v0 : Ref sig .tc := ⟨.hbm, 155, rfl⟩
abbrev main_v79 : Ref sig .tc := ⟨.hbm, 156, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  bcast_S4096_S4x4096x4096_2 : S4096.BroadcastsInDim S4x4096x4096 (![2] : Fin 1 → Fin S4x4096x4096.rank)
  bcast_S_S4x4096x4096 : S_.BroadcastsInDim S4x4096x4096 (![] : Fin 0 → Fin S4x4096x4096.rank)
  slices_S4x4096x4096_S4x4096x32_0_0_0 : S4x4096x4096.Slices ![0, 0, 0] S4x4096x32
  slices_S4x4096x32_S4x4096x1_0_0_0 : S4x4096x32.Slices ![0, 0, 0] S4x4096x1
  bcast_S_S4x4096x32 : S_.BroadcastsInDim S4x4096x32 (![] : Fin 0 → Fin S4x4096x32.rank)
  bcast_S4x4096x1_S4x4096x32_0_1_2 : S4x4096x1.BroadcastsInDim S4x4096x32 (![0, 1, 2] : Fin 3 → Fin S4x4096x32.rank)
  shapeCasts_S4x4096x32_S4x131072x1 : S4x4096x32.ShapeCasts S4x131072x1
  bcast_S_S4x131072x1 : S_.BroadcastsInDim S4x131072x1 (![] : Fin 0 → Fin S4x131072x1.rank)
  bcast_S1_S1x1x1_2 : S1.BroadcastsInDim S1x1x1 (![2] : Fin 1 → Fin S1x1x1.rank)
  bcast_S1x1x1_S4x131072x1_0_1_2 : S1x1x1.BroadcastsInDim S4x131072x1 (![0, 1, 2] : Fin 3 → Fin S4x131072x1.rank)
  reducesTo_S4x131072x1_S4x131072_d2 : S4x131072x1.ReducesTo [2] S4x131072
  bcast_S4x131072_S4x131072x3_0_1 : S4x131072.BroadcastsInDim S4x131072x3 (![0, 1] : Fin 2 → Fin S4x131072x3.rank)
  bcast_S_S4x131072x3 : S_.BroadcastsInDim S4x131072x3 (![] : Fin 0 → Fin S4x131072x3.rank)
  shapeCasts_S4x131072x3_S4x4096x32x3 : S4x131072x3.ShapeCasts S4x4096x32x3
  bcast_S4x4096x1x3_S4x4096x32x3_0_1_2_3 : S4x4096x1x3.BroadcastsInDim S4x4096x32x3 (![0, 1, 2, 3] : Fin 4 → Fin S4x4096x32x3.rank)
  bcast_S_S4x4096x32x3 : S_.BroadcastsInDim S4x4096x32x3 (![] : Fin 0 → Fin S4x4096x32x3.rank)
  bcast_S4x131072_S4x131072x128_0_1 : S4x131072.BroadcastsInDim S4x131072x128 (![0, 1] : Fin 2 → Fin S4x131072x128.rank)
  bcast_S_S4x131072x128 : S_.BroadcastsInDim S4x131072x128 (![] : Fin 0 → Fin S4x131072x128.rank)
  shapeCasts_S4x131072x128_S4x4096x32x128 : S4x131072x128.ShapeCasts S4x4096x32x128
  concatenates_S4x4096x32x3_S4x4096x32x128_S4x4096x32x131_d3 : Shape.Concatenates [S4x4096x32x3, S4x4096x32x128] S4x4096x32x131 3
  shapeCasts_S128_S1x1x1x128 : S128.ShapeCasts S1x1x1x128
  bcast_S1x1x1x128_S4x4096x32x128_0_1_2_3 : S1x1x1x128.BroadcastsInDim S4x4096x32x128 (![0, 1, 2, 3] : Fin 4 → Fin S4x4096x32x128.rank)
  bcast_S_S1x1x1x128 : S_.BroadcastsInDim S1x1x1x128 (![] : Fin 0 → Fin S1x1x1x128.rank)
  bcast_S_S4x4096x32x128 : S_.BroadcastsInDim S4x4096x32x128 (![] : Fin 0 → Fin S4x4096x32x128.rank)
  reducesTo_S4x4096x32x128_S4x4096x128_d2 : S4x4096x32x128.ReducesTo [2] S4x4096x128
  shapeCasts_S512_S1x1x512 : S512.ShapeCasts S1x1x512
  bcast_S1x1x512_S4x4096x512_0_1_2 : S1x1x512.BroadcastsInDim S4x4096x512 (![0, 1, 2] : Fin 3 → Fin S4x4096x512.rank)
  bcast_S_S1x1x512 : S_.BroadcastsInDim S1x1x512 (![] : Fin 0 → Fin S1x1x512.rank)
  bcast_S_S4x4096x512 : S_.BroadcastsInDim S4x4096x512 (![] : Fin 0 → Fin S4x4096x512.rank)
  shapeCasts_S128_S1x1x128 : S128.ShapeCasts S1x1x128
  bcast_S1x1x128_S4x4096x128_0_1_2 : S1x1x128.BroadcastsInDim S4x4096x128 (![0, 1, 2] : Fin 3 → Fin S4x4096x128.rank)
  bcast_S_S1x1x128 : S_.BroadcastsInDim S1x1x128 (![] : Fin 0 → Fin S1x1x128.rank)
  bcast_S_S4x4096x128 : S_.BroadcastsInDim S4x4096x128 (![] : Fin 0 → Fin S4x4096x128.rank)
  gather_S4x4096x3_S4x131072x1_S4x131072x3_2_1_0_0_1_2_113_wf : GatherDims.WF S4x4096x3 S4x131072x1 S4x131072x3 [2] [1] [0] [1] [0] 2 ![1, 1, 3]
  gather_S4x4096x128_S4x131072x1_S4x131072x128_2_1_0_0_1_2_11128_wf : GatherDims.WF S4x4096x128 S4x131072x1 S4x131072x128 [2] [1] [0] [1] [0] 2 ![1, 1, 128]
  dot_S4x4096x32x131_S128x131_S4x4096x32x128_3_1_012_0_n_n_wf : DotDims.WF S4x4096x32x131 S128x131 S4x4096x32x128 [3] [1] [0, 1, 2] [0] [] []
  dot_S4x4096x128_S512x128_S4x4096x512_2_1_01_0_n_n_wf : DotDims.WF S4x4096x128 S512x128 S4x4096x512 [2] [1] [0, 1] [0] [] []
  dot_S4x4096x512_S128x512_S4x4096x128_2_1_01_0_n_n_wf : DotDims.WF S4x4096x512 S128x512 S4x4096x128 [2] [1] [0, 1] [0] [] []

variable [Facts₀]

def comparator_i32_d2 : BitVec 32 → BitVec 32 → BitVec 1 :=
  fun l r =>
    let v1 := IntOp.cmpi .slt l r
    v1
def gather_S4x4096x3_S4x131072x1_S4x131072x3_2_1_0_0_1_2_113 : GatherDims S4x4096x3 S4x131072x1 S4x131072x3 where
  offsetDims := [2]
  collapsedSliceDims := [1]
  operandBatchingDims := [0]
  startIndicesBatchingDims := [0]
  startIndexMap := [1]
  indexVectorDim := 2
  sliceSizes := ![1, 1, 3]
  wf := gather_S4x4096x3_S4x131072x1_S4x131072x3_2_1_0_0_1_2_113_wf
def gather_S4x4096x128_S4x131072x1_S4x131072x128_2_1_0_0_1_2_11128 : GatherDims S4x4096x128 S4x131072x1 S4x131072x128 where
  offsetDims := [2]
  collapsedSliceDims := [1]
  operandBatchingDims := [0]
  startIndicesBatchingDims := [0]
  startIndexMap := [1]
  indexVectorDim := 2
  sliceSizes := ![1, 1, 128]
  wf := gather_S4x4096x128_S4x131072x1_S4x131072x128_2_1_0_0_1_2_11128_wf
def dot_S4x4096x32x131_S128x131_S4x4096x32x128_3_1_012_0_n_n : DotDims S4x4096x32x131 S128x131 S4x4096x32x128 where
  lhsContracting := [3]
  rhsContracting := [1]
  lhsNonContracting := [0, 1, 2]
  rhsNonContracting := [0]
  lhsBatch := []
  rhsBatch := []
  wf := dot_S4x4096x32x131_S128x131_S4x4096x32x128_3_1_012_0_n_n_wf
def dot_S4x4096x128_S512x128_S4x4096x512_2_1_01_0_n_n : DotDims S4x4096x128 S512x128 S4x4096x512 where
  lhsContracting := [2]
  rhsContracting := [1]
  lhsNonContracting := [0, 1]
  rhsNonContracting := [0]
  lhsBatch := []
  rhsBatch := []
  wf := dot_S4x4096x128_S512x128_S4x4096x512_2_1_01_0_n_n_wf
def dot_S4x4096x512_S128x512_S4x4096x128_2_1_01_0_n_n : DotDims S4x4096x512 S128x512 S4x4096x128 where
  lhsContracting := [2]
  rhsContracting := [1]
  lhsNonContracting := [0, 1]
  rhsNonContracting := [0]
  lhsBatch := []
  rhsBatch := []
  wf := dot_S4x4096x512_S128x512_S4x4096x128_2_1_01_0_n_n_wf

class Facts : Prop extends Facts₀ where

variable [Facts]
-- ==== Proof.PointBlock.lean ====
/-
  One point of the inverted-residual block, as a function of that point's data.

  For one of the B·N points the block takes the point's 32 neighbours (each with 128 feature channels and a relative
  position of 3 coordinates), applies one linear map on the 131 joined channels, an evaluation-mode batch normalisation
  and a clamp at zero, takes the channel-wise maximum over the 32 neighbours, and then runs a two-layer bottleneck
  (128 → 512 → 128, each layer a linear map and a batch normalisation, the first clamped at zero), adds the point's own
  features and clamps at zero once more.  Everything is exact arithmetic on the extended reals.

  The linear map on the joined channels can be written as one sum over 131 channels or as the sum over the 128 feature
  channels plus the sum over the 3 position channels; `sum_joined` says these agree (addition of extended reals is
  commutative and associative, so no finiteness is needed).
-/
import Idealize.ShloMosaic.PureOps.Ideal
import Idealize.ShloMosaic.Lib.ValueIdx

noncomputable section

namespace Cert.PointBlock

open Idealize.ShloMosaic

/-- Evaluation-mode batch normalisation of one value: `(x - μ) · (γ · (σ² + ε)^(-1/2)) + β`, with `ε` the single-precision
    value nearest 1e-5. -/
def bnorm (x g b mu v : EReal) : EReal :=
  (x - mu) * (g * Ideal.rsqrt (v + Ideal.ofBits .f32 0x3727C5AC#32)) + b

/-- The clamp at zero. -/
def relu (x : EReal) : EReal := max x (Ideal.ofBits .f32 0x00000000#32)

/-- Channel `o` of the linear map applied to neighbour `s`: the feature part plus the position part. -/
def nbrLinear (fe : Fin 32 → Fin 128 → EReal) (xy : Fin 32 → Fin 3 → EReal)
    (Wx : Fin 128 → Fin 3 → EReal) (Wf : Fin 128 → Fin 128 → EReal) (s : Fin 32) (o : Fin 128) : EReal :=
  (∑ k : Fin 128, fe s k * Wf o k) + ∑ k : Fin 3, xy s k * Wx o k

/-- Channel `o` after normalisation, clamp and the maximum over the 32 neighbours (the maximum starts from `-∞`). -/
def pooled (fe : Fin 32 → Fin 128 → EReal) (xy : Fin 32 → Fin 3 → EReal)
    (Wx : Fin 128 → Fin 3 → EReal) (Wf : Fin 128 → Fin 128 → EReal) (gn bn mn vn : Fin 128 → EReal) (o : Fin 128) : EReal :=
  (Finset.univ : Finset (Fin 32)).fold max (Ideal.ofBits .f32 0xFF800000#32)
    fun s => relu (bnorm (nbrLinear fe xy Wx Wf s o) (gn o) (bn o) (mn o) (vn o))

/-- Hidden channel `h` of the bottleneck's first layer. -/
def hidden (xp : Fin 128 → EReal) (W1 : Fin 512 → Fin 128 → EReal) (g1 b1 m1 v1 : Fin 512 → EReal) (h : Fin 512) : EReal :=
  relu (bnorm (∑ k : Fin 128, xp k * W1 h k) (g1 h) (b1 h) (m1 h) (v1 h))

/-- Output channel `c`: the second layer, normalised, plus the point's own feature, clamped at zero. -/
def residual (hd : Fin 512 → EReal) (W2 : Fin 128 → Fin 512 → EReal) (g2 b2 m2 v2 ident : Fin 128 → EReal) (c : Fin 128) : EReal :=
  relu (bnorm (∑ k : Fin 512, hd k * W2 c k) (g2 c) (b2 c) (m2 c) (v2 c) + ident c)

/-- The whole block at one point. -/
def point (fe : Fin 32 → Fin 128 → EReal) (xy : Fin 32 → Fin 3 → EReal) (ident : Fin 128 → EReal)
    (Wx : Fin 128 → Fin 3 → EReal) (Wf : Fin 128 → Fin 128 → EReal) (gn bn mn vn : Fin 128 → EReal)
    (W1 : Fin 512 → Fin 128 → EReal) (g1 b1 m1 v1 : Fin 512 → EReal)
    (W2 : Fin 128 → Fin 512 → EReal) (g2 b2 m2 v2 : Fin 128 → EReal) : Fin 128 → EReal :=
  residual (hidden (pooled fe xy Wx Wf gn bn mn vn) W1 g1 b1 m1 v1) W2 g2 b2 m2 v2 ident

/-- A sum over the 131 joined channels (3 position channels first, then 128 feature channels) is the feature part plus
    the position part. -/
theorem sum_joined (f : Fin 131 → EReal) :
    ∑ k : Fin 131, f k
      = (∑ k : Fin 128, f ⟨3 + k.val, by omega⟩) + ∑ k : Fin 3, f ⟨k.val, by omega⟩ := by
  exact (Fin.sum_univ_add (M := EReal) (a := 3) (b := 128) f).trans (add_comm _ _)

end Cert.PointBlock

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.KernelPoint.lean ====
/-
  The kernel's body at an index.

  One grid point of the kernel handles 256 points of the cloud.  Every access it makes is a whole buffer, so what it
  leaves in its output block (256 points × 128 channels) is its last stored value as a function of the 19 loaded blocks.
  This module reads that value at point `p` and channel `q` and shows it is `PointBlock.point` of that point's data.

  The steps, in the order of the program:

  * the neighbour arrays `[256, 32, c]` are flattened to `[8192, c]` — row `p·32 + s` is neighbour `s` of point `p` — and
    cast back afterwards; rounding to the 16-bit format is the identity on the extended reals;
  * a product with transposed weights into a zero accumulator is, at `(r, o)`, the sum over the contracted axis of
    `lhs (r, k) · rhs (k, o)`: the joined linear map arrives as its feature part plus its position part;
  * a batch normalisation is written with row vectors `[1, b]` broadcast over the rows, so at `(r, o)` it reads each
    vector at `o`, and the clamp is a maximum with zero;
  * the maximum over the middle axis of `[256, 32, 128]` from `-∞` is the fold of `max` over the 32 neighbours;
  * two more products (128 → 512 → 128) with their normalisations, the point's own features added, a last clamp.
-/
import proofs.«168570_j33079838113814_1_alg».proof.Proof.PointBlock
import proofs.«168570_j33079838113814_1_alg».proof.Proof.Gen.KernelIdeal.Frame
import proofs.«168570_j33079838113814_1_alg».proof.Proof.LibKeepdims
import Idealize.ShloMosaic.Lib.ValueLayout

noncomputable section

namespace Cert.KernelPoint

open Idealize.ShloMosaic Idealize.ShloMosaic.ValueIdx Idealize.ShloMosaic.Keepdims
open Cert.KernelIdeal Cert.KernelIdeal.Gen Cert.PointBlock

/-! ## The four products at an index

Each product contracts the left operand's last axis with the right operand's first. The contraction shape has one axis,
so its indices are re-indexed by that axis's coordinate; the operands' indices at output `(r, o)` and coordinate `k` are
`(r, k)` and `(k, o)`. -/

theorem matmul_feat_l0 (j : S8192x128.Idx) (q : dot_S8192x128_S128x128_S8192x128_1_0_0_1_n_n.contr.Idx) : (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem matmul_feat_r1 (j : S8192x128.Idx) (q : dot_S8192x128_S128x128_S8192x128_1_0_0_1_n_n.contr.Idx) : (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl
/-- The feature rows times the transposed feature weights, into a zero accumulator, at row `r` and channel `o`: the sum over the 128 feature channels. -/
theorem matmul_feat (lhs : FVec Ideal S8192x128 .bf16) (rhs : FVec Ideal S128x128 .bf16) (r : Fin 8192) (o : Fin 128) :
    matmul dot_S8192x128_S128x128_S8192x128_1_0_0_1_n_n none lhs rhs (constant (F := Ideal) S8192x128 .f32 0x00000000#32) (ix2 r o)
      = ∑ k : Fin 128, lhs (ix2 r k) * rhs (ix2 k o) := by
  refine (Ideal.matmul_constant_zero_apply dot_S8192x128_S128x128_S8192x128_1_0_0_1_n_n none lhs rhs (ix2 r o)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r o) ((contrEquiv1 dot_S8192x128_S128x128_S8192x128_1_0_0_1_n_n 128 rfl rfl).symm k) = ix2 r k :=
    funext fun a => Fin.ext (by
      match a with
      | ⟨0, _⟩ => exact matmul_feat_l0 _ _
      | ⟨1, _⟩ => exact (dot_S8192x128_S128x128_S8192x128_1_0_0_1_n_n.lhsIdx_val_of_single rfl _ _).trans hk)
  have er : dot_S8192x128_S128x128_S8192x128_1_0_0_1_n_n.rhsIdx (ix2 r o) ((contrEquiv1 dot_S8192x128_S128x128_S8192x128_1_0_0_1_n_n 128 rfl rfl).symm k) = ix2 k o :=
    funext fun a => Fin.ext (by
      match a with
      | ⟨0, _⟩ => exact (dot_S8192x128_S128x128_S8192x128_1_0_0_1_n_n.rhsIdx_val_of_single rfl _ _).trans hk
      | ⟨1, _⟩ => exact matmul_feat_r1 _ _)
  rw [el, er]

theorem matmul_pos_l0 (j : S8192x128.Idx) (q : dot_S8192x3_S3x128_S8192x128_1_0_0_1_n_n.contr.Idx) : (dot_S8192x3_S3x128_S8192x128_1_0_0_1_n_n.lhsIdx j q 0).val = (j 0).val := by
  unfold DotDims.lhsIdx
  rw [dif_neg (show ¬(0 : Fin S8192x3.rank) ∈ dot_S8192x3_S3x128_S8192x128_1_0_0_1_n_n.lhsBatch by decide), dif_pos (show (0 : Fin S8192x3.rank) ∈ dot_S8192x3_S3x128_S8192x128_1_0_0_1_n_n.lhsNonContracting by decide)]
  rfl
theorem matmul_pos_r1 (j : S8192x128.Idx) (q : dot_S8192x3_S3x128_S8192x128_1_0_0_1_n_n.contr.Idx) : (dot_S8192x3_S3x128_S8192x128_1_0_0_1_n_n.rhsIdx j q 1).val = (j 1).val := by
  unfold DotDims.rhsIdx
  rw [dif_neg (show ¬(1 : Fin S3x128.rank) ∈ dot_S8192x3_S3x128_S8192x128_1_0_0_1_n_n.rhsBatch by decide), dif_pos (show (1 : Fin S3x128.rank) ∈ dot_S8192x3_S3x128_S8192x128_1_0_0_1_n_n.rhsNonContracting by decide)]
  rfl
/-- The position rows times the transposed position weights, at row `r` and channel `o`: the sum over the 3 coordinates. -/
theorem matmul_pos (lhs : FVec Ideal S8192x3 .bf16) (rhs : FVec Ideal S3x128 .bf16) (r : Fin 8192) (o : Fin 128) :
    matmul dot_S8192x3_S3x128_S8192x128_1_0_0_1_n_n none lhs rhs (constant (F := Ideal) S8192x128 .f32 0x00000000#32) (ix2 r o)
      = ∑ k : Fin 3, lhs (ix2 r k) * rhs (ix2 k o) := by
  refine (Ideal.matmul_constant_zero_apply dot_S8192x3_S3x128_S8192x128_1_0_0_1_n_n none lhs rhs (ix2 r o)).trans ?_
  rw [← Equiv.sum_comp (contrEquiv1 dot_S8192x3_S3x128_S8192x128_1_0_0_1_n_n 3 rfl rfl).symm]
  refine Finset.sum_congr rfl fun k _ => ?_
  have hk := contrEquiv1_symm_val dot_S8192x3_S3x128_S8192x128_1_0_0_1_n_n 3 rfl rfl k
  have el : dot_S8192x3_S3x128_S8192x128_1_0_0_1_n_n.lhsIdx (ix2 r o) ((contrEquiv1 dot_S8192x3_S3x128_S8192x128_1_0_0_1_n_n 3 rfl rfl).symm k) = ix2 r k :=
    funext fun a => Fin.ext (by
      match a with
      | ⟨0, _⟩ => exact matmul_pos_l0 _ _
      | ⟨1, _⟩ => exact (dot_S8192x3_S3x128_S8192x128_1_0_0_1_n_n.lhsIdx_val_of_single rfl _ _).trans hk)
  have er : dot_S8192x3_S3x128_S8192x128_1_0_0_1_n_n.rhsIdx (ix2 r o) ((contrEquiv1 dot_S8192x3_S3x128_S8192x128_1_0_0_1_n_n 3 rfl rfl).symm k) = ix2 k o :=
    funext fun a => Fin.ext (by
      match a with
      | ⟨0, _⟩ => exact (dot_S8192x3_S3x128_S8192x128_1_0_0_1_n_n.rhsIdx_val_of_single rfl _ _).trans hk
      | ⟨1, _⟩ => exact matmul_pos_r1 _ _)
  rw [el, er]

theorem matmul_hidden_l0 (j : S256x512.Idx) (q : dot_S256x128_S128x512_S256x512_1_0_0_1_n_n.contr.Idx) : (dot_S256x128_S128x512_S256x512_1_0_0_1_n_n.lhsIdx j q 0).val = (j 0).val := by
  unfold DotDims.lhsIdx
  rw [dif_neg (show ¬(0 : Fin S256x128.rank) ∈ dot_S256x128_S128x512_S256x512_1_0_0_1_n_n.lhsBatch by decide), dif_pos (show (0 : Fin S256x128.rank) ∈ dot_S256x128_S128x512_S256x512_1_0_0_1_n_n.lhsNonContracting by decide)]
  rfl
theorem matmul_hidden_r1 (j : S256x512.Idx) (q : dot_S256x128_S128x512_S256x512_1_0_0_1_n_n.contr.Idx) : (dot_S256x128_S128x512_S256x512_1_0_0_1_n_n.rhsIdx j q 1).val = (j 1).val := by
  unfold DotDims.rhsIdx
  rw [dif_neg (show ¬(1 : Fin S128x512.rank) ∈ dot_S256x128_S128x512_S256x512_1_0_0_1_n_n.rhsBatch by decide), dif_pos (show (1 : Fin S128x512.rank) ∈ dot_S256x128_S128x512_S256x512_1_0_0_1_n_n.rhsNonContracting by decide)]
  rfl
/-- The pooled rows times the transposed first bottleneck weights, at point `r` and hidden channel `o`: the sum over the 128 channels. -/
theorem matmul_hidden (lhs : FVec Ideal S256x128 .bf16) (rhs : FVec Ideal S128x512 .bf16) (r : Fin 256) (o : Fin 512) :
    matmul dot_S256x128_S128x512_S256x512_1_0_0_1_n_n none lhs rhs (constant (F := Ideal) S256x512 .f32 0x00000000#32) (ix2 r o)
      = ∑ k : Fin 128, lhs (ix2 r k) * rhs (ix2 k o) := by
  refine (Ideal.matmul_constant_zero_apply dot_S256x128_S128x512_S256x512_1_0_0_1_n_n none lhs rhs (ix2 r o)).trans ?_
  rw [← Equiv.sum_comp (contrEquiv1 dot_S256x128_S128x512_S256x512_1_0_0_1_n_n 128 rfl rfl).symm]
  refine Finset.sum_congr rfl fun k _ => ?_
  have hk := contrEquiv1_symm_val dot_S256x128_S128x512_S256x512_1_0_0_1_n_n 128 rfl rfl k
  have el : dot_S256x128_S128x512_S256x512_1_0_0_1_n_n.lhsIdx (ix2 r o) ((contrEquiv1 dot_S256x128_S128x512_S256x512_1_0_0_1_n_n 128 rfl rfl).symm k) = ix2 r k :=
    funext fun a => Fin.ext (by
      match a with
      | ⟨0, _⟩ => exact matmul_hidden_l0 _ _
      | ⟨1, _⟩ => exact (dot_S256x128_S128x512_S256x512_1_0_0_1_n_n.lhsIdx_val_of_single rfl _ _).trans hk)
  have er : dot_S256x128_S128x512_S256x512_1_0_0_1_n_n.rhsIdx (ix2 r o) ((contrEquiv1 dot_S256x128_S128x512_S256x512_1_0_0_1_n_n 128 rfl rfl).symm k) = ix2 k o :=
    funext fun a => Fin.ext (by
      match a with
      | ⟨0, _⟩ => exact (dot_S256x128_S128x512_S256x512_1_0_0_1_n_n.rhsIdx_val_of_single rfl _ _).trans hk
      | ⟨1, _⟩ => exact matmul_hidden_r1 _ _)
  rw [el, er]

theorem matmul_out_l0 (j : S256x128.Idx) (q : dot_S256x512_S512x128_S256x128_1_0_0_1_n_n.contr.Idx) : (dot_S256x512_S512x128_S256x128_1_0_0_1_n_n.lhsIdx j q 0).val = (j 0).val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl
theorem matmul_out_r1 (j : S256x128.Idx) (q : dot_S256x512_S512x128_S256x128_1_0_0_1_n_n.contr.Idx) : (dot_S256x512_S512x128_S256x128_1_0_0_1_n_n.rhsIdx j q 1).val = (j 1).val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl
/-- The hidden rows times the transposed second bottleneck weights, at point `r` and channel `o`: the sum over the 512 hidden channels. -/
theorem matmul_out (lhs : FVec Ideal S256x512 .bf16) (rhs : FVec Ideal S512x128 .bf16) (r : Fin 256) (o : Fin 128) :
    matmul dot_S256x512_S512x128_S256x128_1_0_0_1_n_n none lhs rhs (constant (F := Ideal) S256x128 .f32 0x00000000#32) (ix2 r o)
      = ∑ k : Fin 512, lhs (ix2 r k) * rhs (ix2 k o) := by
  refine (Ideal.matmul_constant_zero_apply dot_S256x512_S512x128_S256x128_1_0_0_1_n_n none lhs rhs (ix2 r o)).trans ?_
  rw [← Equiv.sum_comp (contrEquiv1 dot_S256x512_S512x128_S256x128_1_0_0_1_n_n 512 rfl rfl).symm]
  refine Finset.sum_congr rfl fun k _ => ?_
  have hk := contrEquiv1_symm_val dot_S256x512_S512x128_S256x128_1_0_0_1_n_n 512 rfl rfl k
  have el : dot_S256x512_S512x128_S256x128_1_0_0_1_n_n.lhsIdx (ix2 r o) ((contrEquiv1 dot_S256x512_S512x128_S256x128_1_0_0_1_n_n 512 rfl rfl).symm k) = ix2 r k :=
    funext fun a => Fin.ext (by
      match a with
      | ⟨0, _⟩ => exact matmul_out_l0 _ _
      | ⟨1, _⟩ => exact (dot_S256x512_S512x128_S256x128_1_0_0_1_n_n.lhsIdx_val_of_single rfl _ _).trans hk)
  have er : dot_S256x512_S512x128_S256x128_1_0_0_1_n_n.rhsIdx (ix2 r o) ((contrEquiv1 dot_S256x512_S512x128_S256x128_1_0_0_1_n_n 512 rfl rfl).symm k) = ix2 k o :=
    funext fun a => Fin.ext (by
      match a with
      | ⟨0, _⟩ => exact (dot_S256x512_S512x128_S256x128_1_0_0_1_n_n.rhsIdx_val_of_single rfl _ _).trans hk
      | ⟨1, _⟩ => exact matmul_out_r1 _ _)
  rw [el, er]

/-! ## Layout steps at an index -/

/-- Row `p·32 + s` of the flattened arrays: neighbour `s` of point `p`. -/
def row (p : Fin 256) (s : Fin 32) : Fin 8192 := ⟨p.val * 32 + s.val, by have := p.isLt; have := s.isLt; omega⟩

/-- A `[256, 32, c]` array flattened to `[8192, c]` reads, at row `p·32 + s`, the operand at `(p, s, ·)`. -/
theorem flatten_apply {α : Type} {c : ℕ} (x : (⟨3, ![256, 32, c]⟩ : Shape).Idx → α)
    (h : (⟨3, ![256, 32, c]⟩ : Shape).ShapeCasts ⟨2, ![8192, c]⟩) (p : Fin 256) (s : Fin 32) (k : Fin c) :
    shapeCast ⟨2, ![8192, c]⟩ x h (ix2 (row p s) k) = x (ix3 p s k) :=
  shapeCast_apply x h _ _ (by
    rw [Shape.rowMajor_val_three, Shape.rowMajor_val_two]
    rfl)

/-- An `[8192, c]` array cast back to `[256, 32, c]` reads, at `(p, s, ·)`, the operand at row `p·32 + s`. -/
theorem unflatten_apply {α : Type} {c : ℕ} (x : (⟨2, ![8192, c]⟩ : Shape).Idx → α)
    (h : (⟨2, ![8192, c]⟩ : Shape).ShapeCasts ⟨3, ![256, 32, c]⟩) (p : Fin 256) (s : Fin 32) (k : Fin c) :
    shapeCast ⟨3, ![256, 32, c]⟩ x h (ix3 p s k) = x (ix2 (row p s) k) :=
  shapeCast_apply x h _ _ (by
    rw [Shape.rowMajor_val_two, Shape.rowMajor_val_three]
    rfl)

/-- A vector of `b` entries viewed as one row and repeated over `a` rows reads, at `(p, c)`, the vector at `c`. -/
theorem rowvec_apply {α : Type} {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

/-- The reciprocal square root of a vector, at an index. -/
theorem rsqrt_apply {s : Shape} {φ : FTy} (a : FVec Ideal s φ) (i : s.Idx) : rsqrt a i = Ideal.rsqrt (a i) := rfl

/-! ## The neighbour stage -/

/-- The kernel's neighbour stage at point `p`, neighbour `s`, channel `o`: the flattened rows are row `p·32 + s`; the two
    products are the feature part and the position part of the joined linear map; the normalisation's row vectors are
    read at `o`; the clamp is a maximum with zero. -/
theorem nbr_apply (v0 : Vec Ideal S256x32x128 .f32) (v3 : Vec Ideal S256x32x3 .f32) (v10 : Vec Ideal S128x128 .bf16)
    (v12 : Vec Ideal S3x128 .bf16) (v17 v19 v21 v23 : Vec Ideal S128 .f32) (p : Fin 256) (s : Fin 32) (o : Fin 128) :
    k0_pay3 (F := Ideal) v0 v3 v10 v12 v17 v19 v21 v23 (ix3 p s o)
      = relu (bnorm (nbrLinear (fun s k => v0 (ix3 p s k)) (fun s k => v3 (ix3 p s k)) (fun o k => v12 (ix2 k o))
            (fun o k => v10 (ix2 k o)) s o) (v17 (ix1 o)) (v19 (ix1 o)) (v21 (ix1 o)) (v23 (ix1 o))) := by
  unfold k0_pay3
  refine (unflatten_apply _ _ p s o).trans ?_
  simp only [maximumf_apply, addf_apply, mulf_apply, subf_apply, broadcast_apply, matmul_feat, matmul_pos, rowvec_apply,
    broadcastTo_1b_ab_apply, rsqrt_apply, shapeCast_a_1a_apply, flatten_apply, truncf_apply, shapeCast_self]
  rfl

/-! ## The bottleneck -/

/-- The channel-wise maximum over the 32 neighbours, from `-∞`, at point `p` and channel `j`. -/
theorem pool_apply (v37 : FVec Ideal S256x32x128 .f32) (p : Fin 256) (j : Fin 128) :
    multiReduction (F := Ideal) .maximumf [1] S256x128 v37 0xFF800000#32 reduces_S256x32x128_S256x128 (.inl rfl) rfl (ix2 p j)
      = (Finset.univ : Finset (Fin 32)).fold max (Ideal.ofBits .f32 0xFF800000#32) fun s => v37 (ix3 p s j) :=
  multiReduction_max_middle v37 0xFF800000#32 reduces_S256x32x128_S256x128 (.inl rfl) rfl p j

/-- The first bottleneck layer at point `p` and hidden channel `h`, from any pooled array: the product with the transposed
    weights is the sum over the 128 pooled channels; the normalisation's row vectors are read at `h`; the clamp is a
    maximum with zero. -/
theorem hidden_apply (v38 : FVec Ideal S256x128 .f32) (v40 : Vec Ideal S128x512 .bf16) (v43 v45 v47 v49 : Vec Ideal S512 .f32)
    (p : Fin 256) (h : Fin 512) :
    maximumf
        (addf
          (mulf
            (subf
              (matmul dot_S256x128_S128x512_S256x512_1_0_0_1_n_n none (truncf .bf16 v38 bitsLt_bf16_f32)
                (shapeCast S128x512 v40 shapeCasts_S128x512_S128x512 : FVec Ideal S128x512 .bf16) (constant (F := Ideal) S256x512 .f32 0x00000000#32))
              (broadcastTo S256x512 (shapeCast S1x512 v47 shapeCasts_S512_S1x512) broadcasts_S1x512_S256x512))
            (broadcastTo S256x512
              (mulf (shapeCast S1x512 v43 shapeCasts_S512_S1x512)
                (rsqrt (addf (shapeCast S1x512 v49 shapeCasts_S512_S1x512)
                  (broadcast S1x512 (Scalar.ofBits (F := Ideal) .f32 0x3727C5AC#32)))))
              broadcasts_S1x512_S256x512))
          (broadcastTo S256x512 (shapeCast S1x512 v45 shapeCasts_S512_S1x512) broadcasts_S1x512_S256x512))
        (broadcast S256x512 (Scalar.ofBits (F := Ideal) .f32 0x00000000#32)) (ix2 p h)
      = hidden (fun j => v38 (ix2 p j)) (fun h k => v40 (ix2 k h)) (fun h => v43 (ix1 h)) (fun h => v45 (ix1 h))
          (fun h => v47 (ix1 h)) (fun h => v49 (ix1 h)) h := by
  simp only [maximumf_apply, addf_apply, mulf_apply, subf_apply, broadcast_apply, matmul_hidden, rowvec_apply,
    broadcastTo_1b_ab_apply, rsqrt_apply, shapeCast_a_1a_apply, truncf_apply, shapeCast_self]
  rfl

/-- The second bottleneck layer's product minus the second normalisation's mean, at point `p` and channel `c`, from any
    hidden array: the sum over the 512 hidden channels. -/
theorem out_apply (v63 : FVec Ideal S256x512 .bf16) (v64 : Vec Ideal S512x128 .bf16) (v71 : Vec Ideal S128 .f32)
    (p : Fin 256) (c : Fin 128) :
    subf
        (matmul dot_S256x512_S512x128_S256x128_1_0_0_1_n_n none v63 (shapeCast S512x128 v64 shapeCasts_S512x128_S512x128 : FVec Ideal S512x128 .bf16)
          (constant (F := Ideal) S256x128 .f32 0x00000000#32))
        (broadcastTo S256x128 (shapeCast S1x128 v71 shapeCasts_S128_S1x128) broadcasts_S1x128_S256x128) (ix2 p c)
      = (∑ h : Fin 512, v63 (ix2 p h) * v64 (ix2 h c)) - v71 (ix1 c) := by
  simp only [subf_apply, matmul_out, rowvec_apply, shapeCast_self]

/-- The kernel's bottleneck before its last normalisation, at point `p` and channel `c`: the second layer's sum over the
    512 hidden channels of the first layer applied to the pooled neighbourhood, minus the second normalisation's mean. -/
theorem bottleneck_apply (v37 : FVec Ideal S256x32x128 .f32) (v40 : Vec Ideal S128x512 .bf16) (v43 v45 v47 v49 : Vec Ideal S512 .f32)
    (v64 : Vec Ideal S512x128 .bf16) (v71 : Vec Ideal S128 .f32) (p : Fin 256) (c : Fin 128) :
    k0_pay6 (F := Ideal) v37 v40 v43 v45 v47 v49 v64 v71 (ix2 p c)
      = (∑ h : Fin 512,
            hidden (fun j => (Finset.univ : Finset (Fin 32)).fold max (Ideal.ofBits .f32 0xFF800000#32) fun s => v37 (ix3 p s j))
              (fun h k => v40 (ix2 k h)) (fun h => v43 (ix1 h)) (fun h => v45 (ix1 h)) (fun h => v47 (ix1 h))
              (fun h => v49 (ix1 h)) h * v64 (ix2 h c))
          - v71 (ix1 c) := by
  unfold k0_pay6
  refine (out_apply _ v64 v71 p c).trans ?_
  refine congrArg (· - v71 (ix1 c)) (Finset.sum_congr rfl fun h _ => congrArg (· * v64 (ix2 h c)) ?_)
  refine (truncf_apply _ bitsLt_bf16_f32 (ix2 p h)).trans ?_
  refine (hidden_apply _ v40 v43 v45 v47 v49 p h).trans ?_
  exact congrArg (fun f => hidden f (fun h k => v40 (ix2 k h)) (fun h => v43 (ix1 h)) (fun h => v45 (ix1 h))
    (fun h => v47 (ix1 h)) (fun h => v49 (ix1 h)) h) (funext fun j => pool_apply v37 p j)
/-! ## The last normalisation, the skip connection and the clamp -/

/-- The stored value at `(p, q)` from the bottleneck's value, the normalisation's scale and shift rows, and the point's
    own features. -/
theorem store_apply (v7 : FVec Ideal S256x128 .f32) (v70 v78 : FVec Ideal S1x128 .f32) (v80 : FVec Ideal S256x128 .f32)
    (p : Fin 256) (q : Fin 128) :
    k0_pay1 (F := Ideal) v7 v70 v78 v80 (ix2 p q)
      = max (v80 (ix2 p q) * v78 (ix2 (0 : Fin 1) q) + v70 (ix2 (0 : Fin 1) q) + v7 (ix2 p q)) (Ideal.ofBits .f32 0x00000000#32) := by
  unfold k0_pay1
  simp only [maximumf_apply, addf_apply, mulf_apply, broadcast_apply, broadcastTo_1b_ab_apply]
  rfl

/-- The last normalisation's scale row at `q`: `γ · (σ² + ε)^(-1/2)`. -/
theorem scale_apply (v67 v73 : Vec Ideal S128 .f32) (q : Fin 128) :
    k0_pay5 (F := Ideal) v67 v73 (ix2 (0 : Fin 1) q)
      = v67 (ix1 q) * Ideal.rsqrt (v73 (ix1 q) + Ideal.ofBits .f32 0x3727C5AC#32) := by
  unfold k0_pay5
  simp only [mulf_apply, addf_apply, rsqrt_apply, broadcast_apply, shapeCast_a_1a_apply]
  rfl

/-- The last normalisation's shift row at `q`. -/
theorem shift_apply (v69 : Vec Ideal S128 .f32) (q : Fin 128) :
    k0_pay4 (F := Ideal) v69 (ix2 (0 : Fin 1) q) = v69 (ix1 q) := by
  unfold k0_pay4
  exact shapeCast_a_1a_apply v69 _ 0 q

/-- The point's own features pass through unchanged. -/
theorem ident_eq (v6 : Vec Ideal S256x128 .f32) : k0_pay2 (F := Ideal) v6 = v6 := by
  unfold k0_pay2
  exact shapeCast_self v6 _

/-! ## The output block at an index -/

theorem zeros1 : (![0] : Fin 1 → ℕ) = fun _ => 0 := funext fun a => by fin_cases a; rfl
theorem zeros2 : (![0, 0] : Fin 2 → ℕ) = fun _ => 0 := funext fun a => by fin_cases a <;> rfl
theorem zeros3 : (![0, 0, 0] : Fin 3 → ℕ) = fun _ => 0 := funext fun a => by fin_cases a <;> rfl

/-- What one grid point leaves in the output block, at point `p` and channel `q`, is the block's value there: every
    access is the whole buffer, so the stored value is the last payload over the loaded blocks, and the payloads are the
    stages of `PointBlock.point` read at their indices. -/
theorem out_block_apply (x0 : Vec Ideal S256x32x128 .f32) (x1 : Vec Ideal S256x32x3 .f32) (x2 : Vec Ideal S256x128 .f32)
    (x3 : Vec Ideal S3x128 .bf16) (x4 : Vec Ideal S128x128 .bf16) (x5 x6 x7 x8 : Vec Ideal S128 .f32)
    (x9 : Vec Ideal S128x512 .bf16) (x10 x11 x12 x13 : Vec Ideal S512 .f32) (x14 : Vec Ideal S512x128 .bf16)
    (x15 x16 x17 x18 : Vec Ideal S128 .f32) (p : Fin 256) (q : Fin 128) :
    out0_19 (F := Ideal) x0 x1 x2 x3 x4 x5 x6 x7 x8 x9 x10 x11 x12 x13 x14 x15 x16 x17 x18 (ix2 p q)
      = point
          (fun s k => x0 (ix3 p s k)) (fun s k => x1 (ix3 p s k)) (fun c => x2 (ix2 p c))
          (fun o k => x3 (ix2 k o)) (fun o k => x4 (ix2 k o))
          (fun o => x5 (ix1 o)) (fun o => x6 (ix1 o)) (fun o => x7 (ix1 o)) (fun o => x8 (ix1 o))
          (fun h k => x9 (ix2 k h)) (fun h => x10 (ix1 h)) (fun h => x11 (ix1 h)) (fun h => x12 (ix1 h)) (fun h => x13 (ix1 h))
          (fun c k => x14 (ix2 k c)) (fun c => x15 (ix1 c)) (fun c => x16 (ix1 c)) (fun c => x17 (ix1 c)) (fun c => x18 (ix1 c)) q := by
  unfold out0_19
  rw [View.canon_unit_zero zeros2]
  simp only [View.ld_unit_zero (S := S256x32x128) zeros3, View.ld_unit_zero (S := S256x32x3) zeros3,
    View.ld_unit_zero (S := S256x128) zeros2, View.ld_unit_zero (S := S128x128) zeros2, View.ld_unit_zero (S := S3x128) zeros2,
    View.ld_unit_zero (S := S128) zeros1, View.ld_unit_zero (S := S128x512) zeros2, View.ld_unit_zero (S := S512) zeros1,
    View.ld_unit_zero (S := S512x128) zeros2]
  refine (store_apply _ _ _ _ p q).trans ?_
  rw [scale_apply, shift_apply, ident_eq, bottleneck_apply]
  simp only [nbr_apply]
  rfl

end Cert.KernelPoint

end
-- ==== Proof.KernelRows.lean ====
/-
  From blocks to the array.

  The grid has 64 points; point `t` handles the 256 consecutive points `256·t … 256·t + 255` of the flattened cloud
  (16384 = 4·4096 points). For those rows it is handed the neighbours' features and positions and the points' own
  features; every weight matrix and every normalisation vector is handed over whole, the same at every grid point. What
  a grid point writes back is therefore block `t` (256 rows) of ONE function of the arrays the region finds: row `r`,
  channel `q` of the output is the point-wise block `PointBlock.point` of row `r`'s data. The 64 blocks tile the 16384
  rows, so after the region the output array is that function.
-/
import proofs.«168570_j33079838113814_1_alg».proof.Proof.Gen.KernelIdeal.Frame
import proofs.«168570_j33079838113814_1_alg».proof.Proof.PointBlock
import Idealize.ShloMosaic.Lib.Pipeline.Value
import Idealize.ShloMosaic.Lib.ValueIdx

noncomputable section

namespace Cert.KernelRows

open Cert.KernelIdeal Cert.KernelIdeal.Gen Idealize.ShloMosaic Idealize.ShloMosaic.TcCoe Idealize.ShloMosaic.ValueIdx Idealize.SL.Sem
open Idealize.ShloMosaic.Pipeline (Dat)

/-- Every row of the output as the point-wise block of that row's data, the arrays being those the region finds:
    neighbour features `A0`, neighbour positions `A1`, own features `A2`, the transposed weights `A3 A4 A9 A14`, and the
    twelve normalisation vectors. -/
def rowsOut (A0 : S16384x32x128.Idx → EReal) (A1 : S16384x32x3.Idx → EReal) (A2 : S16384x128.Idx → EReal)
    (A3 : S3x128.Idx → EReal) (A4 : S128x128.Idx → EReal) (A5 A6 A7 A8 : S128.Idx → EReal)
    (A9 : S128x512.Idx → EReal) (A10 A11 A12 A13 : S512.Idx → EReal) (A14 : S512x128.Idx → EReal)
    (A15 A16 A17 A18 : S128.Idx → EReal) : S16384x128.Idx → EReal := fun i =>
  Cert.PointBlock.point (fun s k => A0 (ix3 (i 0) s k)) (fun s k => A1 (ix3 (i 0) s k)) (fun q => A2 (ix2 (i 0) q))
    (fun o k => A3 (ix2 k o)) (fun o k => A4 (ix2 k o))
    (fun o => A5 (ix1 o)) (fun o => A6 (ix1 o)) (fun o => A7 (ix1 o)) (fun o => A8 (ix1 o))
    (fun h k => A9 (ix2 k h)) (fun h => A10 (ix1 h)) (fun h => A11 (ix1 h)) (fun h => A12 (ix1 h)) (fun h => A13 (ix1 h))
    (fun q k => A14 (ix2 k q)) (fun q => A15 (ix1 q)) (fun q => A16 (ix1 q)) (fun q => A17 (ix1 q)) (fun q => A18 (ix1 q)) (i 1)

theorem grid_points : cfg0.N = 64 := N_0

/-- Row `256·t + p` of the flattened cloud: the `p`-th row of grid point `t`. -/
def rowOf (t : Fin cfg0.N) (p : Fin 256) : Fin 16384 :=
  ⟨t.val * 256 + p.val, by have h : t.val < 64 := lt_of_lt_of_eq t.isLt grid_points; have hp := p.isLt; omega⟩

/-! ## The printed index maps, decided over the 64 grid points

  The three per-row windows and the output move with the grid point along the row axis; every other window stays at
  block 0. -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 1) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 1) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 1) = 0 :=
  (by decide +kernel : ∀ t : Fin grid0.N, _)
theorem idx16 : ∀ t : Fin cfg0.N, win0_16.index t (0 : Fin 1) = 0 :=
  (by decide +kernel : ∀ t : Fin grid0.N, _)
theorem idx17 : ∀ t : Fin cfg0.N, win0_17.index t (0 : Fin 1) = 0 :=
  (by decide +kernel : ∀ t : Fin grid0.N, _)
theorem idx18 : ∀ t : Fin cfg0.N, win0_18.index t (0 : Fin 1) = 0 :=
  (by decide +kernel : ∀ t : Fin grid0.N, _)
theorem idx19 : ∀ t : Fin cfg0.N, win0_19.index t (0 : Fin 2) = t.val ∧ win0_19.index t (1 : Fin 2) = 0 :=
  (by decide +kernel : ∀ t : Fin grid0.N, _)

/-! ## Each window's block at a grid point, read off an array at an index -/

/-- Window 0's block at grid point `t`, read off ANY array of its shape: rows `256·t … 256·t + 255`. -/
theorem read_blk0 (A : Vec Ideal S16384x32x128 .f32) (t : Fin cfg0.N) (a : Fin 256) (s : Fin 32) (k : Fin 128) :
    ((cfg0.win 0).blk t).view.read (Elt Ideal) A (ix3 a s k) = A (ix3 (rowOf t a) s k) := by
  have hi := idx0 t
  rw [View.read_apply]
  refine congrArg A (funext fun d => Fin.ext ?_)
  match d with
  | ⟨0, _⟩ => show win0_0.index t (0 : Fin 3) * 256 + 1 * a.val = t.val * 256 + a.val; rw [hi.1]; omega
  | ⟨1, _⟩ => show win0_0.index t (1 : Fin 3) * 32 + 1 * s.val = s.val; rw [hi.2.1]; omega
  | ⟨2, _⟩ => show win0_0.index t (2 : Fin 3) * 128 + 1 * k.val = k.val; rw [hi.2.2]; omega

/-- Window 1's block at grid point `t`, read off ANY array of its shape: rows `256·t … 256·t + 255`. -/
theorem read_blk1 (A : Vec Ideal S16384x32x3 .f32) (t : Fin cfg0.N) (a : Fin 256) (s : Fin 32) (k : Fin 3) :
    ((cfg0.win 1).blk t).view.read (Elt Ideal) A (ix3 a s k) = A (ix3 (rowOf t a) s k) := by
  have hi := idx1 t
  rw [View.read_apply]
  refine congrArg A (funext fun d => Fin.ext ?_)
  match d with
  | ⟨0, _⟩ => show win0_1.index t (0 : Fin 3) * 256 + 1 * a.val = t.val * 256 + a.val; rw [hi.1]; omega
  | ⟨1, _⟩ => show win0_1.index t (1 : Fin 3) * 32 + 1 * s.val = s.val; rw [hi.2.1]; omega
  | ⟨2, _⟩ => show win0_1.index t (2 : Fin 3) * 3 + 1 * k.val = k.val; rw [hi.2.2]; omega

/-- Window 2's block at grid point `t`, read off ANY array of its shape: rows `256·t … 256·t + 255`. -/
theorem read_blk2 (A : Vec Ideal S16384x128 .f32) (t : Fin cfg0.N) (a : Fin 256) (b : Fin 128) :
    ((cfg0.win 2).blk t).view.read (Elt Ideal) A (ix2 a b) = A (ix2 (rowOf t a) b) := by
  have hi := idx2 t
  rw [View.read_apply]
  refine congrArg A (funext fun d => Fin.ext ?_)
  match d with
  | ⟨0, _⟩ => show win0_2.index t (0 : Fin 2) * 256 + 1 * a.val = t.val * 256 + a.val; rw [hi.1]; omega
  | ⟨1, _⟩ => show win0_2.index t (1 : Fin 2) * 128 + 1 * b.val = b.val; rw [hi.2]; omega

/-- Window 3's block at grid point `t`, read off ANY array of its shape: the whole array. -/
theorem read_blk3 (A : Vec Ideal S3x128 .bf16) (t : Fin cfg0.N) (a : Fin 3) (b : Fin 128) :
    ((cfg0.win 3).blk t).view.read (Elt Ideal) A (ix2 a b) = A (ix2 a b) := by
  have hi := idx3 t
  rw [View.read_apply]
  refine congrArg A (funext fun d => Fin.ext ?_)
  match d with
  | ⟨0, _⟩ => show win0_3.index t (0 : Fin 2) * 3 + 1 * a.val = a.val; rw [hi.1]; omega
  | ⟨1, _⟩ => show win0_3.index t (1 : Fin 2) * 128 + 1 * b.val = b.val; rw [hi.2]; omega

/-- Window 4's block at grid point `t`, read off ANY array of its shape: the whole array. -/
theorem read_blk4 (A : Vec Ideal S128x128 .bf16) (t : Fin cfg0.N) (a : Fin 128) (b : Fin 128) :
    ((cfg0.win 4).blk t).view.read (Elt Ideal) A (ix2 a b) = A (ix2 a b) := by
  have hi := idx4 t
  rw [View.read_apply]
  refine congrArg A (funext fun d => Fin.ext ?_)
  match d with
  | ⟨0, _⟩ => show win0_4.index t (0 : Fin 2) * 128 + 1 * a.val = a.val; rw [hi.1]; omega
  | ⟨1, _⟩ => show win0_4.index t (1 : Fin 2) * 128 + 1 * b.val = b.val; rw [hi.2]; omega

/-- Window 5's block at grid point `t`, read off ANY array of its shape: the whole array. -/
theorem read_blk5 (A : Vec Ideal S128 .f32) (t : Fin cfg0.N) (a : Fin 128) :
    ((cfg0.win 5).blk t).view.read (Elt Ideal) A (ix1 a) = A (ix1 a) := by
  have hi := idx5 t
  rw [View.read_apply]
  refine congrArg A (funext fun d => Fin.ext ?_)
  match d with
  | ⟨0, _⟩ => show win0_5.index t (0 : Fin 1) * 128 + 1 * a.val = a.val; rw [hi]; omega

/-- Window 6's block at grid point `t`, read off ANY array of its shape: the whole array. -/
theorem read_blk6 (A : Vec Ideal S128 .f32) (t : Fin cfg0.N) (a : Fin 128) :
    ((cfg0.win 6).blk t).view.read (Elt Ideal) A (ix1 a) = A (ix1 a) := by
  have hi := idx6 t
  rw [View.read_apply]
  refine congrArg A (funext fun d => Fin.ext ?_)
  match d with
  | ⟨0, _⟩ => show win0_6.index t (0 : Fin 1) * 128 + 1 * a.val = a.val; rw [hi]; omega

/-- Window 7's block at grid point `t`, read off ANY array of its shape: the whole array. -/
theorem read_blk7 (A : Vec Ideal S128 .f32) (t : Fin cfg0.N) (a : Fin 128) :
    ((cfg0.win 7).blk t).view.read (Elt Ideal) A (ix1 a) = A (ix1 a) := by
  have hi := idx7 t
  rw [View.read_apply]
  refine congrArg A (funext fun d => Fin.ext ?_)
  match d with
  | ⟨0, _⟩ => show win0_7.index t (0 : Fin 1) * 128 + 1 * a.val = a.val; rw [hi]; omega

/-- Window 8's block at grid point `t`, read off ANY array of its shape: the whole array. -/
theorem read_blk8 (A : Vec Ideal S128 .f32) (t : Fin cfg0.N) (a : Fin 128) :
    ((cfg0.win 8).blk t).view.read (Elt Ideal) A (ix1 a) = A (ix1 a) := by
  have hi := idx8 t
  rw [View.read_apply]
  refine congrArg A (funext fun d => Fin.ext ?_)
  match d with
  | ⟨0, _⟩ => show win0_8.index t (0 : Fin 1) * 128 + 1 * a.val = a.val; rw [hi]; omega

/-- Window 9's block at grid point `t`, read off ANY array of its shape: the whole array. -/
theorem read_blk9 (A : Vec Ideal S128x512 .bf16) (t : Fin cfg0.N) (a : Fin 128) (b : Fin 512) :
    ((cfg0.win 9).blk t).view.read (Elt Ideal) A (ix2 a b) = A (ix2 a b) := by
  have hi := idx9 t
  rw [View.read_apply]
  refine congrArg A (funext fun d => Fin.ext ?_)
  match d with
  | ⟨0, _⟩ => show win0_9.index t (0 : Fin 2) * 128 + 1 * a.val = a.val; rw [hi.1]; omega
  | ⟨1, _⟩ => show win0_9.index t (1 : Fin 2) * 512 + 1 * b.val = b.val; rw [hi.2]; omega

/-- Window 10's block at grid point `t`, read off ANY array of its shape: the whole array. -/
theorem read_blk10 (A : Vec Ideal S512 .f32) (t : Fin cfg0.N) (a : Fin 512) :
    ((cfg0.win 10).blk t).view.read (Elt Ideal) A (ix1 a) = A (ix1 a) := by
  have hi := idx10 t
  rw [View.read_apply]
  refine congrArg A (funext fun d => Fin.ext ?_)
  match d with
  | ⟨0, _⟩ => show win0_10.index t (0 : Fin 1) * 512 + 1 * a.val = a.val; rw [hi]; omega

/-- Window 11's block at grid point `t`, read off ANY array of its shape: the whole array. -/
theorem read_blk11 (A : Vec Ideal S512 .f32) (t : Fin cfg0.N) (a : Fin 512) :
    ((cfg0.win 11).blk t).view.read (Elt Ideal) A (ix1 a) = A (ix1 a) := by
  have hi := idx11 t
  rw [View.read_apply]
  refine congrArg A (funext fun d => Fin.ext ?_)
  match d with
  | ⟨0, _⟩ => show win0_11.index t (0 : Fin 1) * 512 + 1 * a.val = a.val; rw [hi]; omega

/-- Window 12's block at grid point `t`, read off ANY array of its shape: the whole array. -/
theorem read_blk12 (A : Vec Ideal S512 .f32) (t : Fin cfg0.N) (a : Fin 512) :
    ((cfg0.win 12).blk t).view.read (Elt Ideal) A (ix1 a) = A (ix1 a) := by
  have hi := idx12 t
  rw [View.read_apply]
  refine congrArg A (funext fun d => Fin.ext ?_)
  match d with
  | ⟨0, _⟩ => show win0_12.index t (0 : Fin 1) * 512 + 1 * a.val = a.val; rw [hi]; omega

/-- Window 13's block at grid point `t`, read off ANY array of its shape: the whole array. -/
theorem read_blk13 (A : Vec Ideal S512 .f32) (t : Fin cfg0.N) (a : Fin 512) :
    ((cfg0.win 13).blk t).view.read (Elt Ideal) A (ix1 a) = A (ix1 a) := by
  have hi := idx13 t
  rw [View.read_apply]
  refine congrArg A (funext fun d => Fin.ext ?_)
  match d with
  | ⟨0, _⟩ => show win0_13.index t (0 : Fin 1) * 512 + 1 * a.val = a.val; rw [hi]; omega

/-- Window 14's block at grid point `t`, read off ANY array of its shape: the whole array. -/
theorem read_blk14 (A : Vec Ideal S512x128 .bf16) (t : Fin cfg0.N) (a : Fin 512) (b : Fin 128) :
    ((cfg0.win 14).blk t).view.read (Elt Ideal) A (ix2 a b) = A (ix2 a b) := by
  have hi := idx14 t
  rw [View.read_apply]
  refine congrArg A (funext fun d => Fin.ext ?_)
  match d with
  | ⟨0, _⟩ => show win0_14.index t (0 : Fin 2) * 512 + 1 * a.val = a.val; rw [hi.1]; omega
  | ⟨1, _⟩ => show win0_14.index t (1 : Fin 2) * 128 + 1 * b.val = b.val; rw [hi.2]; omega

/-- Window 15's block at grid point `t`, read off ANY array of its shape: the whole array. -/
theorem read_blk15 (A : Vec Ideal S128 .f32) (t : Fin cfg0.N) (a : Fin 128) :
    ((cfg0.win 15).blk t).view.read (Elt Ideal) A (ix1 a) = A (ix1 a) := by
  have hi := idx15 t
  rw [View.read_apply]
  refine congrArg A (funext fun d => Fin.ext ?_)
  match d with
  | ⟨0, _⟩ => show win0_15.index t (0 : Fin 1) * 128 + 1 * a.val = a.val; rw [hi]; omega

/-- Window 16's block at grid point `t`, read off ANY array of its shape: the whole array. -/
theorem read_blk16 (A : Vec Ideal S128 .f32) (t : Fin cfg0.N) (a : Fin 128) :
    ((cfg0.win 16).blk t).view.read (Elt Ideal) A (ix1 a) = A (ix1 a) := by
  have hi := idx16 t
  rw [View.read_apply]
  refine congrArg A (funext fun d => Fin.ext ?_)
  match d with
  | ⟨0, _⟩ => show win0_16.index t (0 : Fin 1) * 128 + 1 * a.val = a.val; rw [hi]; omega

/-- Window 17's block at grid point `t`, read off ANY array of its shape: the whole array. -/
theorem read_blk17 (A : Vec Ideal S128 .f32) (t : Fin cfg0.N) (a : Fin 128) :
    ((cfg0.win 17).blk t).view.read (Elt Ideal) A (ix1 a) = A (ix1 a) := by
  have hi := idx17 t
  rw [View.read_apply]
  refine congrArg A (funext fun d => Fin.ext ?_)
  match d with
  | ⟨0, _⟩ => show win0_17.index t (0 : Fin 1) * 128 + 1 * a.val = a.val; rw [hi]; omega

/-- Window 18's block at grid point `t`, read off ANY array of its shape: the whole array. -/
theorem read_blk18 (A : Vec Ideal S128 .f32) (t : Fin cfg0.N) (a : Fin 128) :
    ((cfg0.win 18).blk t).view.read (Elt Ideal) A (ix1 a) = A (ix1 a) := by
  have hi := idx18 t
  rw [View.read_apply]
  refine congrArg A (funext fun d => Fin.ext ?_)
  match d with
  | ⟨0, _⟩ => show win0_18.index t (0 : Fin 1) * 128 + 1 * a.val = a.val; rw [hi]; omega

end Cert.KernelRows

end
-- ==== Proof.KernelFlush.lean ====
/-
  From blocks to the array, for the kernel's output.

  Grid point `t` is handed rows `256·t … 256·t + 255` of the three per-row arrays and the whole of every weight matrix
  and normalisation vector, and it writes rows `256·t … 256·t + 255` of the output. Its stored block at `(p, q)` is the
  point-wise block `PointBlock.point` of the data it was handed for its `p`-th row (`KernelPoint.out_block_apply`), and that
  data is row `256·t + p` of the arrays (`KernelRows.read_blk0 … read_blk18`): so what it writes back is block `t` of
  `KernelRows.rowsOut` of the arrays. The 64 blocks of 256 rows tile the 16384 rows — row `r` lies in block `r / 256` —
  so after the region the output array is `KernelRows.rowsOut` of the arrays the region finds.

  Everything about one block is stated over arbitrary arrays of the windows' shapes; the arrays the region finds are
  only named, in the last three statements.
-/
import proofs.«168570_j33079838113814_1_alg».proof.Proof.KernelPoint
import proofs.«168570_j33079838113814_1_alg».proof.Proof.KernelRows
import proofs.«168570_j33079838113814_1_alg».proof.Proof.Gen.KernelIdeal.Frame
import Idealize.ShloMosaic.Lib.Pipeline.Value

noncomputable section

namespace Cert.KernelFlush

open Cert.KernelIdeal Cert.KernelIdeal.Gen Idealize.ShloMosaic Idealize.ShloMosaic.TcCoe Idealize.ShloMosaic.ValueIdx Idealize.SL.Sem
open Idealize.ShloMosaic.Pipeline (Dat)
open Cert.KernelRows

/-! ## One block, over any arrays -/

/-- `PointBlock.point` depends only on its nineteen data functions. -/
theorem point_congr {fe fe' : Fin 32 → Fin 128 → EReal} {xy xy' : Fin 32 → Fin 3 → EReal} {ident ident' : Fin 128 → EReal}
    {Wx Wx' : Fin 128 → Fin 3 → EReal} {Wf Wf' : Fin 128 → Fin 128 → EReal}
    {gn gn' bn bn' mn mn' vn vn' : Fin 128 → EReal}
    {W1 W1' : Fin 512 → Fin 128 → EReal} {g1 g1' b1 b1' m1 m1' v1 v1' : Fin 512 → EReal}
    {W2 W2' : Fin 128 → Fin 512 → EReal} {g2 g2' b2 b2' m2 m2' v2 v2' : Fin 128 → EReal}
    (e0 : fe = fe') (e1 : xy = xy') (e2 : ident = ident') (e3 : Wx = Wx') (e4 : Wf = Wf')
    (e5 : gn = gn') (e6 : bn = bn') (e7 : mn = mn') (e8 : vn = vn')
    (e9 : W1 = W1') (e10 : g1 = g1') (e11 : b1 = b1') (e12 : m1 = m1') (e13 : v1 = v1')
    (e14 : W2 = W2') (e15 : g2 = g2') (e16 : b2 = b2') (e17 : m2 = m2') (e18 : v2 = v2') (q : Fin 128) :
    Cert.PointBlock.point fe xy ident Wx Wf gn bn mn vn W1 g1 b1 m1 v1 W2 g2 b2 m2 v2 q
      = Cert.PointBlock.point fe' xy' ident' Wx' Wf' gn' bn' mn' vn' W1' g1' b1' m1' v1' W2' g2' b2' m2' v2' q := by
  subst e0 e1 e2 e3 e4 e5 e6 e7 e8 e9 e10 e11 e12 e13 e14 e15 e16 e17 e18
  rfl

/-- The output window's block at grid point `t`, read off ANY array of its shape: rows `256·t … 256·t + 255`. -/
theorem read_blk19 (A : Vec Ideal S16384x128 .f32) (t : Fin cfg0.N) (a : Fin 256) (b : Fin 128) :
    ((cfg0.win 19).blk t).view.read (Elt Ideal) A (ix2 a b) = A (ix2 (rowOf t a) b) := by
  have hi := idx19 t
  rw [View.read_apply]
  refine congrArg A (funext fun d => Fin.ext ?_)
  match d with
  | ⟨0, _⟩ => show win0_19.index t (0 : Fin 2) * 256 + 1 * a.val = t.val * 256 + a.val; rw [hi.1]; omega
  | ⟨1, _⟩ => show win0_19.index t (1 : Fin 2) * 128 + 1 * b.val = b.val; rw [hi.2]; omega

/-- What grid point `t` leaves in its output block, from the blocks of ANY nineteen arrays, at `(p, q)`: row
    `256·t + p`, channel `q` of the row-wise function of those arrays. -/
theorem block_eq (A0 : Vec Ideal S16384x32x128 .f32) (A1 : Vec Ideal S16384x32x3 .f32) (A2 : Vec Ideal S16384x128 .f32)
    (A3 : Vec Ideal S3x128 .bf16) (A4 : Vec Ideal S128x128 .bf16) (A5 A6 A7 A8 : Vec Ideal S128 .f32)
    (A9 : Vec Ideal S128x512 .bf16) (A10 A11 A12 A13 : Vec Ideal S512 .f32) (A14 : Vec Ideal S512x128 .bf16)
    (A15 A16 A17 A18 : Vec Ideal S128 .f32) (t : Fin cfg0.N) (p : Fin 256) (q : Fin 128) :
    out0_19 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8) (((cfg0.win 9).blk t).view.read (Elt Ideal) A9) (((cfg0.win 10).blk t).view.read (Elt Ideal) A10) (((cfg0.win 11).blk t).view.read (Elt Ideal) A11) (((cfg0.win 12).blk t).view.read (Elt Ideal) A12) (((cfg0.win 13).blk t).view.read (Elt Ideal) A13) (((cfg0.win 14).blk t).view.read (Elt Ideal) A14) (((cfg0.win 15).blk t).view.read (Elt Ideal) A15) (((cfg0.win 16).blk t).view.read (Elt Ideal) A16) (((cfg0.win 17).blk t).view.read (Elt Ideal) A17) (((cfg0.win 18).blk t).view.read (Elt Ideal) A18) (ix2 p q)
      = rowsOut A0 A1 A2 A3 A4 A5 A6 A7 A8 A9 A10 A11 A12 A13 A14 A15 A16 A17 A18 (ix2 (rowOf t p) q) := by
  refine (KernelPoint.out_block_apply (((cfg0.win 0).blk t).view.read (Elt Ideal) A0)
    (((cfg0.win 1).blk t).view.read (Elt Ideal) A1)
    (((cfg0.win 2).blk t).view.read (Elt Ideal) A2)
    (((cfg0.win 3).blk t).view.read (Elt Ideal) A3)
    (((cfg0.win 4).blk t).view.read (Elt Ideal) A4)
    (((cfg0.win 5).blk t).view.read (Elt Ideal) A5)
    (((cfg0.win 6).blk t).view.read (Elt Ideal) A6)
    (((cfg0.win 7).blk t).view.read (Elt Ideal) A7)
    (((cfg0.win 8).blk t).view.read (Elt Ideal) A8)
    (((cfg0.win 9).blk t).view.read (Elt Ideal) A9)
    (((cfg0.win 10).blk t).view.read (Elt Ideal) A10)
    (((cfg0.win 11).blk t).view.read (Elt Ideal) A11)
    (((cfg0.win 12).blk t).view.read (Elt Ideal) A12)
    (((cfg0.win 13).blk t).view.read (Elt Ideal) A13)
    (((cfg0.win 14).blk t).view.read (Elt Ideal) A14)
    (((cfg0.win 15).blk t).view.read (Elt Ideal) A15)
    (((cfg0.win 16).blk t).view.read (Elt Ideal) A16)
    (((cfg0.win 17).blk t).view.read (Elt Ideal) A17)
    (((cfg0.win 18).blk t).view.read (Elt Ideal) A18) p q).trans ?_
  have h0 : (fun s k => ((cfg0.win 0).blk t).view.read (Elt Ideal) A0 (ix3 p s k)) = fun s k => A0 (ix3 (rowOf t p) s k) :=
    funext fun s => funext fun k => read_blk0 A0 t p s k
  have h1 : (fun s k => ((cfg0.win 1).blk t).view.read (Elt Ideal) A1 (ix3 p s k)) = fun s k => A1 (ix3 (rowOf t p) s k) :=
    funext fun s => funext fun k => read_blk1 A1 t p s k
  have h2 : (fun c => ((cfg0.win 2).blk t).view.read (Elt Ideal) A2 (ix2 p c)) = fun c => A2 (ix2 (rowOf t p) c) :=
    funext fun c => read_blk2 A2 t p c
  have h3 : (fun o k => ((cfg0.win 3).blk t).view.read (Elt Ideal) A3 (ix2 k o)) = fun o k => A3 (ix2 k o) :=
    funext fun o => funext fun k => read_blk3 A3 t k o
  have h4 : (fun o k => ((cfg0.win 4).blk t).view.read (Elt Ideal) A4 (ix2 k o)) = fun o k => A4 (ix2 k o) :=
    funext fun o => funext fun k => read_blk4 A4 t k o
  have h5 : (fun o => ((cfg0.win 5).blk t).view.read (Elt Ideal) A5 (ix1 o)) = fun o => A5 (ix1 o) :=
    funext fun o => read_blk5 A5 t o
  have h6 : (fun o => ((cfg0.win 6).blk t).view.read (Elt Ideal) A6 (ix1 o)) = fun o => A6 (ix1 o) :=
    funext fun o => read_blk6 A6 t o
  have h7 : (fun o => ((cfg0.win 7).blk t).view.read (Elt Ideal) A7 (ix1 o)) = fun o => A7 (ix1 o) :=
    funext fun o => read_blk7 A7 t o
  have h8 : (fun o => ((cfg0.win 8).blk t).view.read (Elt Ideal) A8 (ix1 o)) = fun o => A8 (ix1 o) :=
    funext fun o => read_blk8 A8 t o
  have h9 : (fun h k => ((cfg0.win 9).blk t).view.read (Elt Ideal) A9 (ix2 k h)) = fun h k => A9 (ix2 k h) :=
    funext fun h => funext fun k => read_blk9 A9 t k h
  have h10 : (fun h => ((cfg0.win 10).blk t).view.read (Elt Ideal) A10 (ix1 h)) = fun h => A10 (ix1 h) :=
    funext fun h => read_blk10 A10 t h
  have h11 : (fun h => ((cfg0.win 11).blk t).view.read (Elt Ideal) A11 (ix1 h)) = fun h => A11 (ix1 h) :=
    funext fun h => read_blk11 A11 t h
  have h12 : (fun h => ((cfg0.win 12).blk t).view.read (Elt Ideal) A12 (ix1 h)) = fun h => A12 (ix1 h) :=
    funext fun h => read_blk12 A12 t h
  have h13 : (fun h => ((cfg0.win 13).blk t).view.read (Elt Ideal) A13 (ix1 h)) = fun h => A13 (ix1 h) :=
    funext fun h => read_blk13 A13 t h
  have h14 : (fun c k => ((cfg0.win 14).blk t).view.read (Elt Ideal) A14 (ix2 k c)) = fun c k => A14 (ix2 k c) :=
    funext fun c => funext fun k => read_blk14 A14 t k c
  have h15 : (fun c => ((cfg0.win 15).blk t).view.read (Elt Ideal) A15 (ix1 c)) = fun c => A15 (ix1 c) :=
    funext fun c => read_blk15 A15 t c
  have h16 : (fun c => ((cfg0.win 16).blk t).view.read (Elt Ideal) A16 (ix1 c)) = fun c => A16 (ix1 c) :=
    funext fun c => read_blk16 A16 t c
  have h17 : (fun c => ((cfg0.win 17).blk t).view.read (Elt Ideal) A17 (ix1 c)) = fun c => A17 (ix1 c) :=
    funext fun c => read_blk17 A17 t c
  have h18 : (fun c => ((cfg0.win 18).blk t).view.read (Elt Ideal) A18 (ix1 c)) = fun c => A18 (ix1 c) :=
    funext fun c => read_blk18 A18 t c
  unfold rowsOut
  exact point_congr h0 h1 h2 h3 h4 h5 h6 h7 h8 h9 h10 h11 h12 h13 h14 h15 h16 h17 h18 q

/-! ## What a grid point writes back, the cover, and the array after the region -/

section
variable (m : (ℓ : Loc nD τ sig) → Buf (Elt Ideal) ℓ)

set_option maxHeartbeats 1000000 in
/-- What grid point `t` writes back is block `t` of the row-wise function of the arrays the region finds. -/
theorem flushed_eq (c : Dev nD) (t : Fin cfg0.N) :
    (dats m 0 c).flushed 19 t = ((cfg0.win 19).blk t).view.read (Elt Ideal)
      (rowsOut (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 15)) (V m c (Pipeline.arrRef spec0 16)) (V m c (Pipeline.arrRef spec0 17)) (V m c (Pipeline.arrRef spec0 18))) := by
  show (cfg0.win 19).cut (grid0.coords t) ((dats m 0 c).after 19 t) = _
  rw [after0_19]
  funext y
  obtain ⟨p, q, rfl⟩ : ∃ (p : Fin 256) (q : Fin 128), y = ix2 p q := ⟨y 0, y 1, eq_ix2 y⟩
  exact (block_eq _ _ _ _ _ _ _ _ _ _ _ _ _ _ _ _ _ _ _ t p q).trans (read_blk19 _ t p q).symm

/-- Every row of the output lies in the block of the grid point that handles it: row `r` in block `r / 256`. -/
theorem covered (i : S16384x128.Idx) :
    ∃ t : Fin cfg0.N, (cfg0.win 19).flush t = true ∧ i ∈ ((cfg0.win 19).blk t).view.set := by
  have h0 : (i 0).val < 16384 := (i 0).isLt
  have h1 : (i 1).val < 128 := (i 1).isLt
  have hN : cfg0.N = 64 := grid_points
  obtain ⟨t, ht⟩ : ∃ t : Fin cfg0.N, t.val = (i 0).val / 256 := ⟨⟨(i 0).val / 256, by rw [hN]; omega⟩, rfl⟩
  have hi := idx19 t
  refine ⟨t, flush0_19 t, ?_⟩
  show i ∈ ((View.whole main_v42).slice (win0_19.rect t)).set
  rw [View.set_slice_whole, Rect.mem_set_unit]
  intro a
  match a with
  | ⟨0, _⟩ =>
    show win0_19.index t (0 : Fin 2) * 256 ≤ (i 0).val ∧ (i 0).val < win0_19.index t (0 : Fin 2) * 256 + 256
    rw [hi.1]; omega
  | ⟨1, _⟩ =>
    show win0_19.index t (1 : Fin 2) * 128 ≤ (i 1).val ∧ (i 1).val < win0_19.index t (1 : Fin 2) * 128 + 128
    rw [hi.2]; omega

set_option maxHeartbeats 1000000 in
/-- After the region the output array is the row-wise function of the arrays the region finds. -/
theorem final (c : Dev nD) :
    (dats m 0 c).arrAt 19 cfg0.N = rowsOut (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 15)) (V m c (Pipeline.arrRef spec0 16)) (V m c (Pipeline.arrRef spec0 17)) (V m c (Pipeline.arrRef spec0 18)) :=
  (dats m 0 c).arrAt_eq_of_cover 19 _ (fun t _ => flushed_eq m c t) covered

end

end Cert.KernelFlush

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.KernelPrelude.lean ====
/-
  The arrays the kernel is launched on, as functions of the arguments.

  Before the launch the host builds each point's 32 neighbours (squared distances, a sort of the in-ball indices, two
  gathers), scales the neighbours' relative positions, flattens the gathered arrays to 16384 rows and slices and
  transposes the weight matrices. The host line is read back stretch by stretch — one stretch per called function and
  per run of plain operations between calls — each stretch from ANY buffer contents `W` that hold the stretch's inputs;
  what a stretch leaves in the buffers later stretches read is stated against the same staged functions that describe
  the reference's host program, so the neighbour construction, which is the same on both sides, is never opened.

  Values pass in and out of a called function's buffers through transports along equalities of buffer types that are
  identities at literal buffers; they are removed (`cast_eq`) before two sides are compared.
-/
import proofs.«168570_j33079838113814_1_alg».proof.Proof.Gen.KernelIdeal.Frame
import proofs.«168570_j33079838113814_1_alg».proof.Proof.ReadP
import proofs.«168570_j33079838113814_1_alg».proof.Proof.LibStretch
import Idealize.ShloMosaic.Lib.StableHlo.Run

noncomputable section

namespace Cert.KernelPrelude

open Cert.KernelIdeal Cert.KernelIdeal.Gen Idealize.ShloMosaic Idealize.ShloMosaic.TcCoe Idealize.SL.Sem Idealize.ShloMosaic.StableHlo

/-- The five argument arrays the host line reads hold `x0 x1 x2 x7 x12` (positions, features, and the three weight matrices). -/
def ArgsAt (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) : Prop :=
  W (Proc.devRef .tc main_arg0) = x0 ∧ W (Proc.devRef .tc main_arg1) = x1 ∧ W (Proc.devRef .tc main_arg2) = x2
    ∧ W (Proc.devRef .tc main_arg7) = x7 ∧ W (Proc.devRef .tc main_arg12) = x12

/-! ## Stretch 0: pairwise squared distances against the squared radius, and the index row -/

/-- No operation of the stretch writes an argument. -/
theorem keeps0 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) (h : ArgsAt W x0 x1 x2 x7 x12) :
    ArgsAt (StableHlo.after hostOps0 W) x0 x1 x2 x7 x12 := by
  obtain ⟨h0, h1, h2, h7, h12⟩ := h
  refine ⟨?_, ?_, ?_, ?_, ?_⟩ <;> (simp only [hostOps0]; after_results_simp; assumption)

set_option maxHeartbeats 4000000 in
/-- What the stretch leaves for later stretches, from any contents holding its inputs. -/
theorem vals0 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal))
    (h : ArgsAt W x0 x1 x2 x7 x12)
     :
    StableHlo.after hostOps0 W (Proc.devRef .tc main_v8) = Cert.ReferenceIdeal.ReadP.val_main_v8 (F := Ideal)
      ∧ StableHlo.after hostOps0 W (Proc.devRef .tc main_v10) = Cert.ReferenceIdeal.ReadP.val_main_v10 (F := Ideal) x0
      ∧ StableHlo.after hostOps0 W (Proc.devRef .tc main_c) = Cert.ReferenceIdeal.ReadP.val_main_c (F := Ideal) := by
  obtain ⟨h0, h1, h2, h7, h12⟩ := h
  refine ⟨?_, ?_, ?_⟩ <;>
  (simp only [hostOps0]; after_results_simp; (try simp only [TRef.toBuf, TRef.ofBuf, cast_eq, h0, h1, h2, h7, h12]); (try rfl))

/-! ## Stretch 1: out-of-ball entries replaced by the sentinel N -/

/-- No operation of the stretch writes an argument. -/
theorem keeps1 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) (h : ArgsAt W x0 x1 x2 x7 x12) :
    ArgsAt (StableHlo.after hostOps0_1 W) x0 x1 x2 x7 x12 := by
  obtain ⟨h0, h1, h2, h7, h12⟩ := h
  refine ⟨?_, ?_, ?_, ?_, ?_⟩ <;> (simp only [hostOps0_1]; after_results_simp; assumption)

set_option maxHeartbeats 4000000 in
/-- What the stretch leaves for later stretches, from any contents holding its inputs. -/
theorem vals1 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal))

    (i0 : W (Proc.devRef .tc main_v10) = Cert.ReferenceIdeal.ReadP.val_main_v10 (F := Ideal) x0)
    (i1 : W (Proc.devRef .tc main_c) = Cert.ReferenceIdeal.ReadP.val_main_c (F := Ideal))
    (i2 : W (Proc.devRef .tc main_v8) = Cert.ReferenceIdeal.ReadP.val_main_v8 (F := Ideal)) :
    StableHlo.after hostOps0_1 W (Proc.devRef .tc main_v11) = Cert.ReferenceIdeal.ReadP.val_main_v11 (F := Ideal) x0 := by
  simp only [hostOps0_1]
  after_results_simp
  simp only [TRef.toBuf, TRef.ofBuf, cast_eq, i0, i1, i2]
  rfl

/-! ## Stretch 2: each row sorted -/

/-- No operation of the stretch writes an argument. -/
theorem keeps2 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) (h : ArgsAt W x0 x1 x2 x7 x12) :
    ArgsAt (StableHlo.after hostOps0_2 W) x0 x1 x2 x7 x12 := by
  obtain ⟨h0, h1, h2, h7, h12⟩ := h
  refine ⟨?_, ?_, ?_, ?_, ?_⟩ <;> (simp only [hostOps0_2]; after_results_simp; assumption)

set_option maxHeartbeats 4000000 in
/-- What the stretch leaves for later stretches, from any contents holding its inputs. -/
theorem vals2 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal))

    (i0 : W (Proc.devRef .tc main_v11) = Cert.ReferenceIdeal.ReadP.val_main_v11 (F := Ideal) x0) :
    StableHlo.after hostOps0_2 W (Proc.devRef .tc main_v12) = Cert.ReferenceIdeal.ReadP.val_main_v12 (F := Ideal) x0 := by
  simp only [hostOps0_2]
  after_results_simp
  simp only [TRef.toBuf, TRef.ofBuf, cast_eq, i0]
  rfl

/-! ## Stretch 3: the first 32 of each row, the first of them, and where the sentinel sits -/

/-- No operation of the stretch writes an argument. -/
theorem keeps3 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) (h : ArgsAt W x0 x1 x2 x7 x12) :
    ArgsAt (StableHlo.after hostOps0_3 W) x0 x1 x2 x7 x12 := by
  obtain ⟨h0, h1, h2, h7, h12⟩ := h
  refine ⟨?_, ?_, ?_, ?_, ?_⟩ <;> (simp only [hostOps0_3]; after_results_simp; assumption)

set_option maxHeartbeats 4000000 in
/-- What the stretch leaves for later stretches, from any contents holding its inputs. -/
theorem vals3 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal))

    (i0 : W (Proc.devRef .tc main_v12) = Cert.ReferenceIdeal.ReadP.val_main_v12 (F := Ideal) x0) :
    StableHlo.after hostOps0_3 W (Proc.devRef .tc main_v13) = Cert.ReferenceIdeal.ReadP.val_main_v13 (F := Ideal) x0
      ∧ StableHlo.after hostOps0_3 W (Proc.devRef .tc main_v14) = Cert.ReferenceIdeal.ReadP.val_main_v14 (F := Ideal) x0
      ∧ StableHlo.after hostOps0_3 W (Proc.devRef .tc main_v16) = Cert.ReferenceIdeal.ReadP.val_main_v16 (F := Ideal) x0 := by
  refine ⟨?_, ?_, ?_⟩ <;>
  (simp only [hostOps0_3]; after_results_simp; (try simp only [TRef.toBuf, TRef.ofBuf, cast_eq, i0]); (try rfl))

/-! ## Stretch 4: sentinels replaced by the row's first neighbour: the neighbour table -/

/-- No operation of the stretch writes an argument. -/
theorem keeps4 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) (h : ArgsAt W x0 x1 x2 x7 x12) :
    ArgsAt (StableHlo.after hostOps0_4 W) x0 x1 x2 x7 x12 := by
  obtain ⟨h0, h1, h2, h7, h12⟩ := h
  refine ⟨?_, ?_, ?_, ?_, ?_⟩ <;> (simp only [hostOps0_4]; after_results_simp; assumption)

set_option maxHeartbeats 4000000 in
/-- What the stretch leaves for later stretches, from any contents holding its inputs. -/
theorem vals4 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal))

    (i0 : W (Proc.devRef .tc main_v16) = Cert.ReferenceIdeal.ReadP.val_main_v16 (F := Ideal) x0)
    (i1 : W (Proc.devRef .tc main_v14) = Cert.ReferenceIdeal.ReadP.val_main_v14 (F := Ideal) x0)
    (i2 : W (Proc.devRef .tc main_v13) = Cert.ReferenceIdeal.ReadP.val_main_v13 (F := Ideal) x0) :
    StableHlo.after hostOps0_4 W (Proc.devRef .tc main_v17) = Cert.ReferenceIdeal.ReadP.val_main_v17 (F := Ideal) x0 := by
  simp only [hostOps0_4]
  after_results_simp
  simp only [TRef.toBuf, TRef.ofBuf, cast_eq, i0, i1, i2]
  rfl

/-! ## Stretch 5: the table flattened (and kept) -/

/-- No operation of the stretch writes an argument. -/
theorem keeps5 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) (h : ArgsAt W x0 x1 x2 x7 x12) :
    ArgsAt (StableHlo.after hostOps0_5 W) x0 x1 x2 x7 x12 := by
  obtain ⟨h0, h1, h2, h7, h12⟩ := h
  refine ⟨?_, ?_, ?_, ?_, ?_⟩ <;> (simp only [hostOps0_5]; after_results_simp; assumption)

set_option maxHeartbeats 4000000 in
/-- What the stretch leaves for later stretches, from any contents holding its inputs. -/
theorem vals5 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal))

    (i0 : W (Proc.devRef .tc main_v17) = Cert.ReferenceIdeal.ReadP.val_main_v17 (F := Ideal) x0) :
    StableHlo.after hostOps0_5 W (Proc.devRef .tc main_v18) = Cert.ReferenceIdeal.ReadP.val_main_v18 (F := Ideal) x0
      ∧ StableHlo.after hostOps0_5 W (Proc.devRef .tc main_v17) = Cert.ReferenceIdeal.ReadP.val_main_v17 (F := Ideal) x0 := by
  refine ⟨?_, ?_⟩ <;>
  (simp only [hostOps0_5]; after_results_simp; (try simp only [TRef.toBuf, TRef.ofBuf, cast_eq, i0]); (try rfl))

/-! ## Stretch 6: the neighbours' positions gathered -/

/-- No operation of the stretch writes an argument. -/
theorem keeps6 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) (h : ArgsAt W x0 x1 x2 x7 x12) :
    ArgsAt (StableHlo.after hostOps0_6 W) x0 x1 x2 x7 x12 := by
  obtain ⟨h0, h1, h2, h7, h12⟩ := h
  refine ⟨?_, ?_, ?_, ?_, ?_⟩ <;> (simp only [hostOps0_6]; after_results_simp; assumption)

set_option maxHeartbeats 4000000 in
/-- What the stretch leaves for later stretches, from any contents holding its inputs. -/
theorem vals6 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal))
    (h : ArgsAt W x0 x1 x2 x7 x12)
    (i0 : W (Proc.devRef .tc main_v18) = Cert.ReferenceIdeal.ReadP.val_main_v18 (F := Ideal) x0)
    (i1 : W (Proc.devRef .tc main_v17) = Cert.ReferenceIdeal.ReadP.val_main_v17 (F := Ideal) x0) :
    StableHlo.after hostOps0_6 W (Proc.devRef .tc main_v19) = Cert.ReferenceIdeal.ReadP.val_main_v19 (F := Ideal) x0
      ∧ StableHlo.after hostOps0_6 W (Proc.devRef .tc main_v17) = Cert.ReferenceIdeal.ReadP.val_main_v17 (F := Ideal) x0 := by
  obtain ⟨h0, h1, h2, h7, h12⟩ := h
  refine ⟨?_, ?_⟩ <;>
  (simp only [hostOps0_6]; after_results_simp; (try simp only [TRef.toBuf, TRef.ofBuf, cast_eq, i0, i1, h0, h1, h2, h7, h12]); (try rfl))

/-! ## Stretch 7: positions relative to the point, over the radius; the table flattened again -/

/-- No operation of the stretch writes an argument. -/
theorem keeps7 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) (h : ArgsAt W x0 x1 x2 x7 x12) :
    ArgsAt (StableHlo.after hostOps0_7 W) x0 x1 x2 x7 x12 := by
  obtain ⟨h0, h1, h2, h7, h12⟩ := h
  refine ⟨?_, ?_, ?_, ?_, ?_⟩ <;> (simp only [hostOps0_7]; after_results_simp; assumption)

set_option maxHeartbeats 4000000 in
/-- What the stretch leaves for later stretches, from any contents holding its inputs. -/
theorem vals7 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal))
    (h : ArgsAt W x0 x1 x2 x7 x12)
    (i0 : W (Proc.devRef .tc main_v19) = Cert.ReferenceIdeal.ReadP.val_main_v19 (F := Ideal) x0)
    (i1 : W (Proc.devRef .tc main_v17) = Cert.ReferenceIdeal.ReadP.val_main_v17 (F := Ideal) x0) :
    StableHlo.after hostOps0_7 W (Proc.devRef .tc main_v25) = Cert.ReferenceIdeal.ReadP.val_main_v25 (F := Ideal) x0
      ∧ StableHlo.after hostOps0_7 W (Proc.devRef .tc main_v26) = Cert.ReferenceIdeal.ReadP.val_main_v26 (F := Ideal) x0 := by
  obtain ⟨h0, h1, h2, h7, h12⟩ := h
  refine ⟨?_, ?_⟩ <;>
  (simp only [hostOps0_7]; after_results_simp; (try simp only [TRef.toBuf, TRef.ofBuf, cast_eq, i0, i1, h0, h1, h2, h7, h12]); (try rfl))

/-! ## Stretch 8: the neighbours' features gathered -/

/-- No operation of the stretch writes an argument. -/
theorem keeps8 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) (h : ArgsAt W x0 x1 x2 x7 x12) :
    ArgsAt (StableHlo.after hostOps0_8 W) x0 x1 x2 x7 x12 := by
  obtain ⟨h0, h1, h2, h7, h12⟩ := h
  refine ⟨?_, ?_, ?_, ?_, ?_⟩ <;> (simp only [hostOps0_8]; after_results_simp; assumption)

set_option maxHeartbeats 4000000 in
/-- What the stretch leaves for later stretches, from any contents holding its inputs. -/
theorem vals8 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal))
    (h : ArgsAt W x0 x1 x2 x7 x12)
    (i0 : W (Proc.devRef .tc main_v26) = Cert.ReferenceIdeal.ReadP.val_main_v26 (F := Ideal) x0)
    (i1 : W (Proc.devRef .tc main_v25) = Cert.ReferenceIdeal.ReadP.val_main_v25 (F := Ideal) x0) :
    StableHlo.after hostOps0_8 W (Proc.devRef .tc main_v27) = Cert.ReferenceIdeal.ReadP.val_main_v27 (F := Ideal) x0 x1
      ∧ StableHlo.after hostOps0_8 W (Proc.devRef .tc main_v25) = Cert.ReferenceIdeal.ReadP.val_main_v25 (F := Ideal) x0 := by
  obtain ⟨h0, h1, h2, h7, h12⟩ := h
  refine ⟨?_, ?_⟩ <;>
  (simp only [hostOps0_8]; after_results_simp; (try simp only [TRef.toBuf, TRef.ofBuf, cast_eq, i0, i1, h0, h1, h2, h7, h12]); (try rfl))

/-! ## Stretch 9: the arrays the kernel is launched on: the gathered arrays flattened to 16384 rows, the weights sliced and transposed -/

/-- No operation of the stretch writes an argument. -/
theorem keeps9 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal)) (h : ArgsAt W x0 x1 x2 x7 x12) :
    ArgsAt (StableHlo.after hostOps0_9 W) x0 x1 x2 x7 x12 := by
  obtain ⟨h0, h1, h2, h7, h12⟩ := h
  refine ⟨?_, ?_, ?_, ?_, ?_⟩ <;> (simp only [hostOps0_9]; after_results_simp; assumption)

set_option maxHeartbeats 4000000 in
/-- What the stretch leaves for later stretches, from any contents holding its inputs. -/
theorem vals9 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal)) (x7 : (⟨S512x128, .f32⟩ : BufTy).Contents (Elt Ideal)) (x12 : (⟨S128x512, .f32⟩ : BufTy).Contents (Elt Ideal))
    (h : ArgsAt W x0 x1 x2 x7 x12)
    (i0 : W (Proc.devRef .tc main_v27) = Cert.ReferenceIdeal.ReadP.val_main_v27 (F := Ideal) x0 x1)
    (i1 : W (Proc.devRef .tc main_v25) = Cert.ReferenceIdeal.ReadP.val_main_v25 (F := Ideal) x0) :
    StableHlo.after hostOps0_9 W (Proc.devRef .tc main_v29) = shapeCast S16384x32x128 (Cert.ReferenceIdeal.ReadP.val_main_v28 (F := Ideal) x0 x1) shapeCasts_S4x4096x32x128_S16384x32x128
      ∧ StableHlo.after hostOps0_9 W (Proc.devRef .tc main_v30) = shapeCast S16384x32x3 (Cert.ReferenceIdeal.ReadP.val_main_v25 (F := Ideal) x0) shapeCasts_S4x4096x32x3_S16384x32x3
      ∧ StableHlo.after hostOps0_9 W (Proc.devRef .tc main_v31) = shapeCast S16384x128 x1 shapeCasts_S4x4096x128_S16384x128
      ∧ StableHlo.after hostOps0_9 W (Proc.devRef .tc main_v34) = truncf (F := Ideal) .bf16 (transpose S3x128 [1, 0] (extractStridedSlice S128x3 ![0, 0] x2 slices_S128x131_S128x3_0_0) transposes_S128x3_S3x128_1_0) bitsLt_bf16_f32
      ∧ StableHlo.after hostOps0_9 W (Proc.devRef .tc main_v37) = truncf (F := Ideal) .bf16 (transpose S128x128 [1, 0] (extractStridedSlice S128x128 ![0, 3] x2 slices_S128x131_S128x128_0_3) transposes_S128x128_S128x128_1_0) bitsLt_bf16_f32
      ∧ StableHlo.after hostOps0_9 W (Proc.devRef .tc main_v39) = truncf (F := Ideal) .bf16 (transpose S128x512 [1, 0] x7 transposes_S512x128_S128x512_1_0) bitsLt_bf16_f32
      ∧ StableHlo.after hostOps0_9 W (Proc.devRef .tc main_v41) = truncf (F := Ideal) .bf16 (transpose S512x128 [1, 0] x12 transposes_S128x512_S512x128_1_0) bitsLt_bf16_f32 := by
  obtain ⟨h0, h1, h2, h7, h12⟩ := h
  refine ⟨?_, ?_, ?_, ?_, ?_, ?_, ?_⟩ <;>
  (simp only [hostOps0_9]; after_results_simp; (try simp only [TRef.toBuf, TRef.ofBuf, cast_eq, i0, i1, h0, h1, h2, h7, h12]); (try rfl))

end Cert.KernelPrelude

end
-- ==== Proof.KernelArrays.lean ====
/-
  The launch arrays as functions of the arguments, and the host's layout operations read at an index.

  Chaining the stretches of the host line gives each array the kernel is launched on: the neighbours' features and
  scaled relative positions (the shared neighbour construction, kept as the staged functions of the arguments), flattened
  from [4, 4096, 32, ·] to [16384, 32, ·]; the points' own features flattened from [4, 4096, 128] to [16384, 128]; and the
  three weight matrices sliced and transposed. Row `r` of a flattened array is point `(r / 4096, r % 4096)`; entry
  `(k, o)` of a transposed weight matrix is entry `(o, k)` of the matrix, the feature part of the first matrix starting
  at column 3. After the launch the host un-flattens the [16384, 128] result to [4, 4096, 128]: point `(b, n)` is row
  `4096·b + n`.
-/
import proofs.«168570_j33079838113814_1_alg».proof.Proof.KernelPrelude
import Idealize.ShloMosaic.Lib.Pipeline.Value
import Idealize.ShloMosaic.Lib.ValueIdx
import Idealize.ShloMosaic.Lib.ValueLayout

noncomputable section

namespace Cert.KernelArrays

open Cert.KernelIdeal Cert.KernelIdeal.Gen Idealize.ShloMosaic Idealize.ShloMosaic.TcCoe Idealize.ShloMosaic.ValueIdx Idealize.SL.Sem Idealize.ShloMosaic.StableHlo
open Cert.KernelPrelude

variable (m : (ℓ : Loc nD τ sig) → Buf (Elt Ideal) ℓ)

/-- The contents the region finds are the ten stretches run one after the other from the launch contents. -/
theorem found_eq (c : Dev nD) :
    V0 m c = StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 ((fun b => m (c, b)))))))))))) := by
  show StableHlo.after (List.flatten [hostOps0, hostOps0_1, hostOps0_2, hostOps0_3, hostOps0_4, hostOps0_5, hostOps0_6, hostOps0_7, hostOps0_8, hostOps0_9]) (fun b => m (c, b)) = _
  simp only [List.flatten_cons, List.flatten_nil, List.append_nil, Cert.LibStretch.after_append]

/-- The seven arrays the host line builds for the launch, as functions of the arguments. -/
theorem launch_arrays (c : Dev nD) :
    V0 m c (Proc.devRef .tc main_v29) = shapeCast S16384x32x128 (Cert.ReferenceIdeal.ReadP.val_main_v28 (F := Ideal) (m ((c : Thread nD τ).loc main_arg0)) (m ((c : Thread nD τ).loc main_arg1))) shapeCasts_S4x4096x32x128_S16384x32x128
    ∧ V0 m c (Proc.devRef .tc main_v30) = shapeCast S16384x32x3 (Cert.ReferenceIdeal.ReadP.val_main_v25 (F := Ideal) (m ((c : Thread nD τ).loc main_arg0))) shapeCasts_S4x4096x32x3_S16384x32x3
    ∧ V0 m c (Proc.devRef .tc main_v31) = shapeCast S16384x128 (m ((c : Thread nD τ).loc main_arg1)) shapeCasts_S4x4096x128_S16384x128
    ∧ V0 m c (Proc.devRef .tc main_v34) = truncf (F := Ideal) .bf16 (transpose S3x128 [1, 0] (extractStridedSlice S128x3 ![0, 0] (m ((c : Thread nD τ).loc main_arg2)) slices_S128x131_S128x3_0_0) transposes_S128x3_S3x128_1_0) bitsLt_bf16_f32
    ∧ V0 m c (Proc.devRef .tc main_v37) = truncf (F := Ideal) .bf16 (transpose S128x128 [1, 0] (extractStridedSlice S128x128 ![0, 3] (m ((c : Thread nD τ).loc main_arg2)) slices_S128x131_S128x128_0_3) transposes_S128x128_S128x128_1_0) bitsLt_bf16_f32
    ∧ V0 m c (Proc.devRef .tc main_v39) = truncf (F := Ideal) .bf16 (transpose S128x512 [1, 0] (m ((c : Thread nD τ).loc main_arg7)) transposes_S512x128_S128x512_1_0) bitsLt_bf16_f32
    ∧ V0 m c (Proc.devRef .tc main_v41) = truncf (F := Ideal) .bf16 (transpose S512x128 [1, 0] (m ((c : Thread nD τ).loc main_arg12)) transposes_S128x512_S512x128_1_0) bitsLt_bf16_f32 := by
  rw [found_eq]
  have A0 : ArgsAt (fun b => m (c, b)) (m ((c : Thread nD τ).loc main_arg0)) (m ((c : Thread nD τ).loc main_arg1)) (m ((c : Thread nD τ).loc main_arg2)) (m ((c : Thread nD τ).loc main_arg7)) (m ((c : Thread nD τ).loc main_arg12)) := ⟨rfl, rfl, rfl, rfl, rfl⟩
  have r0 := vals0 _ (m ((c : Thread nD τ).loc main_arg0)) (m ((c : Thread nD τ).loc main_arg1)) (m ((c : Thread nD τ).loc main_arg2)) (m ((c : Thread nD τ).loc main_arg7)) (m ((c : Thread nD τ).loc main_arg12)) A0
  have A1 := keeps0 _ (m ((c : Thread nD τ).loc main_arg0)) (m ((c : Thread nD τ).loc main_arg1)) (m ((c : Thread nD τ).loc main_arg2)) (m ((c : Thread nD τ).loc main_arg7)) (m ((c : Thread nD τ).loc main_arg12)) A0
  have r1 := vals1 _ (m ((c : Thread nD τ).loc main_arg0)) (m ((c : Thread nD τ).loc main_arg1)) (m ((c : Thread nD τ).loc main_arg2)) (m ((c : Thread nD τ).loc main_arg7)) (m ((c : Thread nD τ).loc main_arg12)) r0.2.1 r0.2.2 r0.1
  have A2 := keeps1 _ (m ((c : Thread nD τ).loc main_arg0)) (m ((c : Thread nD τ).loc main_arg1)) (m ((c : Thread nD τ).loc main_arg2)) (m ((c : Thread nD τ).loc main_arg7)) (m ((c : Thread nD τ).loc main_arg12)) A1
  have r2 := vals2 _ (m ((c : Thread nD τ).loc main_arg0)) (m ((c : Thread nD τ).loc main_arg1)) (m ((c : Thread nD τ).loc main_arg2)) (m ((c : Thread nD τ).loc main_arg7)) (m ((c : Thread nD τ).loc main_arg12)) r1
  have A3 := keeps2 _ (m ((c : Thread nD τ).loc main_arg0)) (m ((c : Thread nD τ).loc main_arg1)) (m ((c : Thread nD τ).loc main_arg2)) (m ((c : Thread nD τ).loc main_arg7)) (m ((c : Thread nD τ).loc main_arg12)) A2
  have r3 := vals3 _ (m ((c : Thread nD τ).loc main_arg0)) (m ((c : Thread nD τ).loc main_arg1)) (m ((c : Thread nD τ).loc main_arg2)) (m ((c : Thread nD τ).loc main_arg7)) (m ((c : Thread nD τ).loc main_arg12)) r2
  have A4 := keeps3 _ (m ((c : Thread nD τ).loc main_arg0)) (m ((c : Thread nD τ).loc main_arg1)) (m ((c : Thread nD τ).loc main_arg2)) (m ((c : Thread nD τ).loc main_arg7)) (m ((c : Thread nD τ).loc main_arg12)) A3
  have r4 := vals4 _ (m ((c : Thread nD τ).loc main_arg0)) (m ((c : Thread nD τ).loc main_arg1)) (m ((c : Thread nD τ).loc main_arg2)) (m ((c : Thread nD τ).loc main_arg7)) (m ((c : Thread nD τ).loc main_arg12)) r3.2.2 r3.2.1 r3.1
  have A5 := keeps4 _ (m ((c : Thread nD τ).loc main_arg0)) (m ((c : Thread nD τ).loc main_arg1)) (m ((c : Thread nD τ).loc main_arg2)) (m ((c : Thread nD τ).loc main_arg7)) (m ((c : Thread nD τ).loc main_arg12)) A4
  have r5 := vals5 _ (m ((c : Thread nD τ).loc main_arg0)) (m ((c : Thread nD τ).loc main_arg1)) (m ((c : Thread nD τ).loc main_arg2)) (m ((c : Thread nD τ).loc main_arg7)) (m ((c : Thread nD τ).loc main_arg12)) r4
  have A6 := keeps5 _ (m ((c : Thread nD τ).loc main_arg0)) (m ((c : Thread nD τ).loc main_arg1)) (m ((c : Thread nD τ).loc main_arg2)) (m ((c : Thread nD τ).loc main_arg7)) (m ((c : Thread nD τ).loc main_arg12)) A5
  have r6 := vals6 _ (m ((c : Thread nD τ).loc main_arg0)) (m ((c : Thread nD τ).loc main_arg1)) (m ((c : Thread nD τ).loc main_arg2)) (m ((c : Thread nD τ).loc main_arg7)) (m ((c : Thread nD τ).loc main_arg12)) A6 r5.1 r5.2
  have A7 := keeps6 _ (m ((c : Thread nD τ).loc main_arg0)) (m ((c : Thread nD τ).loc main_arg1)) (m ((c : Thread nD τ).loc main_arg2)) (m ((c : Thread nD τ).loc main_arg7)) (m ((c : Thread nD τ).loc main_arg12)) A6
  have r7 := vals7 _ (m ((c : Thread nD τ).loc main_arg0)) (m ((c : Thread nD τ).loc main_arg1)) (m ((c : Thread nD τ).loc main_arg2)) (m ((c : Thread nD τ).loc main_arg7)) (m ((c : Thread nD τ).loc main_arg12)) A7 r6.1 r6.2
  have A8 := keeps7 _ (m ((c : Thread nD τ).loc main_arg0)) (m ((c : Thread nD τ).loc main_arg1)) (m ((c : Thread nD τ).loc main_arg2)) (m ((c : Thread nD τ).loc main_arg7)) (m ((c : Thread nD τ).loc main_arg12)) A7
  have r8 := vals8 _ (m ((c : Thread nD τ).loc main_arg0)) (m ((c : Thread nD τ).loc main_arg1)) (m ((c : Thread nD τ).loc main_arg2)) (m ((c : Thread nD τ).loc main_arg7)) (m ((c : Thread nD τ).loc main_arg12)) A8 r7.2 r7.1
  have A9 := keeps8 _ (m ((c : Thread nD τ).loc main_arg0)) (m ((c : Thread nD τ).loc main_arg1)) (m ((c : Thread nD τ).loc main_arg2)) (m ((c : Thread nD τ).loc main_arg7)) (m ((c : Thread nD τ).loc main_arg12)) A8
  exact vals9 _ (m ((c : Thread nD τ).loc main_arg0)) (m ((c : Thread nD τ).loc main_arg1)) (m ((c : Thread nD τ).loc main_arg2)) (m ((c : Thread nD τ).loc main_arg7)) (m ((c : Thread nD τ).loc main_arg12)) A9 r8.1 r8.2

/-! ## The host's layout operations at an index (over any arrays) -/

/-- A [4, 4096, 32, 128] array flattened to [16384, 32, 128]: row `r` is point `(r / 4096, r % 4096)`. -/
theorem flat_feat (X : S4x4096x32x128.Idx → EReal) (r : Fin 16384) (s : Fin 32) (k : Fin 128) :
    shapeCast S16384x32x128 X shapeCasts_S4x4096x32x128_S16384x32x128 (ix3 r s k)
      = X (ix4 (⟨r.val / 4096, by have := r.isLt; omega⟩ : Fin 4) (⟨r.val % 4096, by omega⟩ : Fin 4096) s k) := by
  refine shapeCast_apply X _ _ _ ?_
  rw [Shape.rowMajor_val_four, Shape.rowMajor_val_three]
  have hr := r.isLt
  show ((r.val / 4096 * 4096 + r.val % 4096) * 32 + s.val) * 128 + k.val = (r.val * 32 + s.val) * 128 + k.val
  omega

/-- A [4, 4096, 32, 3] array flattened to [16384, 32, 3]. -/
theorem flat_pos (X : S4x4096x32x3.Idx → EReal) (r : Fin 16384) (s : Fin 32) (k : Fin 3) :
    shapeCast S16384x32x3 X shapeCasts_S4x4096x32x3_S16384x32x3 (ix3 r s k)
      = X (ix4 (⟨r.val / 4096, by have := r.isLt; omega⟩ : Fin 4) (⟨r.val % 4096, by omega⟩ : Fin 4096) s k) := by
  refine shapeCast_apply X _ _ _ ?_
  rw [Shape.rowMajor_val_four, Shape.rowMajor_val_three]
  have hr := r.isLt
  show ((r.val / 4096 * 4096 + r.val % 4096) * 32 + s.val) * 3 + k.val = (r.val * 32 + s.val) * 3 + k.val
  omega

/-- A [4, 4096, 128] array flattened to [16384, 128]. -/
theorem flat_own (X : S4x4096x128.Idx → EReal) (r : Fin 16384) (q : Fin 128) :
    shapeCast S16384x128 X shapeCasts_S4x4096x128_S16384x128 (ix2 r q)
      = X (ix3 (⟨r.val / 4096, by have := r.isLt; omega⟩ : Fin 4) (⟨r.val % 4096, by omega⟩ : Fin 4096) q) := by
  refine shapeCast_apply X _ _ _ ?_
  rw [Shape.rowMajor_val_three, Shape.rowMajor_val_two]
  have hr := r.isLt
  show (r.val / 4096 * 4096 + r.val % 4096) * 128 + q.val = r.val * 128 + q.val
  omega

/-- The [16384, 128] result un-flattened to [4, 4096, 128]: point `(b, n)` is row `4096·b + n`. -/
theorem unflat_out (Y : S16384x128.Idx → EReal) (b : Fin 4) (n : Fin 4096) (q : Fin 128) :
    shapeCast S4x4096x128 Y shapeCasts_S16384x128_S4x4096x128 (ix3 b n q)
      = Y (ix2 (⟨b.val * 4096 + n.val, by have := b.isLt; have := n.isLt; omega⟩ : Fin 16384) q) := by
  refine shapeCast_apply Y _ _ _ ?_
  rw [Shape.rowMajor_val_three, Shape.rowMajor_val_two]
  show (b.val * 4096 + n.val) * 128 + q.val = (b.val * 4096 + n.val) * 128 + q.val
  rfl

/-- The position columns of the first weight matrix, sliced off and transposed: entry `(k, o)` is `Wn[o, k]`. -/
theorem pos_weights (X : S128x131.Idx → EReal) (k : Fin 3) (o : Fin 128) :
    truncf (F := Ideal) .bf16 (transpose S3x128 [1, 0] (extractStridedSlice S128x3 ![0, 0] X slices_S128x131_S128x3_0_0) transposes_S128x3_S3x128_1_0) bitsLt_bf16_f32 (ix2 k o)
      = X (ix2 o (⟨k.val, by have := k.isLt; omega⟩ : Fin 131)) := by
  rw [truncf_apply, transpose_ix2_apply]
  refine extractStridedSlice_apply _ X _ _ _ fun a => ?_
  match a with
  | ⟨0, _⟩ => show o.val = 0 + o.val; omega
  | ⟨1, _⟩ => show k.val = 0 + k.val; omega

/-- The feature columns of the first weight matrix (columns 3 … 130), sliced off and transposed: entry `(k, o)` is `Wn[o, 3 + k]`. -/
theorem feat_weights (X : S128x131.Idx → EReal) (k : Fin 128) (o : Fin 128) :
    truncf (F := Ideal) .bf16 (transpose S128x128 [1, 0] (extractStridedSlice S128x128 ![0, 3] X slices_S128x131_S128x128_0_3) transposes_S128x128_S128x128_1_0) bitsLt_bf16_f32 (ix2 k o)
      = X (ix2 o (⟨3 + k.val, by have := k.isLt; omega⟩ : Fin 131)) := by
  rw [truncf_apply, transpose_ix2_apply]
  refine extractStridedSlice_apply _ X _ _ _ fun a => ?_
  match a with
  | ⟨0, _⟩ => show o.val = 0 + o.val; omega
  | ⟨1, _⟩ => show 3 + k.val = 3 + k.val; rfl

/-- The first bottleneck matrix transposed: entry `(k, h)` is `W1[h, k]`. -/
theorem hidden_weights (X : S512x128.Idx → EReal) (k : Fin 128) (h : Fin 512) :
    truncf (F := Ideal) .bf16 (transpose S128x512 [1, 0] X transposes_S512x128_S128x512_1_0) bitsLt_bf16_f32 (ix2 k h) = X (ix2 h k) := by
  rw [truncf_apply, transpose_ix2_apply]

/-- The second bottleneck matrix transposed: entry `(k, q)` is `W2[q, k]`. -/
theorem out_weights (X : S128x512.Idx → EReal) (k : Fin 512) (q : Fin 128) :
    truncf (F := Ideal) .bf16 (transpose S512x128 [1, 0] X transposes_S128x512_S512x128_1_0) bitsLt_bf16_f32 (ix2 k q) = X (ix2 q k) := by
  rw [truncf_apply, transpose_ix2_apply]

end Cert.KernelArrays

end
-- ==== Proof.KernelRowData.lean ====
/-
  A row of the kernel's output, over the launch arrays as the host builds them.

  With the three gathered arrays flattened from [4, 4096, …] to 16384 rows and the weight matrices sliced and
  transposed, row `r` of the output is the point-wise block of point `(r / 4096, r % 4096)`, read off the un-flattened
  arrays and the weight matrices themselves.
-/
import proofs.«168570_j33079838113814_1_alg».proof.Proof.KernelRows
import proofs.«168570_j33079838113814_1_alg».proof.Proof.KernelArrays

noncomputable section

namespace Cert.KernelRowData

open Cert.KernelIdeal Cert.KernelIdeal.Gen Idealize.ShloMosaic Idealize.ShloMosaic.ValueIdx
open Cert.KernelArrays

/-- A row of the output at a channel. -/
theorem rowsOut_apply (A0 : S16384x32x128.Idx → EReal) (A1 : S16384x32x3.Idx → EReal) (A2 : S16384x128.Idx → EReal)
    (A3 : S3x128.Idx → EReal) (A4 : S128x128.Idx → EReal) (A5 A6 A7 A8 : S128.Idx → EReal)
    (A9 : S128x512.Idx → EReal) (A10 A11 A12 A13 : S512.Idx → EReal) (A14 : S512x128.Idx → EReal)
    (A15 A16 A17 A18 : S128.Idx → EReal) (r : Fin 16384) (q : Fin 128) :
    Cert.KernelRows.rowsOut A0 A1 A2 A3 A4 A5 A6 A7 A8 A9 A10 A11 A12 A13 A14 A15 A16 A17 A18 (ix2 r q)
      = Cert.PointBlock.point (fun s k => A0 (ix3 r s k)) (fun s k => A1 (ix3 r s k)) (fun q' => A2 (ix2 r q'))
          (fun o k => A3 (ix2 k o)) (fun o k => A4 (ix2 k o))
          (fun o => A5 (ix1 o)) (fun o => A6 (ix1 o)) (fun o => A7 (ix1 o)) (fun o => A8 (ix1 o))
          (fun h k => A9 (ix2 k h)) (fun h => A10 (ix1 h)) (fun h => A11 (ix1 h)) (fun h => A12 (ix1 h)) (fun h => A13 (ix1 h))
          (fun q' k => A14 (ix2 k q')) (fun q' => A15 (ix1 q')) (fun q' => A16 (ix1 q')) (fun q' => A17 (ix1 q')) (fun q' => A18 (ix1 q')) q := rfl

/-- The output rows over the launch arrays written as the host builds them from ANY argument arrays: the point-wise
    block of point `(r / 4096, r % 4096)`'s data. -/
theorem rows_apply (X28 : S4x4096x32x128.Idx → EReal) (X25 : S4x4096x32x3.Idx → EReal) (X1 : S4x4096x128.Idx → EReal)
    (X2 : S128x131.Idx → EReal) (g3 g4 g5 g6 : S128.Idx → EReal) (X7 : S512x128.Idx → EReal) (g8 g9 g10 g11 : S512.Idx → EReal)
    (X12 : S128x512.Idx → EReal) (g13 g14 g15 g16 : S128.Idx → EReal) (r : Fin 16384) (q : Fin 128) :
    Cert.KernelRows.rowsOut
        (shapeCast S16384x32x128 X28 shapeCasts_S4x4096x32x128_S16384x32x128)
        (shapeCast S16384x32x3 X25 shapeCasts_S4x4096x32x3_S16384x32x3)
        (shapeCast S16384x128 X1 shapeCasts_S4x4096x128_S16384x128)
        (truncf (F := Ideal) .bf16 (transpose S3x128 [1, 0] (extractStridedSlice S128x3 ![0, 0] X2 slices_S128x131_S128x3_0_0) transposes_S128x3_S3x128_1_0) bitsLt_bf16_f32)
        (truncf (F := Ideal) .bf16 (transpose S128x128 [1, 0] (extractStridedSlice S128x128 ![0, 3] X2 slices_S128x131_S128x128_0_3) transposes_S128x128_S128x128_1_0) bitsLt_bf16_f32)
        g3 g4 g5 g6
        (truncf (F := Ideal) .bf16 (transpose S128x512 [1, 0] X7 transposes_S512x128_S128x512_1_0) bitsLt_bf16_f32)
        g8 g9 g10 g11
        (truncf (F := Ideal) .bf16 (transpose S512x128 [1, 0] X12 transposes_S128x512_S512x128_1_0) bitsLt_bf16_f32)
        g13 g14 g15 g16 (ix2 r q)
      = Cert.PointBlock.point
          (fun s k => X28 (ix4 (⟨r.val / 4096, by have := r.isLt; omega⟩ : Fin 4) (⟨r.val % 4096, by omega⟩ : Fin 4096) s k)) (fun s k => X25 (ix4 (⟨r.val / 4096, by have := r.isLt; omega⟩ : Fin 4) (⟨r.val % 4096, by omega⟩ : Fin 4096) s k)) (fun q' => X1 (ix3 (⟨r.val / 4096, by have := r.isLt; omega⟩ : Fin 4) (⟨r.val % 4096, by omega⟩ : Fin 4096) q'))
          (fun o k => X2 (ix2 o (⟨k.val, by have := k.isLt; omega⟩ : Fin 131))) (fun o k => X2 (ix2 o (⟨3 + k.val, by have := k.isLt; omega⟩ : Fin 131)))
          (fun o => g3 (ix1 o)) (fun o => g4 (ix1 o)) (fun o => g5 (ix1 o)) (fun o => g6 (ix1 o))
          (fun h k => X7 (ix2 h k)) (fun h => g8 (ix1 h)) (fun h => g9 (ix1 h)) (fun h => g10 (ix1 h)) (fun h => g11 (ix1 h))
          (fun q' k => X12 (ix2 q' k)) (fun q' => g13 (ix1 q')) (fun q' => g14 (ix1 q')) (fun q' => g15 (ix1 q')) (fun q' => g16 (ix1 q')) q := by
  have w3 : (fun (o : Fin 128) (k : Fin 3) => truncf (F := Ideal) .bf16 (transpose S3x128 [1, 0] (extractStridedSlice S128x3 ![0, 0] X2 slices_S128x131_S128x3_0_0) transposes_S128x3_S3x128_1_0) bitsLt_bf16_f32 (ix2 k o))
      = fun o k => X2 (ix2 o (⟨k.val, by have := k.isLt; omega⟩ : Fin 131)) := funext fun o => funext fun k => pos_weights X2 k o
  have w4 : (fun (o : Fin 128) (k : Fin 128) => truncf (F := Ideal) .bf16 (transpose S128x128 [1, 0] (extractStridedSlice S128x128 ![0, 3] X2 slices_S128x131_S128x128_0_3) transposes_S128x128_S128x128_1_0) bitsLt_bf16_f32 (ix2 k o))
      = fun o k => X2 (ix2 o (⟨3 + k.val, by have := k.isLt; omega⟩ : Fin 131)) := funext fun o => funext fun k => feat_weights X2 k o
  have w9 : (fun (h : Fin 512) (k : Fin 128) => truncf (F := Ideal) .bf16 (transpose S128x512 [1, 0] X7 transposes_S512x128_S128x512_1_0) bitsLt_bf16_f32 (ix2 k h))
      = fun h k => X7 (ix2 h k) := funext fun h => funext fun k => hidden_weights X7 k h
  have w14 : (fun (q' : Fin 128) (k : Fin 512) => truncf (F := Ideal) .bf16 (transpose S512x128 [1, 0] X12 transposes_S128x512_S512x128_1_0) bitsLt_bf16_f32 (ix2 k q'))
      = fun q' k => X12 (ix2 q' k) := funext fun q' => funext fun k => out_weights X12 k q'
  rw [rowsOut_apply]
  simp only [flat_feat, flat_pos, flat_own]
  rw [w3, w4, w9, w14]

end Cert.KernelRowData

end
-- ==== Proof.ReferencePoint.lean ====
/-
  The reference computation of the point-cloud block, read at one output element.

  The reference first gathers, for every point (b, n), the relative positions and the features of its 32 neighbours
  (arrays of shape [4, 4096, 32, 3] and [4, 4096, 32, 128]); these two gathered arrays enter only as given
  functions of the index.  It then joins them along the channel axis (3 position channels first, then 128 feature channels),
  contracts the 131 joined channels with a 128 × 131 matrix, normalises each output channel with per-channel constants
  (subtract the mean, multiply by weight · (variance + ε)^(-1/2), add the shift), clamps at zero, and takes the maximum
  over the 32 neighbours starting from -∞.  Two further contractions (128 → 512, normalised and clamped; 512 → 128,
  normalised) follow, the point's own features are added, and the sum is clamped at zero.

  This file shows that output element (b, n, c) of that computation is `PointBlock.point` applied to the data of
  point (b, n):

  * the joined array at channel k < 3 is the position array at k, and at channel 3 + k it is the feature array at k, so
    the contraction over 131 channels splits into the feature part plus the position part (`sum_joined`);
  * a per-channel constant, reshaped to a row and stretched over all points and neighbours, is read back at its channel;
  * the maximum over the neighbour axis is a fold of `max` over the 32 neighbour positions, which is order-free because
    `max` is commutative and associative;
  * the remaining steps are elementwise, so at exact arithmetic on the extended reals they are literally the formulas
    `bnorm`, `relu`, `hidden` and `residual`.
-/
import proofs.«168570_j33079838113814_1_alg».proof.Proof.PointBlock
import proofs.«168570_j33079838113814_1_alg».proof.Proof.ReadP

noncomputable section

namespace Cert.ReferencePoint

open Cert.ReferenceIdeal Cert.ReferenceIdeal.Gen Cert.ReferenceIdeal.ReadP Idealize.ShloMosaic Idealize.ShloMosaic.ValueIdx Cert.PointBlock

variable (x0 : (⟨S4x4096x3, .f32⟩ : BufTy).Contents (Elt Ideal)) (x1 : (⟨S4x4096x128, .f32⟩ : BufTy).Contents (Elt Ideal))
  (x2 : (⟨S128x131, .f32⟩ : BufTy).Contents (Elt Ideal)) (x3 x4 x5 x6 : (⟨S128, .f32⟩ : BufTy).Contents (Elt Ideal))
  (x7 : (⟨S512x128, .f32⟩ : BufTy).Contents (Elt Ideal)) (x8 x9 x10 x11 : (⟨S512, .f32⟩ : BufTy).Contents (Elt Ideal))
  (x12 : (⟨S128x512, .f32⟩ : BufTy).Contents (Elt Ideal)) (x13 x14 x15 x16 : (⟨S128, .f32⟩ : BufTy).Contents (Elt Ideal))

/-! ## The joined channels -/

/-- Joined channel `k < 3` of neighbour `s` is position channel `k`. -/
theorem joined_pos (b : Fin 4) (n : Fin 4096) (s : Fin 32) (k : Fin 3) :
    val_main_v29 (F := Ideal) x0 x1 (ix4 b n s (⟨k.val, by omega⟩ : Fin 131))
      = val_main_v25 (F := Ideal) x0 (ix4 b n s k) := by
  unfold val_main_v29
  exact concatenate_pair_apply_left _ _ _ concatenates_S4x4096x32x3_S4x4096x32x128_S4x4096x32x131_d3
    (ix4 b n s (⟨k.val, by omega⟩ : Fin 131)) rfl (ix4 b n s k)
    (fun c => by match c with | ⟨0, _⟩ => rfl | ⟨1, _⟩ => rfl | ⟨2, _⟩ => rfl | ⟨3, _⟩ => rfl)

/-- Joined channel `3 + k` of neighbour `s` is feature channel `k`. -/
theorem joined_feat (b : Fin 4) (n : Fin 4096) (s : Fin 32) (k : Fin 128) :
    val_main_v29 (F := Ideal) x0 x1 (ix4 b n s (⟨3 + k.val, by omega⟩ : Fin 131))
      = val_main_v28 (F := Ideal) x0 x1 (ix4 b n s k) := by
  unfold val_main_v29
  exact concatenate_pair_apply_right _ _ _ concatenates_S4x4096x32x3_S4x4096x32x128_S4x4096x32x131_d3
    (ix4 b n s (⟨3 + k.val, by omega⟩ : Fin 131)) rfl rfl (ix4 b n s k)
    (fun c hc => by match c with | ⟨0, _⟩ => rfl | ⟨1, _⟩ => rfl | ⟨2, _⟩ => rfl | ⟨3, _⟩ => exact absurd rfl hc)
    (by show k.val + 3 = 3 + k.val; omega)

/-- The contraction over the 131 joined channels, at neighbour `s` and output channel `o`, is the feature part plus the
    position part. -/
theorem lin1_apply (b : Fin 4) (n : Fin 4096) (s : Fin 32) (o : Fin 128) :
    val_main_v30 (F := Ideal) x0 x1 x2 (ix4 b n s o)
      = nbrLinear (fun s k => val_main_v28 (F := Ideal) x0 x1 (ix4 b n s k))
          (fun s k => val_main_v25 (F := Ideal) x0 (ix4 b n s k))
          (fun o k => x2 (ix2 o (⟨k.val, by omega⟩ : Fin 131))) (fun o k => x2 (ix2 o (⟨3 + k.val, by omega⟩ : Fin 131))) s o := by
  rw [val_main_v30_apply]
  have e : (fun k : Fin 131 => val_main_v29 (F := Ideal) x0 x1 (lidx_main_v30 (ix4 b n s o) k) * x2 (ridx_main_v30 (ix4 b n s o) k))
      = fun k : Fin 131 => val_main_v29 (F := Ideal) x0 x1 (ix4 b n s k) * x2 (ix2 o k) := by
    funext k
    rw [show lidx_main_v30 (ix4 b n s o) k = ix4 b n s k from funext fun a => Fin.ext (by
          match a with | ⟨0, _⟩ => rfl | ⟨1, _⟩ => rfl | ⟨2, _⟩ => rfl | ⟨3, _⟩ => rfl),
        show ridx_main_v30 (ix4 b n s o) k = ix2 o k from funext fun a => Fin.ext (by
          match a with | ⟨0, _⟩ => rfl | ⟨1, _⟩ => rfl)]
  refine (congrArg (fun f : Fin 131 → EReal => ∑ k, f k) e).trans ?_
  refine (sum_joined _).trans ?_
  unfold nbrLinear
  refine congrArg₂ (· + ·) (Finset.sum_congr rfl fun k _ => ?_) (Finset.sum_congr rfl fun k _ => ?_)
  · exact congrArg (· * x2 (ix2 o (⟨3 + k.val, by omega⟩ : Fin 131))) (joined_feat x0 x1 b n s k)
  · exact congrArg (· * x2 (ix2 o (⟨k.val, by omega⟩ : Fin 131))) (joined_pos x0 x1 b n s k)

/-! ## The first normalisation, at a neighbour -/

/-- A vector of 128 per-channel constants, laid out as [1, 1, 1, 128] and stretched over [4, 4096, 32, 128], is read at
    (b, n, s, o) from entry `o`. -/
theorem chan4_idx (b : Fin 4) (n : Fin 4096) (s : Fin 32) (o : Fin 128) :
    idx_main_v31 (idx_main_v41 (ix4 b n s o)) = ix1 o :=
  funext fun a => Fin.ext (by
    match a with
    | ⟨0, _⟩ => show ((0 * 1 + 0) * 1 + 0) * 128 + o.val = o.val; omega)

theorem mean1_apply (b : Fin 4) (n : Fin 4096) (s : Fin 32) (o : Fin 128) :
    val_main_v35 (F := Ideal) x5 (ix4 b n s o) = x5 (ix1 o) := by
  rw [val_main_v35_apply, val_main_v33_apply]
  exact congrArg x5 (chan4_idx b n s o)

theorem shift1_apply (b : Fin 4) (n : Fin 4096) (s : Fin 32) (o : Fin 128) :
    val_main_v43 (F := Ideal) x4 (ix4 b n s o) = x4 (ix1 o) := by
  rw [val_main_v43_apply, val_main_v32_apply]
  exact congrArg x4 (chan4_idx b n s o)

theorem scale1_apply (b : Fin 4) (n : Fin 4096) (s : Fin 32) (o : Fin 128) :
    val_main_v41 (F := Ideal) x3 x6 (ix4 b n s o)
      = x3 (ix1 o) * Ideal.rsqrt (x6 (ix1 o) + Ideal.ofBits .f32 0x3727C5AC#32) := by
  rw [val_main_v41_apply, val_main_v40_apply, val_main_v31_apply, val_main_v39_apply, val_main_v38_apply,
    val_main_v34_apply, val_main_v37_apply, val_main_cst_3_apply]
  exact congrArg₂ (fun u v : EReal => u * Ideal.rsqrt (v + Ideal.ofBits .f32 0x3727C5AC#32))
    (congrArg x3 (chan4_idx b n s o)) (congrArg x6 (chan4_idx b n s o))

theorem zero1_apply (i : S4x4096x32x128.Idx) :
    val_main_call5_v0 (F := Ideal) i = Ideal.ofBits .f32 0x00000000#32 :=
  (val_main_call5_v0_apply (F := Ideal) i).trans (val_main_call5_cst_apply (F := Ideal) _)

/-- One neighbour's normalised and clamped channel. -/
theorem nbr_apply (b : Fin 4) (n : Fin 4096) (s : Fin 32) (o : Fin 128) :
    val_main_v45 (F := Ideal) x0 x1 x2 x3 x4 x5 x6 (ix4 b n s o)
      = relu (bnorm
          (nbrLinear (fun s k => val_main_v28 (F := Ideal) x0 x1 (ix4 b n s k))
            (fun s k => val_main_v25 (F := Ideal) x0 (ix4 b n s k))
            (fun o k => x2 (ix2 o (⟨k.val, by omega⟩ : Fin 131))) (fun o k => x2 (ix2 o (⟨3 + k.val, by omega⟩ : Fin 131))) s o)
          (x3 (ix1 o)) (x4 (ix1 o)) (x5 (ix1 o)) (x6 (ix1 o))) := by
  rw [val_main_v45_apply, val_main_v44_apply, val_main_v42_apply, val_main_v36_apply, lin1_apply, mean1_apply,
    scale1_apply, shift1_apply, zero1_apply]
  rfl

/-! ## The maximum over the neighbours -/

theorem reduces_d2 : S4x4096x32x128.Reduces [2] S4x4096x128 := by decide

/-- The point-and-channel index (b, n, o) with neighbour `s` put back on the reduced axis is (b, n, s, o). -/
theorem lift_d2 (b : Fin 4) (n : Fin 4096) (o : Fin 128) (s : Fin (S4x4096x32x128.size 2)) :
    reduces_d2.lift (ix3 b n o) s = ix4 b n (⟨s.val, s.isLt⟩ : Fin 32) o := by
  funext c; apply Fin.ext
  fin_cases c <;> rfl

/-- The pooled channel `o` of point (b, n). -/
theorem pooled_apply (b : Fin 4) (n : Fin 4096) (o : Fin 128) :
    val_main_v46 (F := Ideal) x0 x1 x2 x3 x4 x5 x6 (ix3 b n o)
      = pooled (fun s k => val_main_v28 (F := Ideal) x0 x1 (ix4 b n s k))
          (fun s k => val_main_v25 (F := Ideal) x0 (ix4 b n s k))
          (fun o k => x2 (ix2 o (⟨k.val, by omega⟩ : Fin 131))) (fun o k => x2 (ix2 o (⟨3 + k.val, by omega⟩ : Fin 131)))
          (fun o => x3 (ix1 o)) (fun o => x4 (ix1 o)) (fun o => x5 (ix1 o)) (fun o => x6 (ix1 o)) o := by
  unfold val_main_v46
  refine (Host.reduce_eq_fold_single (FloatOps.maximumf (F := Ideal) (φ := .f32))
    (val_main_v45 (F := Ideal) x0 x1 x2 x3 x4 x5 x6) (val_main_cst_4 (F := Ideal))
    reducesTo_S4x4096x32x128_S4x4096x128_d2 reduces_d2 h_S_ (ix3 b n o)).trans ?_
  have hf : (val_main_v45 (F := Ideal) x0 x1 x2 x3 x4 x5 x6 ∘ reduces_d2.lift (ix3 b n o))
      = fun s : Fin 32 => relu (bnorm
          (nbrLinear (fun s k => val_main_v28 (F := Ideal) x0 x1 (ix4 b n s k))
            (fun s k => val_main_v25 (F := Ideal) x0 (ix4 b n s k))
            (fun o k => x2 (ix2 o (⟨k.val, by omega⟩ : Fin 131))) (fun o k => x2 (ix2 o (⟨3 + k.val, by omega⟩ : Fin 131))) s o)
          (x3 (ix1 o)) (x4 (ix1 o)) (x5 (ix1 o)) (x6 (ix1 o))) :=
    funext fun s => (congrArg (val_main_v45 (F := Ideal) x0 x1 x2 x3 x4 x5 x6) (lift_d2 b n o s)).trans
      (nbr_apply x0 x1 x2 x3 x4 x5 x6 b n ⟨s.val, s.isLt⟩ o)
  exact congrArg (fun f => Finset.fold max (Ideal.ofBits .f32 0xFF800000#32) f (Finset.univ : Finset (Fin 32))) hf

/-! ## The first bottleneck layer -/

theorem chan3_512_idx (b : Fin 4) (n : Fin 4096) (h : Fin 512) :
    idx_main_v48 (idx_main_v58 (ix3 b n h)) = ix1 h :=
  funext fun a => Fin.ext (by
    match a with
    | ⟨0, _⟩ => show (0 * 1 + 0) * 512 + h.val = h.val; omega)

theorem mean2_apply (b : Fin 4) (n : Fin 4096) (h : Fin 512) :
    val_main_v52 (F := Ideal) x10 (ix3 b n h) = x10 (ix1 h) := by
  rw [val_main_v52_apply, val_main_v50_apply]
  exact congrArg x10 (chan3_512_idx b n h)

theorem shift2_apply (b : Fin 4) (n : Fin 4096) (h : Fin 512) :
    val_main_v60 (F := Ideal) x9 (ix3 b n h) = x9 (ix1 h) := by
  rw [val_main_v60_apply, val_main_v49_apply]
  exact congrArg x9 (chan3_512_idx b n h)

theorem scale2_apply (b : Fin 4) (n : Fin 4096) (h : Fin 512) :
    val_main_v58 (F := Ideal) x8 x11 (ix3 b n h)
      = x8 (ix1 h) * Ideal.rsqrt (x11 (ix1 h) + Ideal.ofBits .f32 0x3727C5AC#32) := by
  rw [val_main_v58_apply, val_main_v57_apply, val_main_v48_apply, val_main_v56_apply, val_main_v55_apply,
    val_main_v51_apply, val_main_v54_apply, val_main_cst_5_apply]
  exact congrArg₂ (fun u v : EReal => u * Ideal.rsqrt (v + Ideal.ofBits .f32 0x3727C5AC#32))
    (congrArg x8 (chan3_512_idx b n h)) (congrArg x11 (chan3_512_idx b n h))

theorem zero2_apply (i : S4x4096x512.Idx) :
    val_main_call6_v0 (F := Ideal) i = Ideal.ofBits .f32 0x00000000#32 :=
  (val_main_call6_v0_apply (F := Ideal) i).trans (val_main_call6_cst_apply (F := Ideal) _)

theorem lin2_apply (b : Fin 4) (n : Fin 4096) (h : Fin 512) :
    val_main_v47 (F := Ideal) x0 x1 x2 x3 x4 x5 x6 x7 (ix3 b n h)
      = ∑ k : Fin 128, val_main_v46 (F := Ideal) x0 x1 x2 x3 x4 x5 x6 (ix3 b n k) * x7 (ix2 h k) := by
  rw [val_main_v47_apply]
  refine Finset.sum_congr rfl fun k _ => ?_
  rw [show lidx_main_v47 (ix3 b n h) k = ix3 b n k from funext fun a => Fin.ext (by
        match a with | ⟨0, _⟩ => rfl | ⟨1, _⟩ => rfl | ⟨2, _⟩ => rfl),
      show ridx_main_v47 (ix3 b n h) k = ix2 h k from funext fun a => Fin.ext (by
        match a with | ⟨0, _⟩ => rfl | ⟨1, _⟩ => rfl)]

/-- Hidden channel `h` of point (b, n), from the pooled channels. -/
theorem hidden_apply (b : Fin 4) (n : Fin 4096) (h : Fin 512) :
    val_main_v62 (F := Ideal) x0 x1 x2 x3 x4 x5 x6 x7 x8 x9 x10 x11 (ix3 b n h)
      = hidden (fun k => val_main_v46 (F := Ideal) x0 x1 x2 x3 x4 x5 x6 (ix3 b n k)) (fun h k => x7 (ix2 h k))
          (fun h => x8 (ix1 h)) (fun h => x9 (ix1 h)) (fun h => x10 (ix1 h)) (fun h => x11 (ix1 h)) h := by
  rw [val_main_v62_apply, val_main_v61_apply, val_main_v59_apply, val_main_v53_apply, lin2_apply, mean2_apply,
    scale2_apply, shift2_apply, zero2_apply]
  rfl

/-! ## The second bottleneck layer and the residual -/

theorem chan3_128_idx (b : Fin 4) (n : Fin 4096) (c : Fin 128) :
    idx_main_v64 (idx_main_v74 (ix3 b n c)) = ix1 c :=
  funext fun a => Fin.ext (by
    match a with
    | ⟨0, _⟩ => show (0 * 1 + 0) * 128 + c.val = c.val; omega)

theorem mean3_apply (b : Fin 4) (n : Fin 4096) (c : Fin 128) :
    val_main_v68 (F := Ideal) x15 (ix3 b n c) = x15 (ix1 c) := by
  rw [val_main_v68_apply, val_main_v66_apply]
  exact congrArg x15 (chan3_128_idx b n c)

theorem shift3_apply (b : Fin 4) (n : Fin 4096) (c : Fin 128) :
    val_main_v76 (F := Ideal) x14 (ix3 b n c) = x14 (ix1 c) := by
  rw [val_main_v76_apply, val_main_v65_apply]
  exact congrArg x14 (chan3_128_idx b n c)

theorem scale3_apply (b : Fin 4) (n : Fin 4096) (c : Fin 128) :
    val_main_v74 (F := Ideal) x13 x16 (ix3 b n c)
      = x13 (ix1 c) * Ideal.rsqrt (x16 (ix1 c) + Ideal.ofBits .f32 0x3727C5AC#32) := by
  rw [val_main_v74_apply, val_main_v73_apply, val_main_v64_apply, val_main_v72_apply, val_main_v71_apply,
    val_main_v67_apply, val_main_v70_apply, val_main_cst_6_apply]
  exact congrArg₂ (fun u v : EReal => u * Ideal.rsqrt (v + Ideal.ofBits .f32 0x3727C5AC#32))
    (congrArg x13 (chan3_128_idx b n c)) (congrArg x16 (chan3_128_idx b n c))

theorem zero3_apply (i : S4x4096x128.Idx) :
    val_main_call7_v0 (F := Ideal) i = Ideal.ofBits .f32 0x00000000#32 :=
  (val_main_call7_v0_apply (F := Ideal) i).trans (val_main_call7_cst_apply (F := Ideal) _)

theorem lin3_apply (b : Fin 4) (n : Fin 4096) (c : Fin 128) :
    val_main_v63 (F := Ideal) x0 x1 x2 x3 x4 x5 x6 x7 x8 x9 x10 x11 x12 (ix3 b n c)
      = ∑ k : Fin 512, val_main_v62 (F := Ideal) x0 x1 x2 x3 x4 x5 x6 x7 x8 x9 x10 x11 (ix3 b n k) * x12 (ix2 c k) := by
  rw [val_main_v63_apply]
  refine Finset.sum_congr rfl fun k _ => ?_
  rw [show lidx_main_v63 (ix3 b n c) k = ix3 b n k from funext fun a => Fin.ext (by
        match a with | ⟨0, _⟩ => rfl | ⟨1, _⟩ => rfl | ⟨2, _⟩ => rfl),
      show ridx_main_v63 (ix3 b n c) k = ix2 c k from funext fun a => Fin.ext (by
        match a with | ⟨0, _⟩ => rfl | ⟨1, _⟩ => rfl)]

/-- Output element (b, n, c) of the reference is the block at point (b, n), channel `c`. -/
theorem result_apply (x0 : (⟨S4x4096x3, .f32⟩ : BufTy).Contents (Elt Ideal)) (x1 : (⟨S4x4096x128, .f32⟩ : BufTy).Contents (Elt Ideal))
    (x2 : (⟨S128x131, .f32⟩ : BufTy).Contents (Elt Ideal)) (x3 x4 x5 x6 : (⟨S128, .f32⟩ : BufTy).Contents (Elt Ideal))
    (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (b : Fin 4) (n : Fin 4096) (c : Fin 128) :
    Cert.ReferenceIdeal.ReadP.val_main_v79 (F := Ideal) x0 x1 x2 x3 x4 x5 x6 x7 x8 x9 x10 x11 x12 x13 x14 x15 x16 (ValueIdx.ix3 b n c)
      = Cert.PointBlock.point
          (fun s k => Cert.ReferenceIdeal.ReadP.val_main_v28 (F := Ideal) x0 x1 (ValueIdx.ix4 b n s k))
          (fun s k => Cert.ReferenceIdeal.ReadP.val_main_v25 (F := Ideal) x0 (ValueIdx.ix4 b n s k))
          (fun q => x1 (ValueIdx.ix3 b n q))
          (fun o k => x2 (ValueIdx.ix2 o ⟨k.val, by omega⟩)) (fun o k => x2 (ValueIdx.ix2 o ⟨3 + k.val, by omega⟩))
          (fun o => x3 (ValueIdx.ix1 o)) (fun o => x4 (ValueIdx.ix1 o)) (fun o => x5 (ValueIdx.ix1 o)) (fun o => x6 (ValueIdx.ix1 o))
          (fun h k => x7 (ValueIdx.ix2 h k)) (fun h => x8 (ValueIdx.ix1 h)) (fun h => x9 (ValueIdx.ix1 h)) (fun h => x10 (ValueIdx.ix1 h)) (fun h => x11 (ValueIdx.ix1 h))
          (fun q k => x12 (ValueIdx.ix2 q k)) (fun q => x13 (ValueIdx.ix1 q)) (fun q => x14 (ValueIdx.ix1 q)) (fun q => x15 (ValueIdx.ix1 q)) (fun q => x16 (ValueIdx.ix1 q)) c := by
  rw [val_main_v79_apply, val_main_v78_apply, val_main_v77_apply, val_main_v75_apply, val_main_v69_apply, lin3_apply,
    mean3_apply, scale3_apply, shift3_apply, zero3_apply]
  simp only [hidden_apply, pooled_apply]
  rfl

end Cert.ReferencePoint

end
-- ==== Proof.KernelValue.lean ====
/-
  The kernel's run, with its result named.

  After the launch the output array holds, at row `r` and channel `q`, the point-wise block of row `r`'s data; reading
  the launch arrays as functions of the arguments (row `r` is point `(r / 4096, r % 4096)`, the weights are the argument
  matrices transposed back) this is exactly what the reference's staged host program gives at point `(r / 4096, r % 4096)`,
  channel `q`. The host's last operation un-flattens the 16384 rows to [4, 4096, 128], so the kernel's result is the
  reference's staged result of the kernel's own arguments.
-/
import proofs.«168570_j33079838113814_1_alg».proof.Proof.KernelFlush
import proofs.«168570_j33079838113814_1_alg».proof.Proof.KernelArrays
import proofs.«168570_j33079838113814_1_alg».proof.Proof.KernelRowData
import proofs.«168570_j33079838113814_1_alg».proof.Proof.ReferencePoint

noncomputable section

namespace Cert.KernelValue

open Cert.KernelIdeal Cert.KernelIdeal.Gen Idealize.ShloMosaic Idealize.ShloMosaic.TcCoe Idealize.ShloMosaic.ValueIdx Idealize.SL.Sem Idealize.ShloMosaic.StableHlo
open Cert.KernelArrays

variable (m : (ℓ : Loc nD τ sig) → Buf (Elt Ideal) ℓ) (ρ : Dev nD → PrngReg)

/-- What both programs compute: the reference's staged host program at the kernel's arguments. -/
def expected (c : Dev nD) : (⟨S4x4096x128, .f32⟩ : BufTy).Contents (Elt Ideal) :=
  Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

set_option maxHeartbeats 4000000 in
/-- The launch arrays, window by window. -/
theorem arrays_eq (c : Dev nD) :
    Cert.KernelRows.rowsOut (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 15)) (V m c (Pipeline.arrRef spec0 16)) (V m c (Pipeline.arrRef spec0 17)) (V m c (Pipeline.arrRef spec0 18))
      = Cert.KernelRows.rowsOut
        (shapeCast S16384x32x128 (Cert.ReferenceIdeal.ReadP.val_main_v28 (F := Ideal) (m ((c : Thread nD τ).loc main_arg0)) (m ((c : Thread nD τ).loc main_arg1))) shapeCasts_S4x4096x32x128_S16384x32x128)
        (shapeCast S16384x32x3 (Cert.ReferenceIdeal.ReadP.val_main_v25 (F := Ideal) (m ((c : Thread nD τ).loc main_arg0))) shapeCasts_S4x4096x32x3_S16384x32x3)
        (shapeCast S16384x128 (m ((c : Thread nD τ).loc main_arg1)) shapeCasts_S4x4096x128_S16384x128)
        (truncf (F := Ideal) .bf16 (transpose S3x128 [1, 0] (extractStridedSlice S128x3 ![0, 0] (m ((c : Thread nD τ).loc main_arg2)) slices_S128x131_S128x3_0_0) transposes_S128x3_S3x128_1_0) bitsLt_bf16_f32)
        (truncf (F := Ideal) .bf16 (transpose S128x128 [1, 0] (extractStridedSlice S128x128 ![0, 3] (m ((c : Thread nD τ).loc main_arg2)) slices_S128x131_S128x128_0_3) transposes_S128x128_S128x128_1_0) bitsLt_bf16_f32)
        (m ((c : Thread nD τ).loc main_arg3)) (m ((c : Thread nD τ).loc main_arg4)) (m ((c : Thread nD τ).loc main_arg5)) (m ((c : Thread nD τ).loc main_arg6))
        (truncf (F := Ideal) .bf16 (transpose S128x512 [1, 0] (m ((c : Thread nD τ).loc main_arg7)) transposes_S512x128_S128x512_1_0) bitsLt_bf16_f32)
        (m ((c : Thread nD τ).loc main_arg8)) (m ((c : Thread nD τ).loc main_arg9)) (m ((c : Thread nD τ).loc main_arg10)) (m ((c : Thread nD τ).loc main_arg11))
        (truncf (F := Ideal) .bf16 (transpose S512x128 [1, 0] (m ((c : Thread nD τ).loc main_arg12)) transposes_S128x512_S512x128_1_0) bitsLt_bf16_f32)
        (m ((c : Thread nD τ).loc main_arg13)) (m ((c : Thread nD τ).loc main_arg14)) (m ((c : Thread nD τ).loc main_arg15)) (m ((c : Thread nD τ).loc main_arg16)) := by
  obtain ⟨e0, e1, e2, e3, e4, e9, e14⟩ := launch_arrays m c
  have a0 : (V m c (Pipeline.arrRef spec0 0)) = _ := e0
  have a1 : (V m c (Pipeline.arrRef spec0 1)) = _ := e1
  have a2 : (V m c (Pipeline.arrRef spec0 2)) = _ := e2
  have a3 : (V m c (Pipeline.arrRef spec0 3)) = _ := e3
  have a4 : (V m c (Pipeline.arrRef spec0 4)) = _ := e4
  have a9 : (V m c (Pipeline.arrRef spec0 9)) = _ := e9
  have a14 : (V m c (Pipeline.arrRef spec0 14)) = _ := e14
  have a5 : (V m c (Pipeline.arrRef spec0 5)) = _ := V_main_arg3 m c
  have a6 : (V m c (Pipeline.arrRef spec0 6)) = _ := V_main_arg4 m c
  have a7 : (V m c (Pipeline.arrRef spec0 7)) = _ := V_main_arg5 m c
  have a8 : (V m c (Pipeline.arrRef spec0 8)) = _ := V_main_arg6 m c
  have a10 : (V m c (Pipeline.arrRef spec0 10)) = _ := V_main_arg8 m c
  have a11 : (V m c (Pipeline.arrRef spec0 11)) = _ := V_main_arg9 m c
  have a12 : (V m c (Pipeline.arrRef spec0 12)) = _ := V_main_arg10 m c
  have a13 : (V m c (Pipeline.arrRef spec0 13)) = _ := V_main_arg11 m c
  have a15 : (V m c (Pipeline.arrRef spec0 15)) = _ := V_main_arg13 m c
  have a16 : (V m c (Pipeline.arrRef spec0 16)) = _ := V_main_arg14 m c
  have a17 : (V m c (Pipeline.arrRef spec0 17)) = _ := V_main_arg15 m c
  have a18 : (V m c (Pipeline.arrRef spec0 18)) = _ := V_main_arg16 m c
  rw [a0, a1, a2, a3, a4, a5, a6, a7, a8, a9, a10, a11, a12, a13, a14, a15, a16, a17, a18]

set_option maxHeartbeats 4000000 in
/-- THE OUTPUT ARRAY after the launch, row by row: the reference's staged result at the row's point. -/
theorem rows_eq (c : Dev nD) (r : Fin 16384) (q : Fin 128) :
    (dats m 0 c).arrAt 19 cfg0.N (ix2 r q) = expected m c (ix3 (⟨r.val / 4096, by have := r.isLt; omega⟩ : Fin 4) (⟨r.val % 4096, by omega⟩ : Fin 4096) q) := by
  rw [Cert.KernelFlush.final m c, arrays_eq m c, Cert.KernelRowData.rows_apply]
  unfold expected
  rw [Cert.ReferencePoint.result_apply]

set_option maxHeartbeats 4000000 in
/-- The host's last operation un-flattens the output: the program's result is `expected`. -/
theorem tail_eq (c : Dev nD) :
    Pipeline.afterTail₀ cfgs (dats m) 0 (V0 m) [hostOps1] c main_v43 = expected m c := by
  unfold Pipeline.afterTail₀
  show StableHlo.after hostOps1 _ (Proc.devRef .tc main_v43) = _
  simp only [hostOps1]
  after_results
  rw [Pipeline.withArrays_arr spec0 launch0.win.arr_inj c _ _ 19]
  funext i
  obtain ⟨b, n, q, rfl⟩ : ∃ (b : Fin 4) (n : Fin 4096) (q : Fin 128), i = ix3 b n q := ⟨i 0, i 1, i 2, eq_ix3 i⟩
  show shapeCast S4x4096x128 ((dats m 0 c).arrAt 19 cfg0.N : S16384x128.Idx → EReal) shapeCasts_S16384x128_S4x4096x128 (ix3 b n q) = _
  refine (unflat_out _ b n q).trans ?_
  refine (rows_eq m c _ q).trans ?_
  have hb := b.isLt
  have hn := n.isLt
  congr 1
  funext a
  match a with
  | ⟨0, _⟩ => exact Fin.ext (show (b.val * 4096 + n.val) / 4096 = b.val by omega)
  | ⟨1, _⟩ => exact Fin.ext (show (b.val * 4096 + n.val) % 4096 = n.val by omega)
  | ⟨2, _⟩ => rfl

set_option maxHeartbeats 4000000 in
/-- The frame run re-posted: the result at `expected`, the arguments unchanged. -/
theorem run : θ_run defs (onTc (τ := τ) (main (F := Ideal))) ⟨m, fun _ => 0, ρ⟩ fun r => ∀ c : Dev nD,
      r.2.mem ((c.tc : Thread nD τ).loc main_v43) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨((h c).2 main_v43 (Pipeline.mem_restRefs_of main_v43 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c))),
      ((h c).1 8).trans (((dats m 0 c).arrAt_in 8 rfl _).trans ((A_eq m c 8).trans (V_main_arg6 m c))),
      (((h c).2 main_arg7 (Pipeline.mem_restRefs_of main_arg7 (by decide) (by decide))).trans (W_main_arg7 m (dats m) c)),
      ((h c).1 10).trans (((dats m 0 c).arrAt_in 10 rfl _).trans ((A_eq m c 10).trans (V_main_arg8 m c))),
      ((h c).1 11).trans (((dats m 0 c).arrAt_in 11 rfl _).trans ((A_eq m c 11).trans (V_main_arg9 m c))),
      ((h c).1 12).trans (((dats m 0 c).arrAt_in 12 rfl _).trans ((A_eq m c 12).trans (V_main_arg10 m c))),
      ((h c).1 13).trans (((dats m 0 c).arrAt_in 13 rfl _).trans ((A_eq m c 13).trans (V_main_arg11 m c))),
      (((h c).2 main_arg12 (Pipeline.mem_restRefs_of main_arg12 (by decide) (by decide))).trans (W_main_arg12 m (dats m) c)),
      ((h c).1 15).trans (((dats m 0 c).arrAt_in 15 rfl _).trans ((A_eq m c 15).trans (V_main_arg13 m c))),
      ((h c).1 16).trans (((dats m 0 c).arrAt_in 16 rfl _).trans ((A_eq m c 16).trans (V_main_arg14 m c))),
      ((h c).1 17).trans (((dats m 0 c).arrAt_in 17 rfl _).trans ((A_eq m c 17).trans (V_main_arg15 m c))),
      ((h c).1 18).trans (((dats m 0 c).arrAt_in 18 rfl _).trans ((A_eq m c 18).trans (V_main_arg16 m c)))⟩)
    (run_main m ρ)

end Cert.KernelValue

end
-- ==== Proof.ReferencePrelude.lean ====
/-
  The neighbour construction on the reference's side, read back.

  The reference's host program starts with the same 79 operations as the kernel's host line: each point's 32 neighbours
  (squared distances against the squared radius, a sort of the in-ball indices, the sentinel replaced by the row's first
  neighbour), the neighbours' positions gathered, made relative to the point and divided by the radius, and the
  neighbours' features gathered. They are read back stretch by stretch — the list is cut where the called functions
  begin and end — each stretch from ANY buffer contents `W` that hold the stretch's inputs, and what a stretch leaves for
  later stretches is stated as the staged functions of the arguments (`ReadP.val_…`), so the construction itself is never
  opened: after the 79 operations the scaled relative positions are `val_main_v25` of the positions, the gathered
  features `val_main_v28` of the positions and the features, and every argument is as launched.

  Values pass in and out of a called function's buffers through transports along equalities of buffer types that are
  identities at literal buffers; they are removed (`cast_eq`) before two sides are compared.
-/
import proofs.«168570_j33079838113814_1_alg».proof.Proof.RunP
import proofs.«168570_j33079838113814_1_alg».proof.Proof.ReadP
import proofs.«168570_j33079838113814_1_alg».proof.Proof.LibStretch
import Idealize.ShloMosaic.Lib.StableHlo.Run

noncomputable section

namespace Cert.ReferencePrelude

open Cert.ReferenceIdeal Cert.ReferenceIdeal.Gen Idealize.ShloMosaic Idealize.ShloMosaic.TcCoe Idealize.SL.Sem Idealize.ShloMosaic.StableHlo
open Cert.ReferenceIdeal.ValueP (ops)

/-! ## The first 79 operations, cut into ten stretches -/

section Stretches
variable {F : FTy → Type} [FloatOps F]

/-- Operations 1–14: pairwise squared distances against the squared radius, the index row, the sentinel constant. -/
abbrev s0 : List (HloOp τ sig (Elt F)) :=
  [ unary main_arg0 main_v0 (broadcastInDim S4x4096x1x3 ![0, 1, 3] bcast_S4x4096x3_S4x4096x1x3_0_1_3 : (⟨S4x4096x3, .f32⟩ : BufTy).Contents (Elt F) → (⟨S4x4096x1x3, .f32⟩ : BufTy).Contents (Elt F)),
    unary main_arg0 main_v1 (broadcastInDim S4x1x4096x3 ![0, 2, 3] bcast_S4x4096x3_S4x1x4096x3_0_2_3 : (⟨S4x4096x3, .f32⟩ : BufTy).Contents (Elt F) → (⟨S4x1x4096x3, .f32⟩ : BufTy).Contents (Elt F)),
    unary main_v0 main_v2 (broadcastInDim S4x4096x4096x3 ![0, 1, 2, 3] bcast_S4x4096x1x3_S4x4096x4096x3_0_1_2_3 : (⟨S4x4096x1x3, .f32⟩ : BufTy).Contents (Elt F) → (⟨S4x4096x4096x3, .f32⟩ : BufTy).Contents (Elt F)),
    unary main_v1 main_v3 (broadcastInDim S4x4096x4096x3 ![0, 1, 2, 3] bcast_S4x1x4096x3_S4x4096x4096x3_0_1_2_3 : (⟨S4x1x4096x3, .f32⟩ : BufTy).Contents (Elt F) → (⟨S4x4096x4096x3, .f32⟩ : BufTy).Contents (Elt F)),
    binary main_v2 main_v3 main_v4 (subf : (⟨S4x4096x4096x3, .f32⟩ : BufTy).Contents (Elt F) → (⟨S4x4096x4096x3, .f32⟩ : BufTy).Contents (Elt F) → (⟨S4x4096x4096x3, .f32⟩ : BufTy).Contents (Elt F)),
    binary main_v4 main_v4 main_v5 (mulf : (⟨S4x4096x4096x3, .f32⟩ : BufTy).Contents (Elt F) → (⟨S4x4096x4096x3, .f32⟩ : BufTy).Contents (Elt F) → (⟨S4x4096x4096x3, .f32⟩ : BufTy).Contents (Elt F)),
    nullary main_cst (constant S_ .f32 0x00000000#32),
    binary main_v5 main_cst main_v6 ((fun x v => Host.reduceAdd x v reducesTo_S4x4096x4096x3_S4x4096x4096_d3 h_S_) : (⟨S4x4096x4096x3, .f32⟩ : BufTy).Contents (Elt F) → (⟨S_, .f32⟩ : BufTy).Contents (Elt F) → (⟨S4x4096x4096, .f32⟩ : BufTy).Contents (Elt F)),
    nullary main_v7 (iotaInDim S4096 32 0),
    unary main_v7 main_v8 (broadcastInDim S4x4096x4096 ![2] bcast_S4096_S4x4096x4096_2 : (⟨S4096, .i32⟩ : BufTy).Contents (Elt F) → (⟨S4x4096x4096, .i32⟩ : BufTy).Contents (Elt F)),
    nullary main_cst_0 (constant S_ .f32 0x3C23D70A#32),
    unary main_cst_0 main_v9 (broadcastInDim S4x4096x4096 ![] bcast_S_S4x4096x4096 : (⟨S_, .f32⟩ : BufTy).Contents (Elt F) → (⟨S4x4096x4096, .f32⟩ : BufTy).Contents (Elt F)),
    binary main_v6 main_v9 main_v10 (cmpf .ogt : (⟨S4x4096x4096, .f32⟩ : BufTy).Contents (Elt F) → (⟨S4x4096x4096, .f32⟩ : BufTy).Contents (Elt F) → (⟨S4x4096x4096, .i1⟩ : BufTy).Contents (Elt F)),
    nullary main_c (constantI S_ 32 4096#32) ]

/-- Operations 15–17: out-of-ball entries replaced by the sentinel. -/
abbrev s1 : List (HloOp τ sig (Elt F)) :=
  [ TRef.unary (TRef.of (T := ⟨S_, .i32⟩) main_c) (TRef.of (T := ⟨S_, .i32⟩) main_call0_v0) id,
    TRef.unary (TRef.of (T := ⟨S_, .i32⟩) main_call0_v0) (TRef.of (T := ⟨S4x4096x4096, .i32⟩) main_call0_v1) (broadcastInDim S4x4096x4096 ![] bcast_S_S4x4096x4096),
    TRef.ternary (TRef.of (T := ⟨S4x4096x4096, .i1⟩) main_v10) (TRef.of (T := ⟨S4x4096x4096, .i32⟩) main_call0_v1) (TRef.of (T := ⟨S4x4096x4096, .i32⟩) main_v8) (TRef.of (T := ⟨S4x4096x4096, .i32⟩) main_v11) select ]

/-- Operation 18: each row sorted. -/
abbrev s2 : List (HloOp τ sig (Elt F)) :=
  [ TRef.unary (TRef.of (T := ⟨S4x4096x4096, .i32⟩) main_v11) (TRef.of (T := ⟨S4x4096x4096, .i32⟩) main_v12) (fun x => Host.sort S4x4096x4096 2 comparator_i32_d2 x) ]

/-- Operations 19–23: the first 32 of each row, the first of them, and where the sentinel sits. -/
abbrev s3 : List (HloOp τ sig (Elt F)) :=
  [ unary main_v12 main_v13 ((extractStridedSlice S4x4096x32 ![0, 0, 0] · slices_S4x4096x4096_S4x4096x32_0_0_0) : (⟨S4x4096x4096, .i32⟩ : BufTy).Contents (Elt F) → (⟨S4x4096x32, .i32⟩ : BufTy).Contents (Elt F)),
    unary main_v13 main_v14 ((extractStridedSlice S4x4096x1 ![0, 0, 0] · slices_S4x4096x32_S4x4096x1_0_0_0) : (⟨S4x4096x32, .i32⟩ : BufTy).Contents (Elt F) → (⟨S4x4096x1, .i32⟩ : BufTy).Contents (Elt F)),
    nullary main_c_1 (constantI S_ 32 4096#32),
    unary main_c_1 main_v15 (broadcastInDim S4x4096x32 ![] bcast_S_S4x4096x32 : (⟨S_, .i32⟩ : BufTy).Contents (Elt F) → (⟨S4x4096x32, .i32⟩ : BufTy).Contents (Elt F)),
    binary main_v13 main_v15 main_v16 (cmpi .eq : (⟨S4x4096x32, .i32⟩ : BufTy).Contents (Elt F) → (⟨S4x4096x32, .i32⟩ : BufTy).Contents (Elt F) → (⟨S4x4096x32, .i1⟩ : BufTy).Contents (Elt F)) ]

/-- Operations 24–25: sentinels replaced by the row's first neighbour: the neighbour table. -/
abbrev s4 : List (HloOp τ sig (Elt F)) :=
  [ TRef.unary (TRef.of (T := ⟨S4x4096x1, .i32⟩) main_v14) (TRef.of (T := ⟨S4x4096x32, .i32⟩) main_call2_v0) (broadcastInDim S4x4096x32 ![0, 1, 2] bcast_S4x4096x1_S4x4096x32_0_1_2),
    TRef.ternary (TRef.of (T := ⟨S4x4096x32, .i1⟩) main_v16) (TRef.of (T := ⟨S4x4096x32, .i32⟩) main_call2_v0) (TRef.of (T := ⟨S4x4096x32, .i32⟩) main_v13) (TRef.of (T := ⟨S4x4096x32, .i32⟩) main_v17) select ]

/-- Operation 26: the table flattened. -/
abbrev s5 : List (HloOp τ sig (Elt F)) :=
  [ reshape main_v17 main_v18 rfl shapeCasts_S4x4096x32_S4x131072x1 ]

/-- Operations 27–48: the neighbours' positions gathered. -/
abbrev s6 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S4x131072x1, .i32⟩) main_call3_v0) (broadcastInDim S4x131072x1 ![] bcast_S_S4x131072x1),
    TRef.binary (TRef.of (T := ⟨S4x131072x1, .i32⟩) main_v18) (TRef.of (T := ⟨S4x131072x1, .i32⟩) main_call3_v0) (TRef.of (T := ⟨S4x131072x1, .i1⟩) main_call3_v1) (cmpi .slt),
    TRef.nullary (TRef.of (T := ⟨S_, .i32⟩) main_call3_c_0) (constantI S_ 32 4096#32),
    TRef.unary (TRef.of (T := ⟨S_, .i32⟩) main_call3_c_0) (TRef.of (T := ⟨S4x131072x1, .i32⟩) main_call3_v2) (broadcastInDim S4x131072x1 ![] bcast_S_S4x131072x1),
    TRef.binary (TRef.of (T := ⟨S4x131072x1, .i32⟩) main_v18) (TRef.of (T := ⟨S4x131072x1, .i32⟩) main_call3_v2) (TRef.of (T := ⟨S4x131072x1, .i32⟩) main_call3_v3) addi,
    TRef.ternary (TRef.of (T := ⟨S4x131072x1, .i1⟩) main_call3_v1) (TRef.of (T := ⟨S4x131072x1, .i32⟩) main_call3_v3) (TRef.of (T := ⟨S4x131072x1, .i32⟩) main_v18) (TRef.of (T := ⟨S4x131072x1, .i32⟩) main_call3_v4) select,
    TRef.nullary (TRef.of (T := ⟨S1, .i32⟩) main_call3_c_1) (constantI S1 32 4095#32),
    TRef.nullary (TRef.of (T := ⟨S_, .i32⟩) main_call3_c_2) (constantI S_ 32 0#32),
    TRef.unary (TRef.of (T := ⟨S_, .i32⟩) main_call3_c_2) (TRef.of (T := ⟨S4x131072x1, .i32⟩) main_call3_v5) (broadcastInDim S4x131072x1 ![] bcast_S_S4x131072x1),
    TRef.binary (TRef.of (T := ⟨S4x131072x1, .i32⟩) main_call3_v4) (TRef.of (T := ⟨S4x131072x1, .i32⟩) main_call3_v5) (TRef.of (T := ⟨S4x131072x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S4x131072x1, .i32⟩) main_call3_v8) (broadcastInDim S4x131072x1 ![0, 1, 2] bcast_S1x1x1_S4x131072x1_0_1_2),
    TRef.binary (TRef.of (T := ⟨S4x131072x1, .i32⟩) main_call3_v4) (TRef.of (T := ⟨S4x131072x1, .i32⟩) main_call3_v8) (TRef.of (T := ⟨S4x131072x1, .i1⟩) main_call3_v9) (cmpi .sle),
    TRef.binary (TRef.of (T := ⟨S4x131072x1, .i1⟩) main_call3_v6) (TRef.of (T := ⟨S4x131072x1, .i1⟩) main_call3_v9) (TRef.of (T := ⟨S4x131072x1, .i1⟩) main_call3_v10) andi,
    TRef.nullary (TRef.of (T := ⟨S_, .i1⟩) main_call3_c_3) (constantI S_ 1 1#1),
    TRef.binary (TRef.of (T := ⟨S4x131072x1, .i1⟩) main_call3_v10) (TRef.of (T := ⟨S_, .i1⟩) main_call3_c_3) (TRef.of (T := ⟨S4x131072, .i1⟩) main_call3_v11) (fun x v => Host.reduce IntOp.andi x v reducesTo_S4x131072x1_S4x131072_d2 h_S_),
    TRef.binary (TRef.of (T := ⟨S4x4096x3, .f32⟩) main_arg0) (TRef.of (T := ⟨S4x131072x1, .i32⟩) main_call3_v4) (TRef.of (T := ⟨S4x131072x3, .f32⟩) main_call3_v12) (fun x i => Host.gather gather_S4x4096x3_S4x131072x1_S4x131072x3_2_1_0_0_1_2_113 x i),
    TRef.unary (TRef.of (T := ⟨S4x131072, .i1⟩) main_call3_v11) (TRef.of (T := ⟨S4x131072x3, .i1⟩) main_call3_v13) (broadcastInDim S4x131072x3 ![0, 1] bcast_S4x131072_S4x131072x3_0_1),
    TRef.nullary (TRef.of (T := ⟨S_, .f32⟩) main_call3_cst) (constant S_ .f32 0x7FC00000#32),
    TRef.unary (TRef.of (T := ⟨S_, .f32⟩) main_call3_cst) (TRef.of (T := ⟨S4x131072x3, .f32⟩) main_call3_v14) (broadcastInDim S4x131072x3 ![] bcast_S_S4x131072x3),
    TRef.ternary (TRef.of (T := ⟨S4x131072x3, .i1⟩) main_call3_v13) (TRef.of (T := ⟨S4x131072x3, .f32⟩) main_call3_v12) (TRef.of (T := ⟨S4x131072x3, .f32⟩) main_call3_v14) (TRef.of (T := ⟨S4x131072x3, .f32⟩) main_v19) select ]

/-- Operations 49–56: positions relative to the point, over the radius; the table flattened again. -/
abbrev s7 : List (HloOp τ sig (Elt F)) :=
  [ reshape main_v19 main_v20 rfl shapeCasts_S4x131072x3_S4x4096x32x3,
    unary main_arg0 main_v21 (broadcastInDim S4x4096x1x3 ![0, 1, 3] bcast_S4x4096x3_S4x4096x1x3_0_1_3 : (⟨S4x4096x3, .f32⟩ : BufTy).Contents (Elt F) → (⟨S4x4096x1x3, .f32⟩ : BufTy).Contents (Elt F)),
    unary main_v21 main_v22 (broadcastInDim S4x4096x32x3 ![0, 1, 2, 3] bcast_S4x4096x1x3_S4x4096x32x3_0_1_2_3 : (⟨S4x4096x1x3, .f32⟩ : BufTy).Contents (Elt F) → (⟨S4x4096x32x3, .f32⟩ : BufTy).Contents (Elt F)),
    binary main_v20 main_v22 main_v23 (subf : (⟨S4x4096x32x3, .f32⟩ : BufTy).Contents (Elt F) → (⟨S4x4096x32x3, .f32⟩ : BufTy).Contents (Elt F) → (⟨S4x4096x32x3, .f32⟩ : BufTy).Contents (Elt F)),
    nullary main_cst_2 (constant S_ .f32 0x3DCCCCCD#32),
    unary main_cst_2 main_v24 (broadcastInDim S4x4096x32x3 ![] bcast_S_S4x4096x32x3 : (⟨S_, .f32⟩ : BufTy).Contents (Elt F) → (⟨S4x4096x32x3, .f32⟩ : BufTy).Contents (Elt F)),
    binary main_v23 main_v24 main_v25 (Host.divf : (⟨S4x4096x32x3, .f32⟩ : BufTy).Contents (Elt F) → (⟨S4x4096x32x3, .f32⟩ : BufTy).Contents (Elt F) → (⟨S4x4096x32x3, .f32⟩ : BufTy).Contents (Elt F)),
    reshape main_v17 main_v26 rfl shapeCasts_S4x4096x32_S4x131072x1 ]

/-- Operations 57–78: the neighbours' features gathered. -/
abbrev s8 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S4x131072x1, .i32⟩) main_call4_v0) (broadcastInDim S4x131072x1 ![] bcast_S_S4x131072x1),
    TRef.binary (TRef.of (T := ⟨S4x131072x1, .i32⟩) main_v26) (TRef.of (T := ⟨S4x131072x1, .i32⟩) main_call4_v0) (TRef.of (T := ⟨S4x131072x1, .i1⟩) main_call4_v1) (cmpi .slt),
    TRef.nullary (TRef.of (T := ⟨S_, .i32⟩) main_call4_c_0) (constantI S_ 32 4096#32),
    TRef.unary (TRef.of (T := ⟨S_, .i32⟩) main_call4_c_0) (TRef.of (T := ⟨S4x131072x1, .i32⟩) main_call4_v2) (broadcastInDim S4x131072x1 ![] bcast_S_S4x131072x1),
    TRef.binary (TRef.of (T := ⟨S4x131072x1, .i32⟩) main_v26) (TRef.of (T := ⟨S4x131072x1, .i32⟩) main_call4_v2) (TRef.of (T := ⟨S4x131072x1, .i32⟩) main_call4_v3) addi,
    TRef.ternary (TRef.of (T := ⟨S4x131072x1, .i1⟩) main_call4_v1) (TRef.of (T := ⟨S4x131072x1, .i32⟩) main_call4_v3) (TRef.of (T := ⟨S4x131072x1, .i32⟩) main_v26) (TRef.of (T := ⟨S4x131072x1, .i32⟩) main_call4_v4) select,
    TRef.nullary (TRef.of (T := ⟨S1, .i32⟩) main_call4_c_1) (constantI S1 32 4095#32),
    TRef.nullary (TRef.of (T := ⟨S_, .i32⟩) main_call4_c_2) (constantI S_ 32 0#32),
    TRef.unary (TRef.of (T := ⟨S_, .i32⟩) main_call4_c_2) (TRef.of (T := ⟨S4x131072x1, .i32⟩) main_call4_v5) (broadcastInDim S4x131072x1 ![] bcast_S_S4x131072x1),
    TRef.binary (TRef.of (T := ⟨S4x131072x1, .i32⟩) main_call4_v4) (TRef.of (T := ⟨S4x131072x1, .i32⟩) main_call4_v5) (TRef.of (T := ⟨S4x131072x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S4x131072x1, .i32⟩) main_call4_v8) (broadcastInDim S4x131072x1 ![0, 1, 2] bcast_S1x1x1_S4x131072x1_0_1_2),
    TRef.binary (TRef.of (T := ⟨S4x131072x1, .i32⟩) main_call4_v4) (TRef.of (T := ⟨S4x131072x1, .i32⟩) main_call4_v8) (TRef.of (T := ⟨S4x131072x1, .i1⟩) main_call4_v9) (cmpi .sle),
    TRef.binary (TRef.of (T := ⟨S4x131072x1, .i1⟩) main_call4_v6) (TRef.of (T := ⟨S4x131072x1, .i1⟩) main_call4_v9) (TRef.of (T := ⟨S4x131072x1, .i1⟩) main_call4_v10) andi,
    TRef.nullary (TRef.of (T := ⟨S_, .i1⟩) main_call4_c_3) (constantI S_ 1 1#1),
    TRef.binary (TRef.of (T := ⟨S4x131072x1, .i1⟩) main_call4_v10) (TRef.of (T := ⟨S_, .i1⟩) main_call4_c_3) (TRef.of (T := ⟨S4x131072, .i1⟩) main_call4_v11) (fun x v => Host.reduce IntOp.andi x v reducesTo_S4x131072x1_S4x131072_d2 h_S_),
    TRef.binary (TRef.of (T := ⟨S4x4096x128, .f32⟩) main_arg1) (TRef.of (T := ⟨S4x131072x1, .i32⟩) main_call4_v4) (TRef.of (T := ⟨S4x131072x128, .f32⟩) main_call4_v12) (fun x i => Host.gather gather_S4x4096x128_S4x131072x1_S4x131072x128_2_1_0_0_1_2_11128 x i),
    TRef.unary (TRef.of (T := ⟨S4x131072, .i1⟩) main_call4_v11) (TRef.of (T := ⟨S4x131072x128, .i1⟩) main_call4_v13) (broadcastInDim S4x131072x128 ![0, 1] bcast_S4x131072_S4x131072x128_0_1),
    TRef.nullary (TRef.of (T := ⟨S_, .f32⟩) main_call4_cst) (constant S_ .f32 0x7FC00000#32),
    TRef.unary (TRef.of (T := ⟨S_, .f32⟩) main_call4_cst) (TRef.of (T := ⟨S4x131072x128, .f32⟩) main_call4_v14) (broadcastInDim S4x131072x128 ![] bcast_S_S4x131072x128),
    TRef.ternary (TRef.of (T := ⟨S4x131072x128, .i1⟩) main_call4_v13) (TRef.of (T := ⟨S4x131072x128, .f32⟩) main_call4_v12) (TRef.of (T := ⟨S4x131072x128, .f32⟩) main_call4_v14) (TRef.of (T := ⟨S4x131072x128, .f32⟩) main_v27) select ]

/-- Operation 79: the gathered features given their neighbour axis back. -/
abbrev s9 : List (HloOp τ sig (Elt F)) :=
  [ reshape main_v27 main_v28 rfl shapeCasts_S4x131072x128_S4x4096x32x128 ]

set_option maxRecDepth 8192 in
set_option maxHeartbeats 4000000 in
/-- The first 79 operations of the host program are the ten stretches, one after the other. -/
theorem pre_eq : (ops (F := F)).take 79 = s0 ++ s1 ++ s2 ++ s3 ++ s4 ++ s5 ++ s6 ++ s7 ++ s8 ++ s9 := rfl

end Stretches

/-! ## The arguments -/

/-- The seventeen argument arrays hold `x0 … x16`. -/
def ArgsAt (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal)) : Prop :=
  W (Proc.devRef .tc main_arg0) = x0
    ∧ W (Proc.devRef .tc main_arg1) = x1
    ∧ W (Proc.devRef .tc main_arg2) = x2
    ∧ W (Proc.devRef .tc main_arg3) = x3
    ∧ W (Proc.devRef .tc main_arg4) = x4
    ∧ W (Proc.devRef .tc main_arg5) = x5
    ∧ W (Proc.devRef .tc main_arg6) = x6
    ∧ W (Proc.devRef .tc main_arg7) = x7
    ∧ W (Proc.devRef .tc main_arg8) = x8
    ∧ W (Proc.devRef .tc main_arg9) = x9
    ∧ W (Proc.devRef .tc main_arg10) = x10
    ∧ W (Proc.devRef .tc main_arg11) = x11
    ∧ W (Proc.devRef .tc main_arg12) = x12
    ∧ W (Proc.devRef .tc main_arg13) = x13
    ∧ W (Proc.devRef .tc main_arg14) = x14
    ∧ W (Proc.devRef .tc main_arg15) = x15
    ∧ W (Proc.devRef .tc main_arg16) = x16

/-! ## Stretch 0: pairwise squared distances against the squared radius, and the index row -/

/-- No operation of the stretch writes an argument. -/
theorem keeps0 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16) : ArgsAt (StableHlo.after (s0 (F := Ideal)) W) x0 x1 x2 x3 x4 x5 x6 x7 x8 x9 x10 x11 x12 x13 x14 x15 x16 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_⟩ <;> (simp only [s0]; after_results_simp; assumption)

set_option maxHeartbeats 4000000 in
/-- What the stretch leaves for later stretches, from any contents holding its inputs. -/
theorem vals0 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16)
    :
    StableHlo.after (s0 (F := Ideal)) W (Proc.devRef .tc main_v8) = Cert.ReferenceIdeal.ReadP.val_main_v8 (F := Ideal)
      ∧ StableHlo.after (s0 (F := Ideal)) W (Proc.devRef .tc main_v10) = Cert.ReferenceIdeal.ReadP.val_main_v10 (F := Ideal) x0
      ∧ StableHlo.after (s0 (F := Ideal)) W (Proc.devRef .tc main_c) = Cert.ReferenceIdeal.ReadP.val_main_c (F := Ideal) := by
  obtain ⟨h0, h1, h2, h3, h4, h5, h6, h7, h8, h9, h10, h11, h12, h13, h14, h15, h16⟩ := h
  refine ⟨?_, ?_, ?_⟩ <;>
  (simp only [s0]; after_results_simp; (try simp only [TRef.toBuf, TRef.ofBuf, cast_eq, h0, h1, h2, h3, h4, h5, h6, h7, h8, h9, h10, h11, h12, h13, h14, h15, h16]); (try rfl))

/-! ## Stretch 1: out-of-ball entries replaced by the sentinel -/

/-- No operation of the stretch writes an argument. -/
theorem keeps1 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16) : ArgsAt (StableHlo.after (s1 (F := Ideal)) W) x0 x1 x2 x3 x4 x5 x6 x7 x8 x9 x10 x11 x12 x13 x14 x15 x16 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_⟩ <;> (simp only [s1]; after_results_simp; assumption)

set_option maxHeartbeats 4000000 in
/-- What the stretch leaves for later stretches, from any contents holding its inputs. -/
theorem vals1 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (i0 : W (Proc.devRef .tc main_v10) = Cert.ReferenceIdeal.ReadP.val_main_v10 (F := Ideal) x0)
    (i1 : W (Proc.devRef .tc main_c) = Cert.ReferenceIdeal.ReadP.val_main_c (F := Ideal))
    (i2 : W (Proc.devRef .tc main_v8) = Cert.ReferenceIdeal.ReadP.val_main_v8 (F := Ideal)) :
    StableHlo.after (s1 (F := Ideal)) W (Proc.devRef .tc main_v11) = Cert.ReferenceIdeal.ReadP.val_main_v11 (F := Ideal) x0 := by
  (simp only [s1]; after_results_simp; (try simp only [TRef.toBuf, TRef.ofBuf, cast_eq, i0, i1, i2]); (try rfl))

/-! ## Stretch 2: each row sorted -/

/-- No operation of the stretch writes an argument. -/
theorem keeps2 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16) : ArgsAt (StableHlo.after (s2 (F := Ideal)) W) x0 x1 x2 x3 x4 x5 x6 x7 x8 x9 x10 x11 x12 x13 x14 x15 x16 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_⟩ <;> (simp only [s2]; after_results_simp; assumption)

set_option maxHeartbeats 4000000 in
/-- What the stretch leaves for later stretches, from any contents holding its inputs. -/
theorem vals2 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (i0 : W (Proc.devRef .tc main_v11) = Cert.ReferenceIdeal.ReadP.val_main_v11 (F := Ideal) x0) :
    StableHlo.after (s2 (F := Ideal)) W (Proc.devRef .tc main_v12) = Cert.ReferenceIdeal.ReadP.val_main_v12 (F := Ideal) x0 := by
  (simp only [s2]; after_results_simp; (try simp only [TRef.toBuf, TRef.ofBuf, cast_eq, i0]); (try rfl))

/-! ## Stretch 3: the first 32 of each row, the first of them, and where the sentinel sits -/

/-- No operation of the stretch writes an argument. -/
theorem keeps3 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16) : ArgsAt (StableHlo.after (s3 (F := Ideal)) W) x0 x1 x2 x3 x4 x5 x6 x7 x8 x9 x10 x11 x12 x13 x14 x15 x16 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_⟩ <;> (simp only [s3]; after_results_simp; assumption)

set_option maxHeartbeats 4000000 in
/-- What the stretch leaves for later stretches, from any contents holding its inputs. -/
theorem vals3 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (i0 : W (Proc.devRef .tc main_v12) = Cert.ReferenceIdeal.ReadP.val_main_v12 (F := Ideal) x0) :
    StableHlo.after (s3 (F := Ideal)) W (Proc.devRef .tc main_v13) = Cert.ReferenceIdeal.ReadP.val_main_v13 (F := Ideal) x0
      ∧ StableHlo.after (s3 (F := Ideal)) W (Proc.devRef .tc main_v14) = Cert.ReferenceIdeal.ReadP.val_main_v14 (F := Ideal) x0
      ∧ StableHlo.after (s3 (F := Ideal)) W (Proc.devRef .tc main_v16) = Cert.ReferenceIdeal.ReadP.val_main_v16 (F := Ideal) x0 := by
  refine ⟨?_, ?_, ?_⟩ <;>
  (simp only [s3]; after_results_simp; (try simp only [TRef.toBuf, TRef.ofBuf, cast_eq, i0]); (try rfl))

/-! ## Stretch 4: sentinels replaced by the row's first neighbour: the neighbour table -/

/-- No operation of the stretch writes an argument. -/
theorem keeps4 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16) : ArgsAt (StableHlo.after (s4 (F := Ideal)) W) x0 x1 x2 x3 x4 x5 x6 x7 x8 x9 x10 x11 x12 x13 x14 x15 x16 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_⟩ <;> (simp only [s4]; after_results_simp; assumption)

set_option maxHeartbeats 4000000 in
/-- What the stretch leaves for later stretches, from any contents holding its inputs. -/
theorem vals4 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (i0 : W (Proc.devRef .tc main_v16) = Cert.ReferenceIdeal.ReadP.val_main_v16 (F := Ideal) x0)
    (i1 : W (Proc.devRef .tc main_v14) = Cert.ReferenceIdeal.ReadP.val_main_v14 (F := Ideal) x0)
    (i2 : W (Proc.devRef .tc main_v13) = Cert.ReferenceIdeal.ReadP.val_main_v13 (F := Ideal) x0) :
    StableHlo.after (s4 (F := Ideal)) W (Proc.devRef .tc main_v17) = Cert.ReferenceIdeal.ReadP.val_main_v17 (F := Ideal) x0 := by
  (simp only [s4]; after_results_simp; (try simp only [TRef.toBuf, TRef.ofBuf, cast_eq, i0, i1, i2]); (try rfl))

/-! ## Stretch 5: the table flattened (and kept) -/

/-- No operation of the stretch writes an argument. -/
theorem keeps5 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16) : ArgsAt (StableHlo.after (s5 (F := Ideal)) W) x0 x1 x2 x3 x4 x5 x6 x7 x8 x9 x10 x11 x12 x13 x14 x15 x16 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_⟩ <;> (simp only [s5]; after_results_simp; assumption)

set_option maxHeartbeats 4000000 in
/-- What the stretch leaves for later stretches, from any contents holding its inputs. -/
theorem vals5 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (i0 : W (Proc.devRef .tc main_v17) = Cert.ReferenceIdeal.ReadP.val_main_v17 (F := Ideal) x0) :
    StableHlo.after (s5 (F := Ideal)) W (Proc.devRef .tc main_v18) = Cert.ReferenceIdeal.ReadP.val_main_v18 (F := Ideal) x0
      ∧ StableHlo.after (s5 (F := Ideal)) W (Proc.devRef .tc main_v17) = Cert.ReferenceIdeal.ReadP.val_main_v17 (F := Ideal) x0 := by
  refine ⟨?_, ?_⟩ <;>
  (simp only [s5]; after_results_simp; (try simp only [TRef.toBuf, TRef.ofBuf, cast_eq, i0]); (try rfl))

/-! ## Stretch 6: the neighbours' positions gathered -/

/-- No operation of the stretch writes an argument. -/
theorem keeps6 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16) : ArgsAt (StableHlo.after (s6 (F := Ideal)) W) x0 x1 x2 x3 x4 x5 x6 x7 x8 x9 x10 x11 x12 x13 x14 x15 x16 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_⟩ <;> (simp only [s6]; after_results_simp; assumption)

set_option maxHeartbeats 4000000 in
/-- What the stretch leaves for later stretches, from any contents holding its inputs. -/
theorem vals6 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16)
    (i0 : W (Proc.devRef .tc main_v18) = Cert.ReferenceIdeal.ReadP.val_main_v18 (F := Ideal) x0)
    (i1 : W (Proc.devRef .tc main_v17) = Cert.ReferenceIdeal.ReadP.val_main_v17 (F := Ideal) x0) :
    StableHlo.after (s6 (F := Ideal)) W (Proc.devRef .tc main_v19) = Cert.ReferenceIdeal.ReadP.val_main_v19 (F := Ideal) x0
      ∧ StableHlo.after (s6 (F := Ideal)) W (Proc.devRef .tc main_v17) = Cert.ReferenceIdeal.ReadP.val_main_v17 (F := Ideal) x0 := by
  obtain ⟨h0, h1, h2, h3, h4, h5, h6, h7, h8, h9, h10, h11, h12, h13, h14, h15, h16⟩ := h
  refine ⟨?_, ?_⟩ <;>
  (simp only [s6]; after_results_simp; (try simp only [TRef.toBuf, TRef.ofBuf, cast_eq, i0, i1, h0, h1, h2, h3, h4, h5, h6, h7, h8, h9, h10, h11, h12, h13, h14, h15, h16]); (try rfl))

/-! ## Stretch 7: positions relative to the point, over the radius; the table flattened again -/

/-- No operation of the stretch writes an argument. -/
theorem keeps7 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16) : ArgsAt (StableHlo.after (s7 (F := Ideal)) W) x0 x1 x2 x3 x4 x5 x6 x7 x8 x9 x10 x11 x12 x13 x14 x15 x16 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_⟩ <;> (simp only [s7]; after_results_simp; assumption)

set_option maxHeartbeats 4000000 in
/-- What the stretch leaves for later stretches, from any contents holding its inputs. -/
theorem vals7 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16)
    (i0 : W (Proc.devRef .tc main_v19) = Cert.ReferenceIdeal.ReadP.val_main_v19 (F := Ideal) x0)
    (i1 : W (Proc.devRef .tc main_v17) = Cert.ReferenceIdeal.ReadP.val_main_v17 (F := Ideal) x0) :
    StableHlo.after (s7 (F := Ideal)) W (Proc.devRef .tc main_v25) = Cert.ReferenceIdeal.ReadP.val_main_v25 (F := Ideal) x0
      ∧ StableHlo.after (s7 (F := Ideal)) W (Proc.devRef .tc main_v26) = Cert.ReferenceIdeal.ReadP.val_main_v26 (F := Ideal) x0 := by
  obtain ⟨h0, h1, h2, h3, h4, h5, h6, h7, h8, h9, h10, h11, h12, h13, h14, h15, h16⟩ := h
  refine ⟨?_, ?_⟩ <;>
  (simp only [s7]; after_results_simp; (try simp only [TRef.toBuf, TRef.ofBuf, cast_eq, i0, i1, h0, h1, h2, h3, h4, h5, h6, h7, h8, h9, h10, h11, h12, h13, h14, h15, h16]); (try rfl))

/-! ## Stretch 8: the neighbours' features gathered -/

/-- No operation of the stretch writes an argument. -/
theorem keeps8 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16) : ArgsAt (StableHlo.after (s8 (F := Ideal)) W) x0 x1 x2 x3 x4 x5 x6 x7 x8 x9 x10 x11 x12 x13 x14 x15 x16 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_⟩ <;> (simp only [s8]; after_results_simp; assumption)

set_option maxHeartbeats 4000000 in
/-- What the stretch leaves for later stretches, from any contents holding its inputs. -/
theorem vals8 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16)
    (i0 : W (Proc.devRef .tc main_v26) = Cert.ReferenceIdeal.ReadP.val_main_v26 (F := Ideal) x0)
    (i1 : W (Proc.devRef .tc main_v25) = Cert.ReferenceIdeal.ReadP.val_main_v25 (F := Ideal) x0) :
    StableHlo.after (s8 (F := Ideal)) W (Proc.devRef .tc main_v27) = Cert.ReferenceIdeal.ReadP.val_main_v27 (F := Ideal) x0 x1
      ∧ StableHlo.after (s8 (F := Ideal)) W (Proc.devRef .tc main_v25) = Cert.ReferenceIdeal.ReadP.val_main_v25 (F := Ideal) x0 := by
  obtain ⟨h0, h1, h2, h3, h4, h5, h6, h7, h8, h9, h10, h11, h12, h13, h14, h15, h16⟩ := h
  refine ⟨?_, ?_⟩ <;>
  (simp only [s8]; after_results_simp; (try simp only [TRef.toBuf, TRef.ofBuf, cast_eq, i0, i1, h0, h1, h2, h3, h4, h5, h6, h7, h8, h9, h10, h11, h12, h13, h14, h15, h16]); (try rfl))

/-! ## Stretch 9: the gathered features given their neighbour axis back -/

/-- No operation of the stretch writes an argument. -/
theorem keeps9 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h : ArgsAt W x0 x1 x2 x3 x4 x5 x6 x7 x8 x9 x10 x11 x12 x13 x14 x15 x16) : ArgsAt (StableHlo.after (s9 (F := Ideal)) W) x0 x1 x2 x3 x4 x5 x6 x7 x8 x9 x10 x11 x12 x13 x14 x15 x16 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_⟩ <;> (simp only [s9]; after_results_simp; assumption)

set_option maxHeartbeats 4000000 in
/-- What the stretch leaves for later stretches, from any contents holding its inputs. -/
theorem vals9 (W : Valuation τ sig (Elt Ideal)) (x0 : (⟨S4x4096x3, .f32⟩ : BufTy).Contents (Elt Ideal)) (x1 : (⟨S4x4096x128, .f32⟩ : BufTy).Contents (Elt Ideal)) (x2 : (⟨S128x131, .f32⟩ : BufTy).Contents (Elt Ideal))
    (x3 x4 x5 x6 : (⟨S128, .f32⟩ : BufTy).Contents (Elt Ideal)) (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (i0 : W (Proc.devRef .tc main_v27) = Cert.ReferenceIdeal.ReadP.val_main_v27 (F := Ideal) x0 x1)
    (i1 : W (Proc.devRef .tc main_v25) = Cert.ReferenceIdeal.ReadP.val_main_v25 (F := Ideal) x0) :
    StableHlo.after (s9 (F := Ideal)) W (Proc.devRef .tc main_v28) = Cert.ReferenceIdeal.ReadP.val_main_v28 (F := Ideal) x0 x1
      ∧ StableHlo.after (s9 (F := Ideal)) W (Proc.devRef .tc main_v25) = Cert.ReferenceIdeal.ReadP.val_main_v25 (F := Ideal) x0 := by
  refine ⟨?_, ?_⟩ <;>
  (simp only [s9]; after_results_simp; (try simp only [TRef.toBuf, TRef.ofBuf, cast_eq, i0, i1]); (try rfl))

/-! ## The ten stretches one after the other -/

section
variable (m : (ℓ : Loc nD τ sig) → Buf (Elt Ideal) ℓ)

/-- The buffer contents after the first 79 operations, from the launch contents of core `c`. -/
abbrev found (c : Dev nD) : Valuation τ sig (Elt Ideal) :=
  StableHlo.after ((ops (F := Ideal)).take 79) (fun b => m (c, b))

/-- They are the ten stretches run one after the other. -/
theorem found_eq (c : Dev nD) :
    found m c = StableHlo.after (s9 (F := Ideal)) (StableHlo.after (s8 (F := Ideal)) (StableHlo.after (s7 (F := Ideal)) (StableHlo.after (s6 (F := Ideal)) (StableHlo.after (s5 (F := Ideal)) (StableHlo.after (s4 (F := Ideal)) (StableHlo.after (s3 (F := Ideal)) (StableHlo.after (s2 (F := Ideal)) (StableHlo.after (s1 (F := Ideal)) (StableHlo.after (s0 (F := Ideal)) (fun b => m (c, b))))))))))) := by
  show StableHlo.after ((ops (F := Ideal)).take 79) (fun b => m (c, b)) = _
  rw [pre_eq]
  simp only [Cert.LibStretch.after_append]

set_option maxHeartbeats 1000000 in
/-- After the first 79 operations: the neighbours' scaled relative positions and the neighbours' features are the staged
    functions of the first two arguments, and every argument is as launched. -/
theorem prelude_vals (c : Dev nD) :
    found m c (Proc.devRef .tc main_v25) = Cert.ReferenceIdeal.ReadP.val_main_v25 (F := Ideal) (m ((c : Thread nD τ).loc main_arg0))
      ∧ found m c (Proc.devRef .tc main_v28) = Cert.ReferenceIdeal.ReadP.val_main_v28 (F := Ideal) (m ((c : Thread nD τ).loc main_arg0)) (m ((c : Thread nD τ).loc main_arg1))
      ∧ ArgsAt (found m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [found_eq]
  have A0 : ArgsAt (fun b => m (c, b)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
    ⟨rfl, rfl, rfl, rfl, rfl, rfl, rfl, rfl, rfl, rfl, rfl, rfl, rfl, rfl, rfl, rfl, rfl⟩
  have r0 := vals0 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A0
  have A1 := keeps0 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A0
  have r1 := vals1 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) r0.2.1 r0.2.2 r0.1
  have A2 := keeps1 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A1
  have r2 := vals2 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) r1
  have A3 := keeps2 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A2
  have r3 := vals3 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) r2
  have A4 := keeps3 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A3
  have r4 := vals4 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) r3.2.2 r3.2.1 r3.1
  have A5 := keeps4 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A4
  have r5 := vals5 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) r4
  have A6 := keeps5 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A5
  have r6 := vals6 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A6 r5.1 r5.2
  have A7 := keeps6 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A6
  have r7 := vals7 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A7 r6.1 r6.2
  have A8 := keeps7 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A7
  have r8 := vals8 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A8 r7.2 r7.1
  have A9 := keeps8 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A8
  have r9 := vals9 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) r8.1 r8.2
  have A10 := keeps9 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) A9
  exact ⟨r9.2, r9.1, A10⟩

end

end Cert.ReferencePrelude

end
-- ==== Proof.ReferenceTail.lean ====
/-
  The reference after its neighbour gathers, read back stretch by stretch.

  Once the 32 neighbours' relative positions and features of every point are in their buffers, the rest of the
  reference is a straight line of 61 operations: join the two arrays along the channel axis, contract with the first
  weight matrix, normalise, clamp, take the maximum over the neighbours; contract with the second matrix, normalise,
  clamp; contract with the third, normalise, add the point's own features, clamp.  The line is cut after the pooled
  maximum and after the hidden layer into three stretches.  For each stretch, from ANY buffer contents that hold the
  stretch's inputs, the contents afterwards hold the stretch's output as the staged reading of the reference states
  it; and no stretch writes an argument of the program, so the arguments a later stretch reads are still there.
  Chaining the three gives the whole line from any contents that hold the two gathered arrays and the arguments.
-/
import proofs.«168570_j33079838113814_1_alg».proof.Proof.RunP
import proofs.«168570_j33079838113814_1_alg».proof.Proof.ReadP
import proofs.«168570_j33079838113814_1_alg».proof.Proof.LibStretch
import Idealize.ShloMosaic.Lib.StableHlo.Run

noncomputable section

namespace Cert.ReferenceTail

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

-- the two gathered arrays are only ever compared as wholes
attribute [local irreducible] Cert.ReferenceIdeal.ReadP.val_main_v25 Cert.ReferenceIdeal.ReadP.val_main_v28

/-! ## The three stretches -/

/-- Join, first contraction, normalisation, clamp, maximum over the neighbours: up to the pooled array. -/
abbrev t0 : List (HloOp τ sig (Elt F)) :=
  [ binary main_v25 main_v28 main_v29 ((fun a b => concatenate S4x4096x32x131 3 [⟨S4x4096x32x3, a⟩, ⟨S4x4096x32x128, b⟩] concatenates_S4x4096x32x3_S4x4096x32x128_S4x4096x32x131_d3) : (⟨S4x4096x32x3, .f32⟩ : BufTy).Contents (Elt F) → (⟨S4x4096x32x128, .f32⟩ : BufTy).Contents (Elt F) → (⟨S4x4096x32x131, .f32⟩ : BufTy).Contents (Elt F)),
    binary main_v29 main_arg2 main_v30 ((fun l r => Host.dotGeneral dot_S4x4096x32x131_S128x131_S4x4096x32x128_3_1_012_0_n_n none l r) : (⟨S4x4096x32x131, .f32⟩ : BufTy).Contents (Elt F) → (⟨S128x131, .f32⟩ : BufTy).Contents (Elt F) → (⟨S4x4096x32x128, .f32⟩ : BufTy).Contents (Elt F)),
    reshape main_arg3 main_v31 rfl shapeCasts_S128_S1x1x1x128,
    reshape main_arg4 main_v32 rfl shapeCasts_S128_S1x1x1x128,
    reshape main_arg5 main_v33 rfl shapeCasts_S128_S1x1x1x128,
    reshape main_arg6 main_v34 rfl shapeCasts_S128_S1x1x1x128,
    unary main_v33 main_v35 (broadcastInDim S4x4096x32x128 ![0, 1, 2, 3] bcast_S1x1x1x128_S4x4096x32x128_0_1_2_3 : (⟨S1x1x1x128, .f32⟩ : BufTy).Contents (Elt F) → (⟨S4x4096x32x128, .f32⟩ : BufTy).Contents (Elt F)),
    binary main_v30 main_v35 main_v36 (subf : (⟨S4x4096x32x128, .f32⟩ : BufTy).Contents (Elt F) → (⟨S4x4096x32x128, .f32⟩ : BufTy).Contents (Elt F) → (⟨S4x4096x32x128, .f32⟩ : BufTy).Contents (Elt F)),
    nullary main_cst_3 (constant S_ .f32 0x3727C5AC#32),
    unary main_cst_3 main_v37 (broadcastInDim S1x1x1x128 ![] bcast_S_S1x1x1x128 : (⟨S_, .f32⟩ : BufTy).Contents (Elt F) → (⟨S1x1x1x128, .f32⟩ : BufTy).Contents (Elt F)),
    binary main_v34 main_v37 main_v38 (addf : (⟨S1x1x1x128, .f32⟩ : BufTy).Contents (Elt F) → (⟨S1x1x1x128, .f32⟩ : BufTy).Contents (Elt F) → (⟨S1x1x1x128, .f32⟩ : BufTy).Contents (Elt F)),
    unary main_v38 main_v39 (Host.rsqrt : (⟨S1x1x1x128, .f32⟩ : BufTy).Contents (Elt F) → (⟨S1x1x1x128, .f32⟩ : BufTy).Contents (Elt F)),
    binary main_v31 main_v39 main_v40 (mulf : (⟨S1x1x1x128, .f32⟩ : BufTy).Contents (Elt F) → (⟨S1x1x1x128, .f32⟩ : BufTy).Contents (Elt F) → (⟨S1x1x1x128, .f32⟩ : BufTy).Contents (Elt F)),
    unary main_v40 main_v41 (broadcastInDim S4x4096x32x128 ![0, 1, 2, 3] bcast_S1x1x1x128_S4x4096x32x128_0_1_2_3 : (⟨S1x1x1x128, .f32⟩ : BufTy).Contents (Elt F) → (⟨S4x4096x32x128, .f32⟩ : BufTy).Contents (Elt F)),
    binary main_v36 main_v41 main_v42 (mulf : (⟨S4x4096x32x128, .f32⟩ : BufTy).Contents (Elt F) → (⟨S4x4096x32x128, .f32⟩ : BufTy).Contents (Elt F) → (⟨S4x4096x32x128, .f32⟩ : BufTy).Contents (Elt F)),
    unary main_v32 main_v43 (broadcastInDim S4x4096x32x128 ![0, 1, 2, 3] bcast_S1x1x1x128_S4x4096x32x128_0_1_2_3 : (⟨S1x1x1x128, .f32⟩ : BufTy).Contents (Elt F) → (⟨S4x4096x32x128, .f32⟩ : BufTy).Contents (Elt F)),
    binary main_v42 main_v43 main_v44 (addf : (⟨S4x4096x32x128, .f32⟩ : BufTy).Contents (Elt F) → (⟨S4x4096x32x128, .f32⟩ : BufTy).Contents (Elt F) → (⟨S4x4096x32x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4x4096x32x128, .f32⟩) main_call5_v0) (broadcastInDim S4x4096x32x128 ![] bcast_S_S4x4096x32x128),
    TRef.binary (TRef.of (T := ⟨S4x4096x32x128, .f32⟩) main_v44) (TRef.of (T := ⟨S4x4096x32x128, .f32⟩) main_call5_v0) (TRef.of (T := ⟨S4x4096x32x128, .f32⟩) main_v45) maximumf,
    nullary main_cst_4 (constant S_ .f32 0xFF800000#32),
    binary main_v45 main_cst_4 main_v46 ((fun x v => Host.reduce FloatOps.maximumf x v reducesTo_S4x4096x32x128_S4x4096x128_d2 h_S_) : (⟨S4x4096x32x128, .f32⟩ : BufTy).Contents (Elt F) → (⟨S_, .f32⟩ : BufTy).Contents (Elt F) → (⟨S4x4096x128, .f32⟩ : BufTy).Contents (Elt F)) ]

/-- Second contraction, normalisation, clamp: up to the hidden array. -/
abbrev t1 : List (HloOp τ sig (Elt F)) :=
  [ binary main_v46 main_arg7 main_v47 ((fun l r => Host.dotGeneral dot_S4x4096x128_S512x128_S4x4096x512_2_1_01_0_n_n none l r) : (⟨S4x4096x128, .f32⟩ : BufTy).Contents (Elt F) → (⟨S512x128, .f32⟩ : BufTy).Contents (Elt F) → (⟨S4x4096x512, .f32⟩ : BufTy).Contents (Elt F)),
    reshape main_arg8 main_v48 rfl shapeCasts_S512_S1x1x512,
    reshape main_arg9 main_v49 rfl shapeCasts_S512_S1x1x512,
    reshape main_arg10 main_v50 rfl shapeCasts_S512_S1x1x512,
    reshape main_arg11 main_v51 rfl shapeCasts_S512_S1x1x512,
    unary main_v50 main_v52 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v47 main_v52 main_v53 (subf : (⟨S4x4096x512, .f32⟩ : BufTy).Contents (Elt F) → (⟨S4x4096x512, .f32⟩ : BufTy).Contents (Elt F) → (⟨S4x4096x512, .f32⟩ : BufTy).Contents (Elt F)),
    nullary main_cst_5 (constant S_ .f32 0x3727C5AC#32),
    unary main_cst_5 main_v54 (broadcastInDim S1x1x512 ![] bcast_S_S1x1x512 : (⟨S_, .f32⟩ : BufTy).Contents (Elt F) → (⟨S1x1x512, .f32⟩ : BufTy).Contents (Elt F)),
    binary main_v51 main_v54 main_v55 (addf : (⟨S1x1x512, .f32⟩ : BufTy).Contents (Elt F) → (⟨S1x1x512, .f32⟩ : BufTy).Contents (Elt F) → (⟨S1x1x512, .f32⟩ : BufTy).Contents (Elt F)),
    unary main_v55 main_v56 (Host.rsqrt : (⟨S1x1x512, .f32⟩ : BufTy).Contents (Elt F) → (⟨S1x1x512, .f32⟩ : BufTy).Contents (Elt F)),
    binary main_v48 main_v56 main_v57 (mulf : (⟨S1x1x512, .f32⟩ : BufTy).Contents (Elt F) → (⟨S1x1x512, .f32⟩ : BufTy).Contents (Elt F) → (⟨S1x1x512, .f32⟩ : BufTy).Contents (Elt F)),
    unary main_v57 main_v58 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v53 main_v58 main_v59 (mulf : (⟨S4x4096x512, .f32⟩ : BufTy).Contents (Elt F) → (⟨S4x4096x512, .f32⟩ : BufTy).Contents (Elt F) → (⟨S4x4096x512, .f32⟩ : BufTy).Contents (Elt F)),
    unary main_v49 main_v60 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v59 main_v60 main_v61 (addf : (⟨S4x4096x512, .f32⟩ : BufTy).Contents (Elt F) → (⟨S4x4096x512, .f32⟩ : BufTy).Contents (Elt F) → (⟨S4x4096x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S4x4096x512, .f32⟩) main_call6_v0) (broadcastInDim S4x4096x512 ![] bcast_S_S4x4096x512),
    TRef.binary (TRef.of (T := ⟨S4x4096x512, .f32⟩) main_v61) (TRef.of (T := ⟨S4x4096x512, .f32⟩) main_call6_v0) (TRef.of (T := ⟨S4x4096x512, .f32⟩) main_v62) maximumf ]

/-- Third contraction, normalisation, the residual and the final clamp: up to the result. -/
abbrev t2 : List (HloOp τ sig (Elt F)) :=
  [ binary main_v62 main_arg12 main_v63 ((fun l r => Host.dotGeneral dot_S4x4096x512_S128x512_S4x4096x128_2_1_01_0_n_n none l r) : (⟨S4x4096x512, .f32⟩ : BufTy).Contents (Elt F) → (⟨S128x512, .f32⟩ : BufTy).Contents (Elt F) → (⟨S4x4096x128, .f32⟩ : BufTy).Contents (Elt F)),
    reshape main_arg13 main_v64 rfl shapeCasts_S128_S1x1x128,
    reshape main_arg14 main_v65 rfl shapeCasts_S128_S1x1x128,
    reshape main_arg15 main_v66 rfl shapeCasts_S128_S1x1x128,
    reshape main_arg16 main_v67 rfl shapeCasts_S128_S1x1x128,
    unary main_v66 main_v68 (broadcastInDim S4x4096x128 ![0, 1, 2] bcast_S1x1x128_S4x4096x128_0_1_2 : (⟨S1x1x128, .f32⟩ : BufTy).Contents (Elt F) → (⟨S4x4096x128, .f32⟩ : BufTy).Contents (Elt F)),
    binary main_v63 main_v68 main_v69 (subf : (⟨S4x4096x128, .f32⟩ : BufTy).Contents (Elt F) → (⟨S4x4096x128, .f32⟩ : BufTy).Contents (Elt F) → (⟨S4x4096x128, .f32⟩ : BufTy).Contents (Elt F)),
    nullary main_cst_6 (constant S_ .f32 0x3727C5AC#32),
    unary main_cst_6 main_v70 (broadcastInDim S1x1x128 ![] bcast_S_S1x1x128 : (⟨S_, .f32⟩ : BufTy).Contents (Elt F) → (⟨S1x1x128, .f32⟩ : BufTy).Contents (Elt F)),
    binary main_v67 main_v70 main_v71 (addf : (⟨S1x1x128, .f32⟩ : BufTy).Contents (Elt F) → (⟨S1x1x128, .f32⟩ : BufTy).Contents (Elt F) → (⟨S1x1x128, .f32⟩ : BufTy).Contents (Elt F)),
    unary main_v71 main_v72 (Host.rsqrt : (⟨S1x1x128, .f32⟩ : BufTy).Contents (Elt F) → (⟨S1x1x128, .f32⟩ : BufTy).Contents (Elt F)),
    binary main_v64 main_v72 main_v73 (mulf : (⟨S1x1x128, .f32⟩ : BufTy).Contents (Elt F) → (⟨S1x1x128, .f32⟩ : BufTy).Contents (Elt F) → (⟨S1x1x128, .f32⟩ : BufTy).Contents (Elt F)),
    unary main_v73 main_v74 (broadcastInDim S4x4096x128 ![0, 1, 2] bcast_S1x1x128_S4x4096x128_0_1_2 : (⟨S1x1x128, .f32⟩ : BufTy).Contents (Elt F) → (⟨S4x4096x128, .f32⟩ : BufTy).Contents (Elt F)),
    binary main_v69 main_v74 main_v75 (mulf : (⟨S4x4096x128, .f32⟩ : BufTy).Contents (Elt F) → (⟨S4x4096x128, .f32⟩ : BufTy).Contents (Elt F) → (⟨S4x4096x128, .f32⟩ : BufTy).Contents (Elt F)),
    unary main_v65 main_v76 (broadcastInDim S4x4096x128 ![0, 1, 2] bcast_S1x1x128_S4x4096x128_0_1_2 : (⟨S1x1x128, .f32⟩ : BufTy).Contents (Elt F) → (⟨S4x4096x128, .f32⟩ : BufTy).Contents (Elt F)),
    binary main_v75 main_v76 main_v77 (addf : (⟨S4x4096x128, .f32⟩ : BufTy).Contents (Elt F) → (⟨S4x4096x128, .f32⟩ : BufTy).Contents (Elt F) → (⟨S4x4096x128, .f32⟩ : BufTy).Contents (Elt F)),
    binary main_v77 main_arg1 main_v78 (addf : (⟨S4x4096x128, .f32⟩ : BufTy).Contents (Elt F) → (⟨S4x4096x128, .f32⟩ : BufTy).Contents (Elt F) → (⟨S4x4096x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S4x4096x128, .f32⟩) main_call7_v0) (broadcastInDim S4x4096x128 ![] bcast_S_S4x4096x128),
    TRef.binary (TRef.of (T := ⟨S4x4096x128, .f32⟩) main_v78) (TRef.of (T := ⟨S4x4096x128, .f32⟩) main_call7_v0) (TRef.of (T := ⟨S4x4096x128, .f32⟩) main_v79) maximumf ]

set_option maxRecDepth 8192 in
/-- The reference's operations after the first 79 are the three stretches, in order. -/
theorem post_eq : (ops (F := F)).drop 79 = t0 ++ t1 ++ t2 := rfl

/-! ## Each stretch from any contents -/

set_option maxRecDepth 8192 in
set_option maxHeartbeats 4000000 in
theorem tail0 (W : Valuation τ sig (Elt Ideal)) (x0 : (⟨S4x4096x3, .f32⟩ : BufTy).Contents (Elt Ideal)) (x1 : (⟨S4x4096x128, .f32⟩ : BufTy).Contents (Elt Ideal))
    (x2 : (⟨S128x131, .f32⟩ : BufTy).Contents (Elt Ideal)) (x3 x4 x5 x6 : (⟨S128, .f32⟩ : BufTy).Contents (Elt Ideal))
    (h25 : W (Proc.devRef .tc main_v25) = Cert.ReferenceIdeal.ReadP.val_main_v25 (F := Ideal) x0)
    (h28 : W (Proc.devRef .tc main_v28) = Cert.ReferenceIdeal.ReadP.val_main_v28 (F := Ideal) x0 x1)
    (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6) :
    StableHlo.after (t0 (F := Ideal)) W (Proc.devRef .tc main_v46)
      = Cert.ReferenceIdeal.ReadP.val_main_v46 (F := Ideal) x0 x1 x2 x3 x4 x5 x6 := by
  after_results_simp
  simp only [TRef.toBuf, TRef.ofBuf, cast_eq, h2, h3, h4, h5, h6]
  rw [h25, h28]
  rfl

set_option maxRecDepth 8192 in
set_option maxHeartbeats 4000000 in
theorem tail1 (W : Valuation τ sig (Elt Ideal)) (x0 : (⟨S4x4096x3, .f32⟩ : BufTy).Contents (Elt Ideal)) (x1 : (⟨S4x4096x128, .f32⟩ : BufTy).Contents (Elt Ideal))
    (x2 : (⟨S128x131, .f32⟩ : BufTy).Contents (Elt Ideal)) (x3 x4 x5 x6 : (⟨S128, .f32⟩ : BufTy).Contents (Elt Ideal))
    (x7 : (⟨S512x128, .f32⟩ : BufTy).Contents (Elt Ideal)) (x8 x9 x10 x11 : (⟨S512, .f32⟩ : BufTy).Contents (Elt Ideal))
    (h46 : W (Proc.devRef .tc main_v46) = Cert.ReferenceIdeal.ReadP.val_main_v46 (F := Ideal) x0 x1 x2 x3 x4 x5 x6)
    (h7 : W (Proc.devRef .tc main_arg7) = x7) (h8 : W (Proc.devRef .tc main_arg8) = x8) (h9 : W (Proc.devRef .tc main_arg9) = x9) (h10 : W (Proc.devRef .tc main_arg10) = x10) (h11 : W (Proc.devRef .tc main_arg11) = x11) :
    StableHlo.after (t1 (F := Ideal)) W (Proc.devRef .tc main_v62)
      = Cert.ReferenceIdeal.ReadP.val_main_v62 (F := Ideal) x0 x1 x2 x3 x4 x5 x6 x7 x8 x9 x10 x11 := by
  after_results_simp
  simp only [TRef.toBuf, TRef.ofBuf, cast_eq, h46, h7, h8, h9, h10, h11]
  rfl

set_option maxRecDepth 8192 in
set_option maxHeartbeats 4000000 in
theorem tail2 (W : Valuation τ sig (Elt Ideal)) (x0 : (⟨S4x4096x3, .f32⟩ : BufTy).Contents (Elt Ideal)) (x1 : (⟨S4x4096x128, .f32⟩ : BufTy).Contents (Elt Ideal))
    (x2 : (⟨S128x131, .f32⟩ : BufTy).Contents (Elt Ideal)) (x3 x4 x5 x6 : (⟨S128, .f32⟩ : BufTy).Contents (Elt Ideal))
    (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h62 : W (Proc.devRef .tc main_v62) = Cert.ReferenceIdeal.ReadP.val_main_v62 (F := Ideal) x0 x1 x2 x3 x4 x5 x6 x7 x8 x9 x10 x11)
    (h1 : W (Proc.devRef .tc main_arg1) = x1) (h12 : W (Proc.devRef .tc main_arg12) = x12) (h13 : W (Proc.devRef .tc main_arg13) = x13) (h14 : W (Proc.devRef .tc main_arg14) = x14) (h15 : W (Proc.devRef .tc main_arg15) = x15) (h16 : W (Proc.devRef .tc main_arg16) = x16) :
    StableHlo.after (t2 (F := Ideal)) W (Proc.devRef .tc main_v79)
      = Cert.ReferenceIdeal.ReadP.val_main_v79 (F := Ideal) x0 x1 x2 x3 x4 x5 x6 x7 x8 x9 x10 x11 x12 x13 x14 x15 x16 := by
  after_results_simp
  simp only [TRef.toBuf, TRef.ofBuf, cast_eq, h62, h1, h12, h13, h14, h15, h16]
  rfl

/-! ## The arguments later stretches read are not written -/

set_option maxRecDepth 8192 in
set_option maxHeartbeats 4000000 in
theorem keep0 (W : Valuation τ sig (Elt Ideal)) :
    (StableHlo.after (t0 (F := Ideal)) W (Proc.devRef .tc main_arg1) = W (Proc.devRef .tc main_arg1))
    ∧ (StableHlo.after (t0 (F := Ideal)) W (Proc.devRef .tc main_arg7) = W (Proc.devRef .tc main_arg7))
    ∧ (StableHlo.after (t0 (F := Ideal)) W (Proc.devRef .tc main_arg8) = W (Proc.devRef .tc main_arg8))
    ∧ (StableHlo.after (t0 (F := Ideal)) W (Proc.devRef .tc main_arg9) = W (Proc.devRef .tc main_arg9))
    ∧ (StableHlo.after (t0 (F := Ideal)) W (Proc.devRef .tc main_arg10) = W (Proc.devRef .tc main_arg10))
    ∧ (StableHlo.after (t0 (F := Ideal)) W (Proc.devRef .tc main_arg11) = W (Proc.devRef .tc main_arg11))
    ∧ (StableHlo.after (t0 (F := Ideal)) W (Proc.devRef .tc main_arg12) = W (Proc.devRef .tc main_arg12))
    ∧ (StableHlo.after (t0 (F := Ideal)) W (Proc.devRef .tc main_arg13) = W (Proc.devRef .tc main_arg13))
    ∧ (StableHlo.after (t0 (F := Ideal)) W (Proc.devRef .tc main_arg14) = W (Proc.devRef .tc main_arg14))
    ∧ (StableHlo.after (t0 (F := Ideal)) W (Proc.devRef .tc main_arg15) = W (Proc.devRef .tc main_arg15))
    ∧ (StableHlo.after (t0 (F := Ideal)) W (Proc.devRef .tc main_arg16) = W (Proc.devRef .tc main_arg16)) := by
  refine ⟨?_, ?_, ?_, ?_, ?_, ?_, ?_, ?_, ?_, ?_, ?_⟩ <;> (after_results_simp <;> rfl)

set_option maxRecDepth 8192 in
set_option maxHeartbeats 4000000 in
theorem keep1 (W : Valuation τ sig (Elt Ideal)) :
    (StableHlo.after (t1 (F := Ideal)) W (Proc.devRef .tc main_arg1) = W (Proc.devRef .tc main_arg1))
    ∧ (StableHlo.after (t1 (F := Ideal)) W (Proc.devRef .tc main_arg12) = W (Proc.devRef .tc main_arg12))
    ∧ (StableHlo.after (t1 (F := Ideal)) W (Proc.devRef .tc main_arg13) = W (Proc.devRef .tc main_arg13))
    ∧ (StableHlo.after (t1 (F := Ideal)) W (Proc.devRef .tc main_arg14) = W (Proc.devRef .tc main_arg14))
    ∧ (StableHlo.after (t1 (F := Ideal)) W (Proc.devRef .tc main_arg15) = W (Proc.devRef .tc main_arg15))
    ∧ (StableHlo.after (t1 (F := Ideal)) W (Proc.devRef .tc main_arg16) = W (Proc.devRef .tc main_arg16)) := by
  refine ⟨?_, ?_, ?_, ?_, ?_, ?_⟩ <;> (after_results_simp <;> rfl)

/-! ## The whole line after the gathers -/

/-- From any contents that hold the gathered neighbour positions and features and the arguments 1 to 16, the
    reference's operations after the first 79 leave the result buffer at the staged reading of the whole reference. -/
theorem post_after (W : Valuation τ sig (Elt Ideal)) (x0 : (⟨S4x4096x3, .f32⟩ : BufTy).Contents (Elt Ideal)) (x1 : (⟨S4x4096x128, .f32⟩ : BufTy).Contents (Elt Ideal))
    (x2 : (⟨S128x131, .f32⟩ : BufTy).Contents (Elt Ideal)) (x3 x4 x5 x6 : (⟨S128, .f32⟩ : BufTy).Contents (Elt Ideal))
    (x7 : (⟨S512x128, .f32⟩ : BufTy).Contents (Elt Ideal)) (x8 x9 x10 x11 : (⟨S512, .f32⟩ : BufTy).Contents (Elt Ideal))
    (x12 : (⟨S128x512, .f32⟩ : BufTy).Contents (Elt Ideal)) (x13 x14 x15 x16 : (⟨S128, .f32⟩ : BufTy).Contents (Elt Ideal))
    (h25 : W (Proc.devRef .tc main_v25) = Cert.ReferenceIdeal.ReadP.val_main_v25 (F := Ideal) x0)
    (h28 : W (Proc.devRef .tc main_v28) = Cert.ReferenceIdeal.ReadP.val_main_v28 (F := Ideal) x0 x1)
    (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6) (h7 : W (Proc.devRef .tc main_arg7) = x7) (h8 : W (Proc.devRef .tc main_arg8) = x8) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) (h15 : W (Proc.devRef .tc main_arg15) = x15) (h16 : W (Proc.devRef .tc main_arg16) = x16) :
    StableHlo.after ((ops (F := Ideal)).drop 79) W (Proc.devRef .tc main_v79)
      = Cert.ReferenceIdeal.ReadP.val_main_v79 (F := Ideal) x0 x1 x2 x3 x4 x5 x6 x7 x8 x9 x10 x11 x12 x13 x14 x15 x16 := by
  rw [post_eq, Cert.LibStretch.after_append, Cert.LibStretch.after_append]
  obtain ⟨a1, a7, a8, a9, a10, a11, a12, a13, a14, a15, a16⟩ := keep0 W
  obtain ⟨b1, b12, b13, b14, b15, b16⟩ := keep1 (StableHlo.after (t0 (F := Ideal)) W)
  have e46 := tail0 W x0 x1 x2 x3 x4 x5 x6 h25 h28 h2 h3 h4 h5 h6
  have e62 := tail1 (StableHlo.after (t0 (F := Ideal)) W) x0 x1 x2 x3 x4 x5 x6 x7 x8 x9 x10 x11 e46
    (a7.trans h7) (a8.trans h8) (a9.trans h9) (a10.trans h10) (a11.trans h11)
  exact tail2 (StableHlo.after (t1 (F := Ideal)) (StableHlo.after (t0 (F := Ideal)) W))
    x0 x1 x2 x3 x4 x5 x6 x7 x8 x9 x10 x11 x12 x13 x14 x15 x16 e62
    (b1.trans (a1.trans h1)) (b12.trans (a12.trans h12)) (b13.trans (a13.trans h13)) (b14.trans (a14.trans h14))
    (b15.trans (a15.trans h15)) (b16.trans (a16.trans h16))

end Cert.ReferenceTail

end
-- ==== Proof.ReferenceRun.lean ====
/-
  The reference's run, and its result as the staged reading.

  `run_after`: on every device, from any memory with zero counters, every weakly fair execution of the reference
  terminates; afterwards the result buffer holds the fold of the program's 140 operations over the launch contents,
  and each of the 17 arguments holds what it held at launch (no operation writes an argument).

  `result_eq`: that fold, at the result buffer, is the staged reading of the reference applied to the 17 arguments'
  launch contents.  The 140 operations split into the first 79 (the neighbour search and the two gathers), after which
  the buffers hold the gathered positions and features and the unchanged arguments, and the remaining 61, which from any
  such contents produce the result.
-/
import proofs.«168570_j33079838113814_1_alg».proof.Proof.RunP
import proofs.«168570_j33079838113814_1_alg».proof.Proof.ReadP
import proofs.«168570_j33079838113814_1_alg».proof.Proof.LibStretch
import proofs.«168570_j33079838113814_1_alg».proof.Proof.ReferencePrelude
import proofs.«168570_j33079838113814_1_alg».proof.Proof.ReferenceTail
import Idealize.ShloMosaic.Lib.StableHlo.Run

noncomputable section

namespace Cert.ReferenceRun

open Cert.ReferenceIdeal Cert.ReferenceIdeal.Gen Cert.ReferenceIdeal.ValueP Idealize.ShloMosaic Idealize.ShloMosaic.TcCoe Idealize.SL.Sem Idealize.ShloMosaic.StableHlo

set_option maxRecDepth 8192 in
set_option maxHeartbeats 56000000 in
/-- On every device, from any memory with zero counters: every weakly fair execution of the reference terminates with
    the result buffer at the fold of the 140 operations over the launch contents, and the 17 arguments unchanged. -/
theorem run_after (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79) = StableHlo.after (ops (F := Ideal)) (fun b => m (c, b)) (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨h c main_v79,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl)⟩)
    (run_seq scopedRefs_eq scopedSems_eq defs main (fun _ => ops) main_eq (fun _ => ops_sub) m ρ)

/-- The fold of the 140 operations over the launch contents, at the result buffer, is the staged reading of the reference
    at the arguments' launch contents. -/
theorem result_eq (m : (ℓ : Loc nD τ sig) → Buf (Elt Ideal) ℓ) (c : Dev nD) :
    StableHlo.after (ops (F := Ideal)) (fun b => m (c, b)) (Proc.devRef .tc main_v79)
      = Cert.ReferenceIdeal.ReadP.val_main_v79 (F := Ideal)
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have hsplit : StableHlo.after (ops (F := Ideal)) (fun b => m (c, b))
      = StableHlo.after ((ops (F := Ideal)).drop 79) (StableHlo.after ((ops (F := Ideal)).take 79) (fun b => m (c, b))) :=
    (congrArg (fun l => StableHlo.after l (fun b => m (c, b))) (List.take_append_drop 79 (ops (F := Ideal))).symm).trans
      (Cert.LibStretch.after_append _ _ _)
  rw [hsplit]
  obtain ⟨h25, h28, h0, h1, h2, h3, h4, h5, h6, h7, h8, h9, h10, h11, h12, h13, h14, h15, h16⟩ :=
    Cert.ReferencePrelude.prelude_vals m c
  exact Cert.ReferenceTail.post_after _ _ _ _ _ _ _ _ _ _ _ _ _ _ _ _ _ _ h25 h28 h1 h2 h3 h4 h5 h6 h7 h8 h9 h10 h11 h12 h13
    h14 h15 h16

end Cert.ReferenceRun

end
-- ==== Proof.lean ====
/-
  The inverted-residual point block: the Pallas kernel and its jnp reference compute the same extended-real function.

  Both programs first build, by the same host operations, each point's 32 nearest in-ball neighbours (squared
  distances, a sort, two gathers) and the neighbours' relative positions over the radius. The kernel then runs on 64 grid
  points of 256 cloud points each: per neighbour a linear map of the 128 feature channels plus a linear map of the 3
  position channels, a batch normalisation, a clamp at zero; the maximum over the 32 neighbours; a 128 → 512 → 128
  bottleneck with batch normalisations, the point's own features added, a final clamp. The reference joins the 3 + 128
  channels and contracts them against the whole 131-column matrix, and works on the un-flattened [4, 4096, …] arrays.
  On the extended reals the two agree: a sum over the 131 joined channels is the sum over the feature channels plus
  the sum over the position channels (addition is commutative and associative; no finiteness is used), the
  low-precision casts are the identity, and every literal (the `ε` of the normalisations, the zeros, `-∞`) is the same
  word on both sides.

  The pieces: `PointBlock` (the block at one point, and the split of the 131-sum), `KernelPoint` (the kernel body at an
  index), `KernelRows` / `KernelFlush` (from the 64 blocks to the output array), `KernelPrelude` / `KernelArrays` (the
  launch arrays as functions of the arguments, the shared neighbour construction kept as staged functions),
  `KernelValue` (the kernel's run with its result named), `ReferencePoint` (the reference's staged program at an index),
  `ReferenceRun` (the reference's run). The idealization rewrote nothing, so `preserves` is trivial.
-/
import proofs.«168570_j33079838113814_1_alg».proof.Defs
import proofs.«168570_j33079838113814_1_alg».proof.Proof.Gen.Kernel
import proofs.«168570_j33079838113814_1_alg».proof.Proof.Gen.Kernel.Skeleton
import proofs.«168570_j33079838113814_1_alg».proof.Proof.Gen.Kernel.Launch
import proofs.«168570_j33079838113814_1_alg».proof.Proof.Gen.Kernel.Points
import proofs.«168570_j33079838113814_1_alg».proof.Proof.Gen.Kernel.Frame
import proofs.«168570_j33079838113814_1_alg».proof.Proof.Gen.KernelIdeal
import proofs.«168570_j33079838113814_1_alg».proof.Proof.Gen.KernelIdeal.Skeleton
import proofs.«168570_j33079838113814_1_alg».proof.Proof.Gen.KernelIdeal.Launch
import proofs.«168570_j33079838113814_1_alg».proof.Proof.Gen.KernelIdeal.Points
import proofs.«168570_j33079838113814_1_alg».proof.Proof.Gen.KernelIdeal.Frame
import proofs.«168570_j33079838113814_1_alg».proof.Proof.Gen.ReferenceIdeal
import proofs.«168570_j33079838113814_1_alg».proof.Proof.Gen.Pre_finite_inputs
import proofs.«168570_j33079838113814_1_alg».proof.Proof.KernelValue
import proofs.«168570_j33079838113814_1_alg».proof.Proof.ReferenceRun
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceRun.run_after m ρ)

/-- Both programs end at the reference's staged result of the (agreeing) arguments. -/
theorem algebraic : Cert.algebraic_KernelIdeal_ReferenceIdeal := by
  intro m ρ m' ρ' _ hagree
  refine ⟨fun c => Cert.KernelValue.expected m c, Cert.KernelValue.run m ρ, ?_⟩
  refine (θ_run Cert.ReferenceIdeal.defs _ _).mono (fun _ h c => ⟨(h c).1.trans ?_, (h c).2⟩)
    (Cert.ReferenceRun.run_after m' ρ')
  obtain ⟨e0, e1, e2, e3, e4, e5, e6, e7, e8, e9, e10, e11, e12, e13, e14, e15, e16⟩ := hagree c
  rw [Cert.ReferenceRun.result_eq m' c, e0, e1, e2, e3, e4, e5, e6, e7, e8, e9, e10, e11, e12, e13, e14, e15, e16]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
